-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19_1)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_1) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x512 : Shape := ⟨2, ![1, 512]⟩
abbrev S50000x512 : Shape := ⟨2, ![50000, 512]⟩
abbrev S512x512 : Shape := ⟨2, ![512, 512]⟩
abbrev S512 : Shape := ⟨1, ![512]⟩
abbrev S512x1 : Shape := ⟨2, ![512, 1]⟩
abbrev S262144x512 : Shape := ⟨2, ![262144, 512]⟩
abbrev S262144 : Shape := ⟨1, ![262144]⟩
abbrev S50000 : Shape := ⟨1, ![50000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1x512 : S_.BroadcastsInDim S1x512 (![] : Fin 0 → Fin S1x512.rank)
  reducesTo_S1x512_S_d0_1 : S1x512.ReducesTo [0, 1] S_
  bcast_S_S50000x512 : S_.BroadcastsInDim S50000x512 (![] : Fin 0 → Fin S50000x512.rank)
  reducesTo_S50000x512_S_d0_1 : S50000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S262144x512 : S_.BroadcastsInDim S262144x512 (![] : Fin 0 → Fin S262144x512.rank)
  reducesTo_S262144x512_S_d0_1 : S262144x512.ReducesTo [0, 1] S_
  bcast_S_S262144 : S_.BroadcastsInDim S262144 (![] : Fin 0 → Fin S262144.rank)
  reducesTo_S262144_S_d0 : S262144.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg17 : FVec F S50000 .f32) (main_v63 : IVec S_ 1) (main_v67 : IVec S_ 1) : IVec S_ 1 :=
  let main_v68 : IVec S_ 1 := andi main_v63 main_v67
  let main_v69 : FVec F S50000 .f32 := Host.absf main_arg17
  let main_cst_26 : FVec F S_ .f32 := constant S_ .f32 0x7F800000#32
  let main_v70 : FVec F S50000 .f32 := broadcastInDim S50000 ![] bcast_S_S50000 main_cst_26
  let main_v71 : IVec S50000 1 := cmpf .olt main_v69 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v68 main_v72
  main_v73

def fn_part3 {F : FTy → Type} [FloatOps F] (main_arg14 : FVec F S512x512 .f32) (main_arg15 : FVec F S512 .f32) (main_arg16 : FVec F S50000x512 .f32) (main_arg17 : FVec F S50000 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg14
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S50000x512 .f32 := Host.absf main_arg16
  let main_cst_24 : FVec F S_ .f32 := constant S_ .f32 0x7F800000#32
  let main_v65 : FVec F S50000x512 .f32 := broadcastInDim S50000x512 ![] bcast_S_S50000x512 main_cst_24
  let main_v66 : IVec S50000x512 1 := cmpf .olt main_v64 main_v65
  let main_c_25 : IVec S_ 1 := constantI S_ 1 1#1
  let main_v67 : IVec S_ 1 := (fun x v => Host.reduce IntOp.andi x v reducesTo_S50000x512_S_d0_1 h_S_) main_v66 main_c_25
  fn_part4 (F := F) main_arg17 main_v63 main_v67

def fn_part2 {F : FTy → Type} [FloatOps F] (main_arg10 : FVec F S512 .f32) (main_arg11 : FVec F S262144x512 .f32) (main_arg12 : FVec F S262144 .f32) (main_arg13 : FVec F S512 .f32) (main_arg14 : FVec F S512x512 .f32) (main_arg15 : FVec F S512 .f32) (main_arg16 : FVec F S50000x512 .f32) (main_arg17 : FVec F S50000 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S262144x512 .f32 := Host.absf main_arg11
  let main_cst_14 : FVec F S_ .f32 := constant S_ .f32 0x7F800000#32
  let main_v40 : FVec F S262144x512 .f32 := broadcastInDim S262144x512 ![] bcast_S_S262144x512 main_cst_14
  let main_v41 : IVec S262144x512 1 := cmpf .olt main_v39 main_v40
  let main_c_15 : IVec S_ 1 := constantI S_ 1 1#1
  let main_v42 : IVec S_ 1 := (fun x v => Host.reduce IntOp.andi x v reducesTo_S262144x512_S_d0_1 h_S_) main_v41 main_c_15
  let main_v43 : IVec S_ 1 := andi main_v38 main_v42
  let main_v44 : FVec F S262144 .f32 := Host.absf main_arg12
  let main_cst_16 : FVec F S_ .f32 := constant S_ .f32 0x7F800000#32
  let main_v45 : FVec F S262144 .f32 := broadcastInDim S262144 ![] bcast_S_S262144 main_cst_16
  let main_v46 : IVec S262144 1 := cmpf .olt main_v44 main_v45
  let main_c_17 : IVec S_ 1 := constantI S_ 1 1#1
  let main_v47 : IVec S_ 1 := (fun x v => Host.reduce IntOp.andi x v reducesTo_S262144_S_d0 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg14 main_arg15 main_arg16 main_arg17 main_v48 main_v49 main_v50

def fn_part1 {F : FTy → Type} [FloatOps F] (main_arg7 : FVec F S512x512 .f32) (main_arg8 : FVec F S512 .f32) (main_arg9 : FVec F S512x1 .f32) (main_arg10 : FVec F S512 .f32) (main_arg11 : FVec F S262144x512 .f32) (main_arg12 : FVec F S262144 .f32) (main_arg13 : FVec F S512 .f32) (main_arg14 : FVec F S512x512 .f32) (main_arg15 : FVec F S512 .f32) (main_arg16 : FVec F S50000x512 .f32) (main_arg17 : FVec F S50000 .f32) (main_v13 : IVec S_ 1) (main_v16 : IVec S50000x512 1) : IVec S_ 1 :=
  let main_c_5 : IVec S_ 1 := constantI S_ 1 1#1
  let main_v17 : IVec S_ 1 := (fun x v => Host.reduce IntOp.andi x v reducesTo_S50000x512_S_d0_1 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg9
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : IVec S1 32) (main_arg1 : IVec S1 32) (main_arg2 : IVec S1 32) (main_arg3 : FVec F S1 .f32) (main_arg4 : FVec F S1x512 .f32) (main_arg5 : FVec F S1x512 .f32) (main_arg6 : FVec F S50000x512 .f32) (main_arg7 : FVec F S512x512 .f32) (main_arg8 : FVec F S512 .f32) (main_arg9 : FVec F S512x1 .f32) (main_arg10 : FVec F S512 .f32) (main_arg11 : FVec F S262144x512 .f32) (main_arg12 : FVec F S262144 .f32) (main_arg13 : FVec F S512 .f32) (main_arg14 : FVec F S512x512 .f32) (main_arg15 : FVec F S512 .f32) (main_arg16 : FVec F S50000x512 .f32) (main_arg17 : FVec F S50000 .f32) : IVec S_ 1 :=
  let main_v0 : FVec F S1 .f32 := Host.absf main_arg3
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1x512 .f32 := Host.absf main_arg4
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg5
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S50000x512 .f32 := Host.absf main_arg6
  let main_cst_4 : FVec F S_ .f32 := constant S_ .f32 0x7F800000#32
  let main_v15 : FVec F S50000x512 .f32 := broadcastInDim S50000x512 ![] bcast_S_S50000x512 main_cst_4
  let main_v16 : IVec S50000x512 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S1 : Shape := ⟨1, ![1]⟩
abbrev S1x512 : Shape := ⟨2, ![1, 512]⟩
abbrev S50000x512 : Shape := ⟨2, ![50000, 512]⟩
abbrev S512x512 : Shape := ⟨2, ![512, 512]⟩
abbrev S512 : Shape := ⟨1, ![512]⟩
abbrev S512x1 : Shape := ⟨2, ![512, 1]⟩
abbrev S262144x512 : Shape := ⟨2, ![262144, 512]⟩
abbrev S262144 : Shape := ⟨1, ![262144]⟩
abbrev S50000 : Shape := ⟨1, ![50000]⟩
abbrev S_ : Shape := ⟨0, ![]⟩
abbrev S1x1 : Shape := ⟨2, ![1, 1]⟩
abbrev S1x262144 : Shape := ⟨2, ![1, 262144]⟩
abbrev S1x50000 : Shape := ⟨2, ![1, 50000]⟩
abbrev S4096x512 : Shape := ⟨2, ![4096, 512]⟩
abbrev S1x4096 : Shape := ⟨2, ![1, 4096]⟩

abbrev nBuf : Space → Nat
  | .hbm => 41
  | .vmem => 27
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S1, .i32⟩
  | .hbm, ⟨3, _⟩ => ⟨S1, .f32⟩
  | .hbm, ⟨4, _⟩ => ⟨S1x512, .f32⟩
  | .hbm, ⟨5, _⟩ => ⟨S1x512, .f32⟩
  | .hbm, ⟨6, _⟩ => ⟨S50000x512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S262144x512, .f32⟩
  | .hbm, ⟨12, _⟩ => ⟨S262144, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S50000x512, .f32⟩
  | .hbm, ⟨17, _⟩ => ⟨S50000, .f32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S1x1, .i32⟩
  | .hbm, ⟨26, _⟩ => ⟨S1x512, .f32⟩
  | .hbm, ⟨27, _⟩ => ⟨S1x1, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x262144, .f32⟩
  | .hbm, ⟨35, _⟩ => ⟨S1x50000, .f32⟩
  | .hbm, ⟨36, _⟩ => ⟨S1x512, .f32⟩
  | .hbm, ⟨37, _⟩ => ⟨S1x262144, .f32⟩
  | .hbm, ⟨38, _⟩ => ⟨S512x512, .f32⟩
  | .hbm, ⟨39, _⟩ => ⟨S1x512, .f32⟩
  | .hbm, ⟨40, _⟩ => ⟨S1x50000, .f32⟩
  | .local _ .vmem, ⟨0, _⟩ => ⟨S1x512, .f32⟩
  | .local _ .vmem, ⟨1, _⟩ => ⟨S512x512, .f32⟩
  | .local _ .vmem, ⟨2, _⟩ => ⟨S1x1, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4096x512, .f32⟩
  | .local _ .vmem, ⟨9, _⟩ => ⟨S4096x512, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc2_sem8_0 : DmaSem sig := 24
abbrev cc2_sem9_0 : DmaSem sig := 25
abbrev cc2_sem9_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1_S1x1 : S1.ShapeCasts S1x1
  shapeCasts_S512x1_S512 : S512x1.ShapeCasts S512
  shapeCasts_S512_S1x512 : S512.ShapeCasts S1x512
  shapeCasts_S262144_S1x262144 : S262144.ShapeCasts S1x262144
  shapeCasts_S50000_S1x50000 : S50000.ShapeCasts S1x50000
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x512_S1x512 : S1x512.ShapeCasts S1x512
  broadcasts_S1x1_S1x512 : S1x1.Broadcasts S1x512
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x262144_S512x512 : S1x262144.ShapeCasts S512x512
  shapeCasts_S512x512_S512x512 : S512x512.ShapeCasts S512x512
  gather_S50000x512_S1x1_S1x512_1_0_n_n_0_1_1512_wf : GatherDims.WF S50000x512 S1x1 S1x512 [1] [0] [] [0] [] 1 ![1, 512]
  dot_S1x512_S512x512_S1x512_1_1_0_0_n_n_wf : DotDims.WF S1x512 S512x512 S1x512 [1] [1] [0] [0] [] []
  dot_S1x512_S4096x512_S1x4096_1_1_0_0_n_n_wf : DotDims.WF S1x512 S4096x512 S1x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x512.size a
  hwx1_0 : ∀ i : grid1.Coords, EltTy.bits .f32 = 32 ∨ (Rect.block (s := S1x512) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S262144x512.size a
  hwx1_1 : ∀ i : grid1.Coords, EltTy.bits .f32 = 32 ∨ (Rect.block (s := S262144x512) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x262144.size a
  hwx1_2 : ∀ i : grid1.Coords, EltTy.bits .f32 = 32 ∨ (Rect.block (s := S1x262144) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x262144.size a
  hwx1_3 : ∀ i : grid1.Coords, EltTy.bits .f32 = 32 ∨ (Rect.block (s := S1x262144) S1x4096.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x512.size a ≤ S1x512.size a
  hwx2_0 : ∀ i : grid2.Coords, EltTy.bits .f32 = 32 ∨ (Rect.block (s := S1x512) S1x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hstart2_6 : ∀ (i : grid2.Coords) a, cc2_transform_6 i a * S512x512.size a < S50000x512.size a
  hwx2_6 : ∀ i : grid2.Coords, EltTy.bits .f32 = 32 ∨ (Rect.unit (s := S50000x512) (fun a => cc2_transform_6 i a * S512x512.size a) (fun a => (Pipeline.Clip.of (cc2_transform_6 i a) (S512x512.size a) (S50000x512.size a)).extent (S512x512.size a)) fun a => Pipeline.Clip.inb (Pipeline.Clip.ok_of (hstart2_6 i a))).WholeWords (EltTy.packing .f32)
  hwxs2_6 : ∀ i : grid2.Coords, EltTy.bits .f32 = 32 ∨ (Rect.unit (s := S512x512) (fun _ => 0) (fun a => (Pipeline.Clip.of (cc2_transform_6 i a) (S512x512.size a) (S50000x512.size a)).extent (S512x512.size a)) fun a => (Nat.zero_add _).trans_le (Pipeline.Clip.extent_le (Pipeline.Clip.ok_of (hstart2_6 i a)))).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hstart2_7 : ∀ (i : grid2.Coords) a, cc2_transform_7 i a * S1x512.size a < S1x50000.size a
  hwx2_7 : ∀ i : grid2.Coords, EltTy.bits .f32 = 32 ∨ (Rect.unit (s := S1x50000) (fun a => cc2_transform_7 i a * S1x512.size a) (fun a => (Pipeline.Clip.of (cc2_transform_7 i a) (S1x512.size a) (S1x50000.size a)).extent (S1x512.size a)) fun a => Pipeline.Clip.inb (Pipeline.Clip.ok_of (hstart2_7 i a))).WholeWords (EltTy.packing .f32)
  hwxs2_7 : ∀ i : grid2.Coords, EltTy.bits .f32 = 32 ∨ (Rect.unit (s := S1x512) (fun _ => 0) (fun a => (Pipeline.Clip.of (cc2_transform_7 i a) (S1x512.size a) (S1x50000.size a)).extent (S1x512.size a)) fun a => (Nat.zero_add _).trans_le (Pipeline.Clip.extent_le (Pipeline.Clip.ok_of (hstart2_7 i a)))).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hstart2_9 : ∀ (i : grid2.Coords) a, cc2_transform_9 i a * S1x512.size a < S1x50000.size a
  hwx2_9 : ∀ i : grid2.Coords, EltTy.bits .f32 = 32 ∨ (Rect.unit (s := S1x50000) (fun a => cc2_transform_9 i a * S1x512.size a) (fun a => (Pipeline.Clip.of (cc2_transform_9 i a) (S1x512.size a) (S1x50000.size a)).extent (S1x512.size a)) fun a => Pipeline.Clip.inb (Pipeline.Clip.ok_of (hstart2_9 i a))).WholeWords (EltTy.packing .f32)
  hwxs2_9 : ∀ i : grid2.Coords, EltTy.bits .f32 = 32 ∨ (Rect.unit (s := S1x512) (fun _ => 0) (fun a => (Pipeline.Clip.of (cc2_transform_9 i a) (S1x512.size a) (S1x50000.size a)).extent (S1x512.size a)) fun a => (Nat.zero_add _).trans_le (Pipeline.Clip.extent_le (Pipeline.Clip.ok_of (hstart2_9 i a)))).WholeWords (EltTy.packing .f32)

variable [Facts₀]

def gather_S50000x512_S1x1_S1x512_1_0_n_n_0_1_1512 : GatherDims S50000x512 S1x1 S1x512 where
  offsetDims := [1]
  collapsedSliceDims := [0]
  operandBatchingDims := []
  startIndicesBatchingDims := []
  startIndexMap := [0]
  indexVectorDim := 1
  sliceSizes := ![1, 512]
  wf := gather_S50000x512_S1x1_S1x512_1_0_n_n_0_1_1512_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S1x512_S4096x512_S1x4096_1_1_0_0_n_n : DotDims S1x512 S4096x512 S1x4096 where
  lhsContracting := [1]
  rhsContracting := [1]
  lhsNonContracting := [0]
  rhsNonContracting := [0]
  lhsBatch := []
  rhsBatch := []
  wf := dot_S1x512_S4096x512_S1x4096_1_1_0_0_n_n_wf

abbrev win0_0 : Pipeline.Window sig grid0 :=
  Pipeline.Window.ofSpec (Memref.whole main_arg5) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpecClip (Memref.whole main_arg16) S512x512.size cc2_transform_6 reads2_6 false false 2 stage2_6 sem2_6
    hrank2 hreads2_6 hstart2_6 nbuf2_6 (Memref.isWhole_whole _) hwx2_6 hwxs2_6 hstage2_6

abbrev win2_7 : Pipeline.Window sig grid2 :=
  Pipeline.Window.ofSpecClip (Memref.whole main_v15) S1x512.size cc2_transform_7 reads2_7 false false 2 stage2_7 sem2_7
    hrank2 hreads2_7 hstart2_7 nbuf2_7 (Memref.isWhole_whole _) hwx2_7 hwxs2_7 hstage2_7

abbrev win2_8 : Pipeline.Window sig grid2 :=
  Pipeline.Window.ofSpec (Memref.whole main_v19_0) S1x512.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpecClip (Memref.whole main_v19_1) S1x512.size cc2_transform_9 reads2_9 true false 2 stage2_9 sem2_9
    hrank2 hreads2_9 hstart2_9 nbuf2_9 (Memref.isWhole_whole _) hwx2_9 hwxs2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S1 : Shape := ⟨1, ![1]⟩
abbrev S1x512 : Shape := ⟨2, ![1, 512]⟩
abbrev S50000x512 : Shape := ⟨2, ![50000, 512]⟩
abbrev S512x512 : Shape := ⟨2, ![512, 512]⟩
abbrev S512 : Shape := ⟨1, ![512]⟩
abbrev S512x1 : Shape := ⟨2, ![512, 1]⟩
abbrev S262144x512 : Shape := ⟨2, ![262144, 512]⟩
abbrev S262144 : Shape := ⟨1, ![262144]⟩
abbrev S50000 : Shape := ⟨1, ![50000]⟩
abbrev S_ : Shape := ⟨0, ![]⟩
abbrev S1x1 : Shape := ⟨2, ![1, 1]⟩
abbrev S512x262144 : Shape := ⟨2, ![512, 262144]⟩
abbrev S1x262144 : Shape := ⟨2, ![1, 262144]⟩
abbrev S512x50000 : Shape := ⟨2, ![512, 50000]⟩
abbrev S1x50000 : Shape := ⟨2, ![1, 50000]⟩

abbrev nBuf : Space → Nat
  | .hbm => 81
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S1, .i32⟩
  | .hbm, ⟨3, _⟩ => ⟨S1, .f32⟩
  | .hbm, ⟨4, _⟩ => ⟨S1x512, .f32⟩
  | .hbm, ⟨5, _⟩ => ⟨S1x512, .f32⟩
  | .hbm, ⟨6, _⟩ => ⟨S50000x512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S262144x512, .f32⟩
  | .hbm, ⟨12, _⟩ => ⟨S262144, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S50000x512, .f32⟩
  | .hbm, ⟨17, _⟩ => ⟨S50000, .f32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S1x1, .i32⟩
  | .hbm, ⟨26, _⟩ => ⟨S1x512, .f32⟩
  | .hbm, ⟨27, _⟩ => ⟨S1x1, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S512x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S512x262144, .f32⟩
  | .hbm, ⟨48, _⟩ => ⟨S1x262144, .f32⟩
  | .hbm, ⟨49, _⟩ => ⟨S1x262144, .f32⟩
  | .hbm, ⟨50, _⟩ => ⟨S1x262144, .f32⟩
  | .hbm, ⟨51, _⟩ => ⟨S1x262144, .f32⟩
  | .hbm, ⟨52, _⟩ => ⟨S1x262144, .f32⟩
  | .hbm, ⟨53, _⟩ => ⟨S_, .f32⟩
  | .hbm, ⟨54, _⟩ => ⟨S1x262144, .f32⟩
  | .hbm, ⟨55, _⟩ => ⟨S1x262144, .f32⟩
  | .hbm, ⟨56, _⟩ => ⟨S_, .f32⟩
  | .hbm, ⟨57, _⟩ => ⟨S1x262144, .f32⟩
  | .hbm, ⟨58, _⟩ => ⟨S1x262144, .f32⟩
  | .hbm, ⟨59, _⟩ => ⟨S512x512, .f32⟩
  | .hbm, ⟨60, _⟩ => ⟨S512x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S512x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S_, .f32⟩
  | .hbm, ⟨75, _⟩ => ⟨S1x512, .f32⟩
  | .hbm, ⟨76, _⟩ => ⟨S1x512, .f32⟩
  | .hbm, ⟨77, _⟩ => ⟨S512x50000, .f32⟩
  | .hbm, ⟨78, _⟩ => ⟨S1x50000, .f32⟩
  | .hbm, ⟨79, _⟩ => ⟨S1x50000, .f32⟩
  | .hbm, ⟨80, _⟩ => ⟨S1x50000, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S512x1_S512 : S512x1.ShapeCasts S512
  bcast_S512_S1x512_1 : S512.BroadcastsInDim S1x512 (![1] : Fin 1 → Fin S1x512.rank)
  bcast_S1x1_S1x512_0_1 : S1x1.BroadcastsInDim S1x512 (![0, 1] : Fin 2 → Fin S1x512.rank)
  transposes_S512x512_S512x512_1_0 : S512x512.Transposes [1, 0] S512x512
  bcast_S_S1x512 : S_.BroadcastsInDim S1x512 (![] : Fin 0 → Fin S1x512.rank)
  transposes_S262144x512_S512x262144_1_0 : S262144x512.Transposes [1, 0] S512x262144
  bcast_S262144_S1x262144_1 : S262144.BroadcastsInDim S1x262144 (![1] : Fin 1 → Fin S1x262144.rank)
  bcast_S_S1x262144 : S_.BroadcastsInDim S1x262144 (![] : Fin 0 → Fin S1x262144.rank)
  shapeCasts_S1x262144_S512x512 : S1x262144.ShapeCasts S512x512
  transposes_S50000x512_S512x50000_1_0 : S50000x512.Transposes [1, 0] S512x50000
  bcast_S50000_S1x50000_1 : S50000.BroadcastsInDim S1x50000 (![1] : Fin 1 → Fin S1x50000.rank)
  gather_S50000x512_S1x1_S1x512_1_0_n_n_0_1_1512_wf : GatherDims.WF S50000x512 S1x1 S1x512 [1] [0] [] [0] [] 1 ![1, 512]
  dot_S1x512_S512x512_S1x512_1_0_0_1_n_n_wf : DotDims.WF S1x512 S512x512 S1x512 [1] [0] [0] [1] [] []
  dot_S1x512_S512x262144_S1x262144_1_0_0_1_n_n_wf : DotDims.WF S1x512 S512x262144 S1x262144 [1] [0] [0] [1] [] []
  dot_S1x512_S512x50000_S1x50000_1_0_0_1_n_n_wf : DotDims.WF S1x512 S512x50000 S1x50000 [1] [0] [0] [1] [] []

variable [Facts₀]

def gather_S50000x512_S1x1_S1x512_1_0_n_n_0_1_1512 : GatherDims S50000x512 S1x1 S1x512 where
  offsetDims := [1]
  collapsedSliceDims := [0]
  operandBatchingDims := []
  startIndicesBatchingDims := []
  startIndexMap := [0]
  indexVectorDim := 1
  sliceSizes := ![1, 512]
  wf := gather_S50000x512_S1x1_S1x512_1_0_n_n_0_1_1512_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x262144_S1x262144_1_0_0_1_n_n : DotDims S1x512 S512x262144 S1x262144 where
  lhsContracting := [1]
  rhsContracting := [0]
  lhsNonContracting := [0]
  rhsNonContracting := [1]
  lhsBatch := []
  rhsBatch := []
  wf := dot_S1x512_S512x262144_S1x262144_1_0_0_1_n_n_wf
def dot_S1x512_S512x50000_S1x50000_1_0_0_1_n_n : DotDims S1x512 S512x50000 S1x50000 where
  lhsContracting := [1]
  rhsContracting := [0]
  lhsNonContracting := [0]
  rhsNonContracting := [1]
  lhsBatch := []
  rhsBatch := []
  wf := dot_S1x512_S512x50000_S1x50000_1_0_0_1_n_n_wf

class Facts : Prop extends Facts₀ where

variable [Facts]
-- ==== Proof.BitsFrame.Body0.lean ====
/- Region 0 of the program (the first kernel, one grid point, seven windows), at the contents `V` its arrays are
   entered with: each input window's block, what the body leaves in the output window's staging buffer as a function
   of the input blocks, the body's triple, the exact proof data and the body obligation. -/
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one whole-buffer store, over the input blocks. -/
def out0_6 (x0 : Vec F S1x512 .f32) (x1 : Vec F S512x512 .f32) (x2 : Vec F S1x1 .f32) (x3 x4 x5 : Vec F S1x512 .f32) : Vec F S1x512 .f32 :=
  View.canon [⟨(Rect.unit (s := S1x512) ![0, 0] S1x512.size inb_S1x512_S1x512_0_0), k0_pay1 (View.ld x0 (Rect.unit (s := S1x512) ![0, 0] S1x512.size inb_S1x512_S1x512_0_0)) (View.ld x1 (Rect.unit (s := S512x512) ![0, 0] S512x512.size inb_S512x512_S512x512_0_0)) (View.ld x2 (Rect.unit (s := S1x1) ![0, 0] S1x1.size inb_S1x1_S1x1_0_0)) (View.ld x3 (Rect.unit (s := S1x512) ![0, 0] S1x512.size inb_S1x512_S1x512_0_0)) (View.ld x4 (Rect.unit (s := S1x512) ![0, 0] S1x512.size inb_S1x512_S1x512_0_0)) (View.ld x5 (Rect.unit (s := S1x512) ![0, 0] S1x512.size inb_S1x512_S1x512_0_0))⟩]

/-- The store is of the whole buffer, so it covers it. -/
theorem cover0_6 (p0 : Vec F S1x512 .f32) (y : S1x512.Idx) :
    ∃ pc ∈ ([⟨(Rect.unit (s := S1x512) ![0, 0] S1x512.size inb_S1x512_S1x512_0_0), p0⟩] : List (View.Piece (Elt F) S1x512 .f32)), y ∈ pc.1.set :=
  View.cover_of_tiled [⟨(Rect.unit (s := S1x512) ![0, 0] S1x512.size inb_S1x512_S1x512_0_0), p0⟩] S1x512.size (by rfl) y

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords)
    (arg1 : Memref sig .tc .vmem S1x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)
    (x0 : Vec F S1x512 .f32) (x1 : Vec F S512x512 .f32) (x2 : Vec F S1x1 .f32) (x3 x4 x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__kernel_a_body i arg1 harg1 arg2 harg2 arg3 harg3 arg4 harg4 arg5 harg5 arg6 harg6 arg7 harg7) K := by
  simp only [cc0__kernel_a_body_eq_skeleton]; unfold cc0__kernel_a_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The exact proof data of pipeline 0 on core `c`: the arrays as the region finds them; after the body each input's
    buffer at its block and the output's at `out0_6` of the input blocks; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Proof.BitsFrame

end
-- ==== Proof.BitsFrame.Body1.lean ====
/- Region 1 of the program (the second kernel, 64 grid points, four windows), at the contents `V` its arrays are
   entered with: each input window's block at each point, what the body leaves in the output window's staging buffer as
   a function of the input blocks, the body's triple, the exact proof data and the body obligation. -/
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one whole-buffer store, over the input blocks. -/
def out1_3 (x0 : Vec F S1x512 .f32) (x1 : Vec F S4096x512 .f32) (x2 : Vec F S1x4096 .f32) : Vec F S1x4096 .f32 :=
  View.canon [⟨(Rect.unit (s := S1x4096) ![0, 0] S1x4096.size inb_S1x4096_S1x4096_0_0), k1_pay1 (View.ld x1 (Rect.unit (s := S4096x512) ![0, 0] S4096x512.size inb_S4096x512_S4096x512_0_0)) (View.ld x0 (Rect.unit (s := S1x512) ![0, 0] S1x512.size inb_S1x512_S1x512_0_0)) (View.ld x2 (Rect.unit (s := S1x4096) ![0, 0] S1x4096.size inb_S1x4096_S1x4096_0_0))⟩]

/-- The store is of the whole buffer, so it covers it. -/
theorem cover1_3 (p0 : Vec F S1x4096 .f32) (y : S1x4096.Idx) :
    ∃ pc ∈ ([⟨(Rect.unit (s := S1x4096) ![0, 0] S1x4096.size inb_S1x4096_S1x4096_0_0), p0⟩] : List (View.Piece (Elt F) S1x4096 .f32)), y ∈ pc.1.set :=
  View.cover_of_tiled [⟨(Rect.unit (s := S1x4096) ![0, 0] S1x4096.size inb_S1x4096_S1x4096_0_0), p0⟩] S1x4096.size (by rfl) y

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords)
    (arg1 : Memref sig .tc .vmem S1x512 .f32) (harg1 : arg1.IsWhole) (arg2 : Memref sig .tc .vmem S4096x512 .f32) (harg2 : arg2.IsWhole) (arg3 : Memref sig .tc .vmem S1x4096 .f32) (harg3 : arg3.IsWhole) (arg4 : Memref sig .tc .vmem S1x4096 .f32) (harg4 : arg4.IsWhole)
    (x0 : Vec F S1x512 .f32) (x1 : Vec F S4096x512 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__kernel_b_body i arg1 harg1 arg2 harg2 arg3 harg3 arg4 harg4) K := by
  simp only [cc1__kernel_b_body_eq_skeleton]; unfold cc1__kernel_b_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The exact proof data of pipeline 1 on core `c`: the arrays as the region finds them; after the body each input's
    buffer at its block and the output's at `out1_3` of the input blocks; the invariant the scoped buffers no window
    stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Proof.BitsFrame

end
-- ==== Proof.BitsFrame.Body2.lean ====
/- Region 2 of the word-level program (the third kernel, 98 grid points, ten windows): its relational proof
   data, which constrain nothing of what the body leaves in any staging buffer, and the body obligation: whatever the
   ten current staging buffers hold, the body (whole-buffer loads, pure vector operations, two whole-buffer stores)
   runs without fault and gives every buffer back at some contents. -/
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The third kernel's body on ten whole staging memrefs, each held at SOME contents, runs to the continuation holding
    each at some contents again: it only loads whole buffers and stores whole buffers. -/
theorem sound_kernel2 (c : Dev nD) (E : Set ℕ) (i : grid2.Coords)
    (arg1 : Memref sig .tc .vmem S1x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole)
    (K : PUnit → sProp 𝕄) :
    iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop((∃ d, owns (c : Thread nD τ) arg1 fullShare d)
            ∗ (∃ d, owns (c : Thread nD τ) arg2 fullShare d)
            ∗ (∃ d, owns (c : Thread nD τ) arg3 fullShare d)
            ∗ (∃ d, owns (c : Thread nD τ) arg4 fullShare d)
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)) -∗ K ⟨⟩))
      ⊢ wp frame (wpE (defs₀ (F := F)) Variants.none c none) E
          (cc2__kernel_c_body i arg1 harg1 arg2 harg2 arg3 harg3 arg4 harg4 arg5 harg5 arg6 harg6 arg7 harg7 arg8 harg8 arg9 harg9 arg10 harg10) K := by
  simp only [cc2__kernel_c_body_eq_skeleton]; unfold cc2__kernel_c_body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  isplitl [H1]
  · iexists _, _; isplitr
    swap; · iexact H1
    ipureintro; rfl
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  iexists _, _; isplitr
  swap; · iexact H10
  ipureintro; rfl

/-- The relational proof data of pipeline 2 on core `c`, at the contents `V` its arrays are entered with: nothing is
    asked of what the body leaves in a staging buffer, whatever it was handed; the invariant is the scoped buffers no
    window stages and the generator register, untouched; nothing is owed; full shares. -/
def rd2 (V : (c : Dev nD) → (b : Ref sig .tc) → Buf (Elt F) ((c : Thread nD τ).loc b)) (c : Dev nD) :
    RDat τ (Elt F) Unit ℕ (UR sig nD τ) ℕ cfg2 c where
  A w := V c (Pipeline.arrRef spec2 w)
  after _ _ _ _ := True
  Φ _ := Pipeline.ΦA spec2 c
  q _ := fullShare
  owed _ := 0

variable (V : (c : Dev nD) → (b : Ref sig .tc) → Buf (Elt F) ((c : Thread nD τ).loc b))

/-- The body at any point, the windows one by one: each current buffer handed at the contents `Y w`, whatever they
    are, and taken back at some contents. The invariant and the core's dues pass through unread. -/
theorem sound_body2 (c : Dev nD) (t : Fin cfg2.N) (Y : (w : Fin cfg2.W) → (cfg2.win w).block.Idx → Elt F (cfg2.win w).elt) :
    iprop((rd2 V c).Φ t.castSucc ∗ (rd2 V c).owesAt () t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4)
        ∗ owns (c : Thread nD τ) (st2_5 t) fullShare (Y 5)
        ∗ owns (c : Thread nD τ) (st2_6 t) fullShare (Y 6)
        ∗ owns (c : Thread nD τ) (st2_7 t) fullShare (Y 7)
        ∗ owns (c : Thread nD τ) (st2_8 t) fullShare (Y 8)
        ∗ owns (c : Thread nD τ) (st2_9 t) fullShare (Y 9))
      ⊢ wp frame (wpE (defs₀ (F := F)) Variants.none c none) Set.univ (bodyAt2 t) (fun _ =>
          iprop((rd2 V c).Φ t.succ ∗ (rd2 V c).owesAt () t.succ
            ∗ (∃ X, ⌜(rd2 V c).after 0 t (Y 0) X⌝ ∗ owns (c : Thread nD τ) (st2_0 t) fullShare X)
            ∗ (∃ X, ⌜(rd2 V c).after 1 t (Y 1) X⌝ ∗ owns (c : Thread nD τ) (st2_1 t) fullShare X)
            ∗ (∃ X, ⌜(rd2 V c).after 2 t (Y 2) X⌝ ∗ owns (c : Thread nD τ) (st2_2 t) fullShare X)
            ∗ (∃ X, ⌜(rd2 V c).after 3 t (Y 3) X⌝ ∗ owns (c : Thread nD τ) (st2_3 t) fullShare X)
            ∗ (∃ X, ⌜(rd2 V c).after 4 t (Y 4) X⌝ ∗ owns (c : Thread nD τ) (st2_4 t) fullShare X)
            ∗ (∃ X, ⌜(rd2 V c).after 5 t (Y 5) X⌝ ∗ owns (c : Thread nD τ) (st2_5 t) fullShare X)
            ∗ (∃ X, ⌜(rd2 V c).after 6 t (Y 6) X⌝ ∗ owns (c : Thread nD τ) (st2_6 t) fullShare X)
            ∗ (∃ X, ⌜(rd2 V c).after 7 t (Y 7) X⌝ ∗ owns (c : Thread nD τ) (st2_7 t) fullShare X)
            ∗ (∃ X, ⌜(rd2 V c).after 8 t (Y 8) X⌝ ∗ owns (c : Thread nD τ) (st2_8 t) fullShare X)
            ∗ (∃ X, ⌜(rd2 V c).after 9 t (Y 9) X⌝ ∗ owns (c : Thread nD τ) (st2_9 t) fullShare X))) := by
  unfold bodyAt2
  rw [show (rd2 V c).Φ t.succ = (rd2 V c).Φ t.castSucc from rfl,
    show (rd2 V c).owesAt () t.succ = (rd2 V c).owesAt () t.castSucc from rfl]
  iintro ⟨HΦ, Ho, H0, H1, H2, H3, H4, H5, H6, H7, H8, H9⟩
  iapply (sound_kernel2 c Set.univ _ _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩⟩
  isplitl [HΦ]; · iexact HΦ
  isplitl [Ho]; · iexact Ho
  isplitl [H0]
  · iexists X0; isplitr
    · ipureintro; trivial
    · iexact H0
  isplitl [H1]
  · iexists X1; isplitr
    · ipureintro; trivial
    · iexact H1
  isplitl [H2]
  · iexists X2; isplitr
    · ipureintro; trivial
    · iexact H2
  isplitl [H3]
  · iexists X3; isplitr
    · ipureintro; trivial
    · iexact H3
  isplitl [H4]
  · iexists X4; isplitr
    · ipureintro; trivial
    · iexact H4
  isplitl [H5]
  · iexists X5; isplitr
    · ipureintro; trivial
    · iexact H5
  isplitl [H6]
  · iexists X6; isplitr
    · ipureintro; trivial
    · iexact H6
  isplitl [H7]
  · iexists X7; isplitr
    · ipureintro; trivial
    · iexact H7
  isplitl [H8]
  · iexists X8; isplitr
    · ipureintro; trivial
    · iexact H8
  iexists X9; isplitr
  · ipureintro; trivial
  · iexact H9

/-- The relational body obligation of pipeline 2, at every point. -/
theorem body_obligation2 (c : Dev nD) : (rd2 (F := F) V c).BodyObligation (defs₀ (F := F)) Variants.none () Set.univ := fun t Y _ => by
  rw [bigSep_W2, bigSep_W2]
  exact sound_body2 V c t Y

end Cert.Proof.BitsFrame

end
-- ==== Proof.BitsFrame.Vals.lean ====
/- The buffer contents at each boundary between two items of the main function, folded from the launch memory: a host
   stretch's operations applied; a region's arrays at what its write-backs leave (regions 0 and 1, whose proof data
   name them). Every argument array is carried through the fold unchanged: no host operation writes one and a region
   only reads it. -/
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import proofs.«148062_j63093069578506_2_alg».proof.Proof.Gen.Kernel.Regions
import proofs.«148062_j63093069578506_2_alg».proof.Proof.BitsFrame.Body0
import proofs.«148062_j63093069578506_2_alg».proof.Proof.BitsFrame.Body1
import proofs.«148062_j63093069578506_2_alg».proof.Proof.BitsFrame.Body2

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At region 1's exit (it is entered from region 0's exit contents). -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev U4 : (c : Dev nD) → (b : Ref sig .tc) → Buf (Elt F) ((c : Thread nD τ).loc b) := fun c b => W4 m c b

/-- A buffer no host operation writes and no region writes (a region's window on it, if any, is an input) holds at
    region 2's entry what it held at launch. -/
theorem W4_keep (c : Dev nD) (b : Ref sig .tc) (h0 : b ∉ hostOps0_W)
    (h1 : ∀ w, Pipeline.arrRef spec0 w = b → (cfg0.win w).isOut = false)
    (h2 : ∀ w, Pipeline.arrRef spec1 w = b → (cfg1.win w).isOut = false) (h3 : b ∉ hostOps2_W) :
    W4 m c (Proc.devRef .tc b) = m ((c : Thread nD τ).loc b) := by
  have e4 : W4 m c (Proc.devRef .tc b) = W3 m c (Proc.devRef .tc b) :=
    StableHlo.after_of_writes_sub hostOps2 _ hostOps2_writes h3
  have e3 : W3 m c (Proc.devRef .tc b) = W2 m c (Proc.devRef .tc b) := by
    by_cases h : ∃ w, Pipeline.arrRef spec1 w = b
    · obtain ⟨w, rfl⟩ := h
      rw [W3_arr, (dat1 (U2 m) c).arrAt_in w (h2 w rfl), A_eq1]
    · exact W3_of_ne m c b fun w e => h ⟨w, e⟩
  have e2 : W2 m c (Proc.devRef .tc b) = W1 m c (Proc.devRef .tc b) := by
    by_cases h : ∃ w, Pipeline.arrRef spec0 w = b
    · obtain ⟨w, rfl⟩ := h
      rw [W2_arr, (dat0 (U1 m) c).arrAt_in w (h1 w rfl), A_eq0]
    · exact W2_of_ne m c b fun w e => h ⟨w, e⟩
  have e1 : W1 m c (Proc.devRef .tc b) = W0 m c (Proc.devRef .tc b) :=
    StableHlo.after_of_writes_sub hostOps0 _ hostOps0_writes h0
  exact e4.trans (e3.trans (e2.trans (e1.trans rfl)))

theorem W4_main_arg0 (c : Dev nD) : W4 m c (Proc.devRef .tc main_arg0) = m ((c : Thread nD τ).loc main_arg0) :=
  W4_keep m c main_arg0 (by decide) (by decide) (by decide) (by decide)
theorem W4_main_arg1 (c : Dev nD) : W4 m c (Proc.devRef .tc main_arg1) = m ((c : Thread nD τ).loc main_arg1) :=
  W4_keep m c main_arg1 (by decide) (by decide) (by decide) (by decide)
theorem W4_main_arg2 (c : Dev nD) : W4 m c (Proc.devRef .tc main_arg2) = m ((c : Thread nD τ).loc main_arg2) :=
  W4_keep m c main_arg2 (by decide) (by decide) (by decide) (by decide)
theorem W4_main_arg3 (c : Dev nD) : W4 m c (Proc.devRef .tc main_arg3) = m ((c : Thread nD τ).loc main_arg3) :=
  W4_keep m c main_arg3 (by decide) (by decide) (by decide) (by decide)
theorem W4_main_arg4 (c : Dev nD) : W4 m c (Proc.devRef .tc main_arg4) = m ((c : Thread nD τ).loc main_arg4) :=
  W4_keep m c main_arg4 (by decide) (by decide) (by decide) (by decide)
theorem W4_main_arg5 (c : Dev nD) : W4 m c (Proc.devRef .tc main_arg5) = m ((c : Thread nD τ).loc main_arg5) :=
  W4_keep m c main_arg5 (by decide) (by decide) (by decide) (by decide)
theorem W4_main_arg6 (c : Dev nD) : W4 m c (Proc.devRef .tc main_arg6) = m ((c : Thread nD τ).loc main_arg6) :=
  W4_keep m c main_arg6 (by decide) (by decide) (by decide) (by decide)
theorem W4_main_arg7 (c : Dev nD) : W4 m c (Proc.devRef .tc main_arg7) = m ((c : Thread nD τ).loc main_arg7) :=
  W4_keep m c main_arg7 (by decide) (by decide) (by decide) (by decide)
theorem W4_main_arg8 (c : Dev nD) : W4 m c (Proc.devRef .tc main_arg8) = m ((c : Thread nD τ).loc main_arg8) :=
  W4_keep m c main_arg8 (by decide) (by decide) (by decide) (by decide)
theorem W4_main_arg9 (c : Dev nD) : W4 m c (Proc.devRef .tc main_arg9) = m ((c : Thread nD τ).loc main_arg9) :=
  W4_keep m c main_arg9 (by decide) (by decide) (by decide) (by decide)
theorem W4_main_arg10 (c : Dev nD) : W4 m c (Proc.devRef .tc main_arg10) = m ((c : Thread nD τ).loc main_arg10) :=
  W4_keep m c main_arg10 (by decide) (by decide) (by decide) (by decide)
theorem W4_main_arg11 (c : Dev nD) : W4 m c (Proc.devRef .tc main_arg11) = m ((c : Thread nD τ).loc main_arg11) :=
  W4_keep m c main_arg11 (by decide) (by decide) (by decide) (by decide)
theorem W4_main_arg12 (c : Dev nD) : W4 m c (Proc.devRef .tc main_arg12) = m ((c : Thread nD τ).loc main_arg12) :=
  W4_keep m c main_arg12 (by decide) (by decide) (by decide) (by decide)
theorem W4_main_arg13 (c : Dev nD) : W4 m c (Proc.devRef .tc main_arg13) = m ((c : Thread nD τ).loc main_arg13) :=
  W4_keep m c main_arg13 (by decide) (by decide) (by decide) (by decide)
theorem W4_main_arg14 (c : Dev nD) : W4 m c (Proc.devRef .tc main_arg14) = m ((c : Thread nD τ).loc main_arg14) :=
  W4_keep m c main_arg14 (by decide) (by decide) (by decide) (by decide)
theorem W4_main_arg15 (c : Dev nD) : W4 m c (Proc.devRef .tc main_arg15) = m ((c : Thread nD τ).loc main_arg15) :=
  W4_keep m c main_arg15 (by decide) (by decide) (by decide) (by decide)
theorem W4_main_arg16 (c : Dev nD) : W4 m c (Proc.devRef .tc main_arg16) = m ((c : Thread nD τ).loc main_arg16) :=
  W4_keep m c main_arg16 (by decide) (by decide) (by decide) (by decide)
theorem W4_main_arg17 (c : Dev nD) : W4 m c (Proc.devRef .tc main_arg17) = m ((c : Thread nD τ).loc main_arg17) :=
  W4_keep m c main_arg17 (by decide) (by decide) (by decide) (by decide)

end Cert.Proof.BitsFrame

end
-- ==== Proof.BitsFrame.Segs.lean ====
/- The three kernel regions of the main function as segments over relational proof data: regions 0 and 1 at their
   exact proof data read relationally (what they leave in their result arrays is named, since a later region reads it),
   region 2 at proof data that constrain nothing (nothing reads its results). -/
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import proofs.«148062_j63093069578506_2_alg».proof.Proof.Gen.Kernel.Regions
import proofs.«148062_j63093069578506_2_alg».proof.Proof.BitsFrame.Body0
import proofs.«148062_j63093069578506_2_alg».proof.Proof.BitsFrame.Body1
import proofs.«148062_j63093069578506_2_alg».proof.Proof.BitsFrame.Body2
import proofs.«148062_j63093069578506_2_alg».proof.Proof.BitsFrame.Vals

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Exact proof data for pipeline 2 that name nothing: used only to state the shares and arrays of a family of exact
    proof data (regions 0 and 1 put their arrays back through it); region 2 itself runs on `rd2`. -/
def dat2D (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := Dat.unnamed w t
  Φ _ := Pipeline.ΦA spec2 c
  q _ := fullShare
  owed _ := 0

/-- A family of exact proof data, one per pipeline, each at its region's entry contents. -/
def pdatsD : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2D (U4 m) c

/-- Every pipeline's relational proof data, each at its region's entry contents. -/
def rdats : (p : Fin 3) → (c : Dev nD) → RDat τ (Elt F) Unit ℕ (UR sig nD τ) ℕ (Pipeline.pin (pcfgs (F := F)) adm p) c
  | ⟨0, _⟩ => fun c => (dat0 (U1 m) c).toR
  | ⟨1, _⟩ => fun c => (dat1 (U2 m) c).toR
  | ⟨2, _⟩ => fun c => rd2 (U4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

/-- The last thread state, without the dues: region 2's arrays at some contents they may hold after its write-backs,
    every other unscoped buffer at region 2's entry contents, the generator register at some state. -/
abbrev Tₙ (c : Dev nD) : sProp 𝕄 :=
  iprop((rdats m 2 c).arraysAt cfg2.N
    ∗ Pipeline.unscopedRest (Ix := Unit) (Name := ℕ) (U := UR sig nD τ) (Lvl := ℕ) spec2 c (U4 m c) ∗ ∃ r, prngReg c r)

set_option backward.isDefEq.respectTransparency.types false in
/-- Region 0 over the thread state: entered from every unscoped buffer at `W1`, left at `W2`. Its arrays are split
    out of the unscoped buffers and put back at the exit contents, which the exact proof data name; the generator
    register goes into the invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (U1 m) c).arrays (fun w => (dat0 (U1 m) c).arrAt w cfg0.N)
          ∗ Pipeline.unscopedRest (Ix := Unit) (Name := ℕ) (U := UR sig nD τ) (Lvl := ℕ) spec0 c (U1 m c))
        ⊢ (StableHlo.held (c : Thread nD τ) (Pipeline.ucRefs τ sig) (W2 m c) : sProp 𝕄) := by
      have h := Pipeline.unscopedBufs_of_arrays (p := 0) (pcfgs (F := F)) adm (Ix := Unit) (Name := ℕ) (U := UR sig nD τ) (Lvl := ℕ)
        launch0.win launch0.arr_whole c (pdatsD m) ((pdatsD m 0 c).share_full fun _ => rfl)
        (U1 m c) (U2 m c) ((pdatsD m 0 c).arrAt · cfg0.N) (hF0 m c) (hrest0 m c)
      rw [Pipeline.unscopedBufs_held] at h
      exact h
    refine (sep_mono (Entails.of_eq ((dat0 (U1 m) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents, which the exact proof data name; the generator
    register goes into the invariant and comes out; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (U2 m) c).arrays (fun w => (dat1 (U2 m) c).arrAt w cfg1.N)
          ∗ Pipeline.unscopedRest (Ix := Unit) (Name := ℕ) (U := UR sig nD τ) (Lvl := ℕ) spec1 c (U2 m c))
        ⊢ (StableHlo.held (c : Thread nD τ) (Pipeline.ucRefs τ sig) (W3 m c) : sProp 𝕄) := by
      have h := Pipeline.unscopedBufs_of_arrays (p := 1) (pcfgs (F := F)) adm (Ix := Unit) (Name := ℕ) (U := UR sig nD τ) (Lvl := ℕ)
        launch1.win launch1.arr_whole c (pdatsD m) ((pdatsD m 1 c).share_full fun _ => rfl)
        (U2 m c) (U3 m c) ((pdatsD m 1 c).arrAt · cfg1.N) (hF1 m c) (hrest1 m c)
      rw [Pipeline.unscopedBufs_held] at h
      exact h
    refine (sep_mono (Entails.of_eq ((dat1 (U2 m) c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 over the thread state: entered from every unscoped buffer at `W4`; left with its arrays at SOME contents
    they may hold after the write-backs and every other buffer as entered. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (U4 m) c
  hwaits := Pipeline.RDat.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

end Cert.Proof.BitsFrame

end
-- ==== Proof.BitsFrame.lean ====
/- The frame of the program at any float instance: from any memory with zero semaphore counters, every weakly fair
   execution of the main function terminates without fault and the eighteen argument arrays end unchanged. The launch
   of the several-regions rule over relational proof data: two host stretches and three kernel regions chained through
   thread states "every unscoped buffer at the boundary's contents"; the last state keeps region 2's arrays at some
   contents they may hold (an input window's array is never written, so it is as at entry) and every other buffer as
   at region 2's entry, and each argument is read back through the fold to its launch contents. -/
import proofs.«148062_j63093069578506_2_alg».proof.Defs
import proofs.«148062_j63093069578506_2_alg».proof.Proof.Gen.Pre_finite_inputs
import proofs.«148062_j63093069578506_2_alg».proof.Proof.Gen.Kernel.Launch
import proofs.«148062_j63093069578506_2_alg».proof.Proof.Gen.Kernel.Skeleton
import proofs.«148062_j63093069578506_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import proofs.«148062_j63093069578506_2_alg».proof.Proof.Gen.Kernel.Regions
import proofs.«148062_j63093069578506_2_alg».proof.Proof.BitsFrame.Body0
import proofs.«148062_j63093069578506_2_alg».proof.Proof.BitsFrame.Body1
import proofs.«148062_j63093069578506_2_alg».proof.Proof.BitsFrame.Body2
import proofs.«148062_j63093069578506_2_alg».proof.Proof.BitsFrame.Vals
import proofs.«148062_j63093069578506_2_alg».proof.Proof.BitsFrame.Segs

set_option maxRecDepth 16384

noncomputable section

namespace Cert.Proof.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The main function's five segments in order. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]

/-- The unscoped buffers that are no array of region 2. -/
abbrev rest2 : Finset (Ref sig .tc) :=
  (Finset.univ.filter fun b : Ref sig .tc => ¬ b.isScoped) \ Finset.univ.image (Pipeline.arrRef spec2)

/-- What the last thread state says of a final memory on core `c`: each array of region 2 holds contents it may hold
    after the region's write-backs, every other unscoped buffer what it held at the region's entry. -/
def QY (c : Dev nD) (s : MemSt nD τ sig (Elt F)) : Prop :=
  (∀ w, (rdats m 2 c).ArrAt w cfg2.N (s.mem (((Pipeline.pin (pcfgs (F := F)) adm 2).spec w).arr.view.loc (c.tc : Thread nD τ))))
    ∧ ∀ b ∈ rest2, s.mem ((c.tc : Thread nD τ).loc b) = U4 m c b

/-- An input window's array of region 2 ends as the region found it. -/
theorem QY_in {c : Dev nD} {s : MemSt nD τ sig (Elt F)} (h : QY m c s) (w : Fin cfg2.W) (hin : (cfg2.win w).isOut = false) :
    s.mem (((Pipeline.pin (pcfgs (F := F)) adm 2).spec w).arr.view.loc (c.tc : Thread nD τ)) = U4 m c (Pipeline.arrRef spec2 w) := by
  have h1 := h.1 w
  rw [(rdats m 2 c).ArrAt_in w hin] at h1
  exact h1

set_option backward.isDefEq.respectTransparency.types false in
/-- THE FRAME, at any float instance. -/
theorem frameF (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := QY m)
    (hfin := fun c s' => by
      iintro ⟨⟨Ha, Hrest, -⟩, HSI⟩
      ihave H1 := (Pipeline.RDat.arrays_read (pcfgs (F := F)) adm (rdats m) (p := 2) launch2.arr_whole c cfg2.N s') $$ [Ha HSI]
      · isplitl [Ha] <;> iassumption
      icases H1 with ⟨%h1, HSI⟩
      unfold Pipeline.unscopedRest
      ihave H2 := (pointsTo_read_all rest2 (fun b : Ref sig .tc => (c.tc : Thread nD τ).loc b) (U4 m c) s') $$ [Hrest HSI]
      · isplitl [Hrest] <;> iassumption
      icases H2 with ⟨%h2, HSI⟩
      imodintro
      isplitr
      · ipureintro; exact ⟨h1, h2⟩
      · iexact HSI)
    (hQ := fun s h c =>
      ⟨((h c).2 main_arg0 (by decide)).trans (W4_main_arg0 m c),
        ((h c).2 main_arg1 (by decide)).trans (W4_main_arg1 m c),
        ((h c).2 main_arg2 (by decide)).trans (W4_main_arg2 m c),
        ((h c).2 main_arg3 (by decide)).trans (W4_main_arg3 m c),
        (QY_in m (h c) 3 rfl).trans (W4_main_arg4 m c),
        ((h c).2 main_arg5 (by decide)).trans (W4_main_arg5 m c),
        ((h c).2 main_arg6 (by decide)).trans (W4_main_arg6 m c),
        ((h c).2 main_arg7 (by decide)).trans (W4_main_arg7 m c),
        ((h c).2 main_arg8 (by decide)).trans (W4_main_arg8 m c),
        ((h c).2 main_arg9 (by decide)).trans (W4_main_arg9 m c),
        ((h c).2 main_arg10 (by decide)).trans (W4_main_arg10 m c),
        ((h c).2 main_arg11 (by decide)).trans (W4_main_arg11 m c),
        ((h c).2 main_arg12 (by decide)).trans (W4_main_arg12 m c),
        ((h c).2 main_arg13 (by decide)).trans (W4_main_arg13 m c),
        (QY_in m (h c) 1 rfl).trans (W4_main_arg14 m c),
        ((h c).2 main_arg15 (by decide)).trans (W4_main_arg15 m c),
        (QY_in m (h c) 6 rfl).trans (W4_main_arg16 m c),
        ((h c).2 main_arg17 (by decide)).trans (W4_main_arg17 m c)⟩)

/-- The frame of the word-level program: the precondition is not used. -/
theorem frame : Cert.frame_Kernel := fun m g _ => frameF (F := Bits) m g

end Cert.Proof.BitsFrame

end
-- ==== Proof.Run0.lean ====
/-
  The first pallas_call (one grid point, every window one whole block): what its body leaves, as proof data.

  The call reads six arrays whole — the state row x [1,512], the weight W [512,512], the scalar t [1,1] and three
  bias rows [1,512] — and writes one row [1,512]: the body's single store of the gate
  logistic (t · w_int + b_int + x · Wᵀ + b).  Everything is stated at a PARAMETER `V`, the contents of the core's
  buffers when the call is entered, and for every float instance.
-/
import proofs.«148062_j63093069578506_2_alg».proof.Proof.Gen.KernelIdeal.Launch
import proofs.«148062_j63093069578506_2_alg».proof.Proof.Gen.KernelIdeal.Skeleton
import proofs.«148062_j63093069578506_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block when the body runs, fetched at that point or not, for any
    proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole row [1,512], the whole matrix [512,512] and the single cell [1,1] as access rectangles. -/
abbrev rRow : Rect S1x512 := Rect.unit (s := S1x512) ![0, 0] S1x512.size inb_S1x512_S1x512_0_0
abbrev rMat : Rect S512x512 := Rect.unit (s := S512x512) ![0, 0] S512x512.size inb_S512x512_S512x512_0_0
abbrev rCell : Rect S1x1 := Rect.unit (s := S1x1) ![0, 0] S1x1.size inb_S1x1_S1x1_0_0

/-- The output row after the body: its one whole store, of the gate of the six whole loads. -/
def out0 (x1 : Vec F S1x512 .f32) (x2 : Vec F S512x512 .f32) (x3 : Vec F S1x1 .f32) (x4 x5 x6 : Vec F S1x512 .f32) : Vec F S1x512 .f32 :=
  View.canon [⟨rRow, k0_pay1 (View.ld x1 rRow) (View.ld x2 rMat) (View.ld x3 rCell) (View.ld x4 rRow) (View.ld x5 rRow) (View.ld x6 rRow)⟩]

theorem cover0 (p0 : Vec F S1x512 .f32) (y : S1x512.Idx) :
    ∃ pc ∈ ([⟨rRow, p0⟩] : List (View.Piece (Elt F) S1x512 .f32)), y ∈ pc.1.set :=
  View.cover_of_tiled [⟨rRow, p0⟩] S1x512.size (by rfl) y

set_option maxHeartbeats 1000000 in
/-- The body on whole staging buffers: the six inputs at given contents and the output at anything in, the inputs
    unchanged and the output at `out0` of them out. -/
theorem sound_kernel0 (c : Dev nD) (E : Set ℕ) (i : grid0.Coords)
    (a1 : Memref sig .tc .vmem S1x512 .f32) (h1 : a1.IsWhole) (a2 : Memref sig .tc .vmem S512x512 .f32) (h2 : a2.IsWhole)
    (a3 : Memref sig .tc .vmem S1x1 .f32) (h3 : a3.IsWhole) (a4 : Memref sig .tc .vmem S1x512 .f32) (h4 : a4.IsWhole)
    (a5 : Memref sig .tc .vmem S1x512 .f32) (h5 : a5.IsWhole) (a6 : Memref sig .tc .vmem S1x512 .f32) (h6 : a6.IsWhole)
    (a7 : Memref sig .tc .vmem S1x512 .f32) (h7 : a7.IsWhole)
    (x1 : Vec F S1x512 .f32) (x2 : Vec F S512x512 .f32) (x3 : Vec F S1x1 .f32) (x4 x5 x6 : Vec F S1x512 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare (out0 x1 x2 x3 x4 x5 x6)) -∗ K ⟨⟩))
      ⊢ wp frame (wpE (defs₀ (F := F)) Variants.none c none) E (cc0__kernel_a_body i a1 h1 a2 h2 a3 h3 a4 h4 a5 h5 a6 h6 a7 h7) K := by
  simp only [cc0__kernel_a_body_eq_skeleton]; unfold cc0__kernel_a_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

/-- The proof data of this call on core `c`: the arrays as the call finds them; after the body each input's buffer at
    its block and each output's at the body's value of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.Run1.lean ====
/-
  The second pallas_call (64 grid points): what its body leaves at each point, as proof data.

  Point t reads the state row g [1,512] (one block, the same at every point), rows 4096·t … 4096·t+4095 of the
  weight [262144,512] and lanes 4096·t … of the bias row [1,262144], and writes lanes 4096·t … of the flat context
  row: the body's single store of  logistic (g · Wₜᵀ + bₜ).  Stated at a parameter `V`, the buffers' contents
  when the call is entered, and for every float instance.
-/
import proofs.«148062_j63093069578506_2_alg».proof.Proof.Gen.KernelIdeal.Launch
import proofs.«148062_j63093069578506_2_alg».proof.Proof.Gen.KernelIdeal.Skeleton
import proofs.«148062_j63093069578506_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block when the body runs, fetched at that point or not (the state
    row's block index never moves), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1Row : Rect S1x512 := Rect.unit (s := S1x512) ![0, 0] S1x512.size inb_S1x512_S1x512_0_0
abbrev r1Big : Rect S4096x512 := Rect.unit (s := S4096x512) ![0, 0] S4096x512.size inb_S4096x512_S4096x512_0_0
abbrev r1Wide : Rect S1x4096 := Rect.unit (s := S1x4096) ![0, 0] S1x4096.size inb_S1x4096_S1x4096_0_0

/-- The output block after the body: its one whole store, of the logistic of the product plus the bias block. -/
def out1 (x1 : Vec F S1x512 .f32) (x2 : Vec F S4096x512 .f32) (x3 : Vec F S1x4096 .f32) : Vec F S1x4096 .f32 :=
  View.canon [⟨r1Wide, k1_pay1 (View.ld x2 r1Big) (View.ld x1 r1Row) (View.ld x3 r1Wide)⟩]

theorem cover1 (p0 : Vec F S1x4096 .f32) (y : S1x4096.Idx) :
    ∃ pc ∈ ([⟨r1Wide, p0⟩] : List (View.Piece (Elt F) S1x4096 .f32)), y ∈ pc.1.set :=
  View.cover_of_tiled [⟨r1Wide, p0⟩] S1x4096.size (by rfl) y

set_option maxHeartbeats 1000000 in
/-- The body on whole staging buffers: the three inputs at given contents and the output at anything in, the
    inputs unchanged and the output at `out1` of them out. -/
theorem sound_kernel1 (c : Dev nD) (E : Set ℕ) (i : grid1.Coords)
    (a1 : Memref sig .tc .vmem S1x512 .f32) (h1 : a1.IsWhole) (a2 : Memref sig .tc .vmem S4096x512 .f32) (h2 : a2.IsWhole)
    (a3 : Memref sig .tc .vmem S1x4096 .f32) (h3 : a3.IsWhole) (a4 : Memref sig .tc .vmem S1x4096 .f32) (h4 : a4.IsWhole)
    (x1 : Vec F S1x512 .f32) (x2 : Vec F S4096x512 .f32) (x3 : Vec F S1x4096 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (out1 x1 x2 x3)) -∗ K ⟨⟩))
      ⊢ wp frame (wpE (defs₀ (F := F)) Variants.none c none) E (cc1__kernel_b_body i a1 h1 a2 h2 a3 h3 a4 h4) K := by
  simp only [cc1__kernel_b_body_eq_skeleton]; unfold cc1__kernel_b_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The proof data of this call on core `c`: the arrays as the call finds them; after the body each input's buffer at
    its block and each output's at the body's value of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.Run2a.lean ====
/-
  The third pallas_call (98 grid points), first half: its windows' blocks and its body's triple.

  Point t reads six resident arrays whole — the embedded row e, the weight Wx, the bias rows, the state row h, the
  context matrix C — and block t of the output weight [50000,512] (rows 512·t …) and of the output bias row
  [1,50000] (lanes 512·t …); it stores the recurrent gate g = logistic (e · Wxᵀ + bx + h · Cᵀ + bi) whole into
  the state output at EVERY point, and the scores  g · Wₜᵀ + bₜ  into block t of the score row.  The last block
  overhangs the arrays (50000 = 97 · 512 + 336).  Stated at a parameter `V` and for every float instance.
-/
import proofs.«148062_j63093069578506_2_alg».proof.Proof.Gen.KernelIdeal.Launch
import proofs.«148062_j63093069578506_2_alg».proof.Proof.Gen.KernelIdeal.Skeleton
import proofs.«148062_j63093069578506_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each resident input window's staging buffer holds its block (the whole array) when the body runs: fetched at
    the first point, its block index never moving after. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2Row : Rect S1x512 := Rect.unit (s := S1x512) ![0, 0] S1x512.size inb_S1x512_S1x512_0_0
abbrev r2Mat : Rect S512x512 := Rect.unit (s := S512x512) ![0, 0] S512x512.size inb_S512x512_S512x512_0_0

/-- The state output after the body: one whole store of the recurrent gate. -/
def out2g (x1 : Vec F S1x512 .f32) (x2 : Vec F S512x512 .f32) (x3 x4 : Vec F S1x512 .f32) (x5 : Vec F S512x512 .f32) (x6 : Vec F S1x512 .f32) : Vec F S1x512 .f32 :=
  View.canon [⟨r2Row, k2_pay1 (View.ld x1 r2Row) (View.ld x4 r2Row) (View.ld x2 r2Mat) (View.ld x5 r2Mat) (View.ld x3 r2Row) (View.ld x6 r2Row)⟩]

/-- The score block after the body: one whole store of the gate against the weight block, plus the bias block. -/
def out2s (x1 : Vec F S1x512 .f32) (x2 : Vec F S512x512 .f32) (x3 x4 : Vec F S1x512 .f32) (x5 : Vec F S512x512 .f32) (x6 : Vec F S1x512 .f32)
    (x7 : Vec F S512x512 .f32) (x8 : Vec F S1x512 .f32) : Vec F S1x512 .f32 :=
  View.canon [⟨r2Row, k2_pay2 (View.ld x1 r2Row) (View.ld x4 r2Row) (View.ld x2 r2Mat) (View.ld x5 r2Mat) (View.ld x3 r2Row) (View.ld x6 r2Row) (View.ld x7 r2Mat) (View.ld x8 r2Row)⟩]

theorem cover2 (p0 : Vec F S1x512 .f32) (y : S1x512.Idx) :
    ∃ pc ∈ ([⟨r2Row, p0⟩] : List (View.Piece (Elt F) S1x512 .f32)), y ∈ pc.1.set :=
  View.cover_of_tiled [⟨r2Row, p0⟩] S1x512.size (by rfl) y

set_option maxHeartbeats 2000000 in
/-- The body on whole staging buffers: the eight inputs at given contents and the two outputs at anything in, the
    inputs unchanged and the outputs at `out2g` / `out2s` of them out. -/
theorem sound_kernel2 (c : Dev nD) (E : Set ℕ) (i : grid2.Coords)
    (a1 : Memref sig .tc .vmem S1x512 .f32) (h1 : a1.IsWhole) (a2 : Memref sig .tc .vmem S512x512 .f32) (h2 : a2.IsWhole)
    (a3 : Memref sig .tc .vmem S1x512 .f32) (h3 : a3.IsWhole) (a4 : Memref sig .tc .vmem S1x512 .f32) (h4 : a4.IsWhole)
    (a5 : Memref sig .tc .vmem S512x512 .f32) (h5 : a5.IsWhole) (a6 : Memref sig .tc .vmem S1x512 .f32) (h6 : a6.IsWhole)
    (a7 : Memref sig .tc .vmem S512x512 .f32) (h7 : a7.IsWhole) (a8 : Memref sig .tc .vmem S1x512 .f32) (h8 : a8.IsWhole)
    (a9 : Memref sig .tc .vmem S1x512 .f32) (h9 : a9.IsWhole) (a10 : Memref sig .tc .vmem S1x512 .f32) (h10 : a10.IsWhole)
    (x1 : Vec F S1x512 .f32) (x2 : Vec F S512x512 .f32) (x3 x4 : Vec F S1x512 .f32) (x5 : Vec F S512x512 .f32) (x6 : Vec F S1x512 .f32)
    (x7 : Vec F S512x512 .f32) (x8 : Vec F S1x512 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8
        ∗ (∃ d, owns (c : Thread nD τ) a9 fullShare d) ∗ (∃ d, owns (c : Thread nD τ) a10 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare x8
            ∗ owns (c : Thread nD τ) a9 fullShare (out2g x1 x2 x3 x4 x5 x6) ∗ owns (c : Thread nD τ) a10 fullShare (out2s x1 x2 x3 x4 x5 x6 x7 x8)) -∗ K ⟨⟩))
      ⊢ wp frame (wpE (defs₀ (F := F)) Variants.none c none) E (cc2__kernel_c_body i a1 h1 a2 h2 a3 h3 a4 h4 a5 h5 a6 h6 a7 h7 a8 h8 a9 h9 a10 h10) K := by
  simp only [cc2__kernel_c_body_eq_skeleton]; unfold cc2__kernel_c_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover2 _)
  iexists _; isplitr
  swap; · iexact H10
  ipureintro
  exact View.read_writes_eq_canon _ _ _ (cover2 _)

end Cert.KernelIdeal.Run

end
-- ==== Proof.Spec.lean ====
/-
  The four values this program computes, as functions on the extended reals of plain families indexed by
  coordinates.  A gate is the logistic of a sum of dot products and biases; the output is a dot product plus a
  bias.  Both the tiled kernels and the host reference are shown to compute exactly these.
-/
import Idealize.ShloMosaic.PureOps.Ideal
import Idealize.ShloMosaic.Lib.ValueIdx

noncomputable section

namespace Cert.Proof.Spec

open Idealize.ShloMosaic

/-- The gate of the first state: the logistic of `t · w_int(q) + b_int(q) + ⟨x, W(q, ·)⟩ + b(q)`, the sums in
    this order. -/
def gate3 (t : EReal) (wint bint b : Fin 512 → EReal) (x : Fin 512 → EReal) (W : Fin 512 → Fin 512 → EReal)
    (q : Fin 512) : EReal :=
  Ideal.logistic (((t * wint q + bint q) + ∑ k : Fin 512, x k * W q k) + b q)

/-- One entry of the flat context vector: the logistic of `⟨g, W(n, ·)⟩ + b(n)`. -/
def ctxEntry {N : Nat} (g : Fin 512 → EReal) (W : Fin N → Fin 512 → EReal) (b : Fin N → EReal) (n : Fin N) : EReal :=
  Ideal.logistic ((∑ k : Fin 512, g k * W n k) + b n)

/-- The gate of the recurrent state: the logistic of `⟨e, Wx(q, ·)⟩ + bx(q) + ⟨h, C(q, ·)⟩ + bi(q)`, the sums in
    this order. -/
def gateH (e : Fin 512 → EReal) (Wx : Fin 512 → Fin 512 → EReal) (bx : Fin 512 → EReal) (h : Fin 512 → EReal)
    (C : Fin 512 → Fin 512 → EReal) (bi : Fin 512 → EReal) (q : Fin 512) : EReal :=
  Ideal.logistic ((((∑ k : Fin 512, e k * Wx q k) + bx q) + ∑ k : Fin 512, h k * C q k) + bi q)

/-- One output score: `⟨g, W(v, ·)⟩ + b(v)`. -/
def score {N : Nat} (g : Fin 512 → EReal) (W : Fin N → Fin 512 → EReal) (b : Fin N → EReal) (v : Fin N) : EReal :=
  (∑ k : Fin 512, g k * W v k) + b v

end Cert.Proof.Spec

end
-- ==== Proof.LibDotRhsLast.lean ====
/-
  A matrix product against a right operand contracted on its LAST axis, read at an entry, over the extended reals.

  The product of an [M, K] array x with an [N, K] array w into [M, N] — the second axis of BOTH operands contracted, no
  batch axes, no transpose written out — has at (p, q) the value  Σ_k x(p, k) · w(q, k):  row p of x against row q of w.
  For the device's product into the zero accumulator this is the exact finite sum over the contracted coordinate, and the
  contraction index of a one-axis contraction is that coordinate.
-/
import Idealize.ShloMosaic.Lib.ValueIdx
import Idealize.ShloMosaic.PureOps.Ideal.Laws

namespace Cert.LibDotRhsLast

open Idealize.ShloMosaic Idealize.ShloMosaic.ValueIdx

variable {M K N : ℕ}

/-- The left operand's row coordinate is the result's row coordinate. -/
theorem lhs_row (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column coordinate. -/
theorem rhs_row (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At the k-th contraction coordinate the left operand is read at (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => exact lhs_row _ _
  | ⟨1, _⟩ => exact (lhs_col _ _).trans hk

/-- At the k-th contraction coordinate the right operand is read at (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => exact rhs_row _ _
  | ⟨1, _⟩ => exact (rhs_col _ _).trans hk

/-- The device's product into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    matmul (DotDims.transposedRhs M K N) prec x w (constant (F := Ideal) ⟨2, ![M, N]⟩ .f32 0x00000000#32) (ix2 p q)
      = ∑ k : Fin K, x (ix2 p k) * w (ix2 q k) := by
  refine (Ideal.matmul_constant_zero_apply (DotDims.transposedRhs M K N) prec x w (ix2 p q)).trans ?_
  refine (Equiv.sum_comp (contrEquiv1 (DotDims.transposedRhs M K N) K rfl rfl).symm _).symm.trans ?_
  exact Finset.sum_congr rfl fun k _ => by rw [lhsIdx_eq p q k, rhsIdx_eq p q k]

end Cert.LibDotRhsLast
-- ==== Proof.PayloadAt.lean ====
import proofs.«148062_j63093069578506_2_alg».proof.Proof.Gen.KernelIdeal.Skeleton
import proofs.«148062_j63093069578506_2_alg».proof.Proof.Spec
import proofs.«148062_j63093069578506_2_alg».proof.Proof.LibDotRhsLast
import Idealize.ShloMosaic.Lib.ValueIdx
import Idealize.ShloMosaic.Lib.Pipeline.Value
import Idealize.ShloMosaic.Lib.ValueLayout
import Idealize.ShloMosaic.PureOps.Ideal.Laws

/-!
  Each kernel body's arithmetic, read at one lane, over the extended reals: every format change is the identity, a
  product into the zero accumulator against a right operand contracted on its last axis is the finite sum of products of
  a row with a row, a shape cast of a shape to itself is the identity, and the [1,1] → [1,512] broadcast reads its one
  entry.  So each body at lane q is the corresponding specification function at q.
-/

noncomputable section

namespace Cert.Proof.PayloadAt

open Idealize.ShloMosaic Idealize.ShloMosaic.ValueIdx Cert.KernelIdeal Cert.KernelIdeal.Gen

/-- The contraction's dimension numbers are the form "right operand contracted on its last axis". -/
theorem dot512_eq : dot_S1x512_S512x512_S1x512_1_1_0_0_n_n = DotDims.transposedRhs 1 512 512 := rfl
theorem dot4096_eq : dot_S1x512_S4096x512_S1x4096_1_1_0_0_n_n = DotDims.transposedRhs 1 512 4096 := rfl

/-- A [1,512] row against the rows of a [512,512] matrix, into the zero accumulator: entry q is Σ_k x(0,k) · w(q,k). -/
theorem mm512 {φ₁ φ₂ : FTy} (x : FVec Ideal S1x512 φ₁) (w : FVec Ideal S512x512 φ₂) (q : Fin 512) :
    matmul dot_S1x512_S512x512_S1x512_1_1_0_0_n_n none x w (constant (F := Ideal) S1x512 .f32 0x00000000#32) (ix2 0 q)
      = ∑ k : Fin 512, x (ix2 0 k) * w (ix2 q k) :=
  Cert.LibDotRhsLast.matmul_zero_apply none x w 0 q

/-- The same against the rows of a [4096,512] matrix. -/
theorem mm4096 {φ₁ φ₂ : FTy} (x : FVec Ideal S1x512 φ₁) (w : FVec Ideal S4096x512 φ₂) (q : Fin 4096) :
    matmul dot_S1x512_S4096x512_S1x4096_1_1_0_0_n_n none x w (constant (F := Ideal) S1x4096 .f32 0x00000000#32) (ix2 0 q)
      = ∑ k : Fin 512, x (ix2 0 k) * w (ix2 q k) :=
  Cert.LibDotRhsLast.matmul_zero_apply none x w 0 q

/-- The first gate's body at lane q. -/
theorem pay0_at (v0 : Vec Ideal S1x512 .f32) (v1 : Vec Ideal S512x512 .f32) (v5 : Vec Ideal S1x1 .f32)
    (v7 v11 v15 : Vec Ideal S1x512 .f32) (q : Fin 512) :
    k0_pay1 (F := Ideal) v0 v1 v5 v7 v11 v15 (ix2 0 q)
      = Spec.gate3 (v5 (ix2 0 0)) (fun q => v7 (ix2 0 q)) (fun q => v11 (ix2 0 q)) (fun q => v15 (ix2 0 q))
          (fun k => v0 (ix2 0 k)) (fun q k => v1 (ix2 q k)) q := by
  unfold k0_pay1 Spec.gate3
  simp only [shapeCast_self]
  have hb : broadcastTo S1x512 v5 broadcasts_S1x1_S1x512 (ix2 0 q) = v5 (ix2 0 0) :=
    broadcastTo_apply v5 broadcasts_S1x1_S1x512 (ix2 0 q) (ix2 0 0)
      (fun a => by match a with | ⟨0, _⟩ => rfl | ⟨1, _⟩ => rfl)
  have hm := mm512 (truncf .bf16 v0 bitsLt_bf16_f32) (truncf .bf16 v1 bitsLt_bf16_f32) q
  show Ideal.logistic (((broadcastTo S1x512 v5 broadcasts_S1x1_S1x512 (ix2 0 q) * v7 (ix2 0 q) + v11 (ix2 0 q))
      + matmul dot_S1x512_S512x512_S1x512_1_1_0_0_n_n none (truncf .bf16 v0 bitsLt_bf16_f32)
          (truncf .bf16 v1 bitsLt_bf16_f32) (constant (F := Ideal) S1x512 .f32 0x00000000#32) (ix2 0 q))
      + v15 (ix2 0 q)) = _
  rw [hb, hm]
  rfl

/-- One block of the flat context vector at lane q of the block. -/
theorem pay1_at (v0 : Vec Ideal S4096x512 .f32) (v1 : Vec Ideal S1x512 .f32) (v6 : Vec Ideal S1x4096 .f32) (q : Fin 4096) :
    k1_pay1 (F := Ideal) v0 v1 v6 (ix2 0 q)
      = Spec.ctxEntry (fun k => v1 (ix2 0 k)) (fun n k => v0 (ix2 n k)) (fun n => v6 (ix2 0 n)) q := by
  unfold k1_pay1 Spec.ctxEntry
  simp only [shapeCast_self]
  have hm := mm4096 (truncf .bf16 v1 bitsLt_bf16_f32) (truncf .bf16 v0 bitsLt_bf16_f32) q
  show Ideal.logistic (matmul dot_S1x512_S4096x512_S1x4096_1_1_0_0_n_n none (truncf .bf16 v1 bitsLt_bf16_f32)
      (truncf .bf16 v0 bitsLt_bf16_f32) (constant (F := Ideal) S1x4096 .f32 0x00000000#32) (ix2 0 q) + v6 (ix2 0 q)) = _
  rw [hm]
  rfl

/-- The recurrent gate's body at lane q. -/
theorem pay2_1_at (v0 v2 : Vec Ideal S1x512 .f32) (v3 v7 : Vec Ideal S512x512 .f32) (v12 v16 : Vec Ideal S1x512 .f32)
    (q : Fin 512) :
    k2_pay1 (F := Ideal) v0 v2 v3 v7 v12 v16 (ix2 0 q)
      = Spec.gateH (fun k => v0 (ix2 0 k)) (fun q k => v3 (ix2 q k)) (fun q => v12 (ix2 0 q))
          (fun k => v2 (ix2 0 k)) (fun q k => v7 (ix2 q k)) (fun q => v16 (ix2 0 q)) q := by
  unfold k2_pay1 Spec.gateH
  simp only [shapeCast_self]
  have hm1 := mm512 (truncf .bf16 v0 bitsLt_bf16_f32) (truncf .bf16 v3 bitsLt_bf16_f32) q
  have hm2 := mm512 (truncf .bf16 v2 bitsLt_bf16_f32) (truncf .bf16 v7 bitsLt_bf16_f32) q
  show Ideal.logistic (((matmul dot_S1x512_S512x512_S1x512_1_1_0_0_n_n none (truncf .bf16 v0 bitsLt_bf16_f32) (truncf .bf16 v3 bitsLt_bf16_f32) (constant (F := Ideal) S1x512 .f32 0x00000000#32) (ix2 0 q)
        + v12 (ix2 0 q))
      + matmul dot_S1x512_S512x512_S1x512_1_1_0_0_n_n none (truncf .bf16 v2 bitsLt_bf16_f32) (truncf .bf16 v7 bitsLt_bf16_f32) (constant (F := Ideal) S1x512 .f32 0x00000000#32) (ix2 0 q))
      + v16 (ix2 0 q)) = _
  rw [hm1, hm2]
  rfl

/-- The score body at lane q: the recurrent gate's row against row q of the block of the output matrix, plus the bias. -/
theorem pay2_2_at (v0 v2 : Vec Ideal S1x512 .f32) (v3 v7 : Vec Ideal S512x512 .f32) (v12 v16 : Vec Ideal S1x512 .f32)
    (v21 : Vec Ideal S512x512 .f32) (v25 : Vec Ideal S1x512 .f32) (q : Fin 512) :
    k2_pay2 (F := Ideal) v0 v2 v3 v7 v12 v16 v21 v25 (ix2 0 q)
      = Spec.score (fun k => k2_pay1 (F := Ideal) v0 v2 v3 v7 v12 v16 (ix2 0 k)) (fun n k => v21 (ix2 n k))
          (fun n => v25 (ix2 0 n)) q := by
  unfold k2_pay2 Spec.score
  simp only [shapeCast_self]
  have hm := mm512 (truncf .bf16 (k2_pay1 (F := Ideal) v0 v2 v3 v7 v12 v16) bitsLt_bf16_f32)
    (truncf .bf16 v21 bitsLt_bf16_f32) q
  show matmul dot_S1x512_S512x512_S1x512_1_1_0_0_n_n none (truncf .bf16 (k2_pay1 (F := Ideal) v0 v2 v3 v7 v12 v16) bitsLt_bf16_f32)
      (truncf .bf16 v21 bitsLt_bf16_f32) (constant (F := Ideal) S1x512 .f32 0x00000000#32) (ix2 0 q) + v25 (ix2 0 q) = _
  rw [hm]
  rfl

/-- Lane q of the score body reads the output matrix's block only in row q and the bias only at lane q. -/
theorem pay2_2_at_row (v0 v2 : Vec Ideal S1x512 .f32) (v3 v7 : Vec Ideal S512x512 .f32) (v12 v16 : Vec Ideal S1x512 .f32)
    (v21 v21' : Vec Ideal S512x512 .f32) (v25 v25' : Vec Ideal S1x512 .f32) (q : Fin 512)
    (h21 : ∀ k : Fin 512, v21 (ix2 q k) = v21' (ix2 q k)) (h25 : v25 (ix2 0 q) = v25' (ix2 0 q)) :
    k2_pay2 (F := Ideal) v0 v2 v3 v7 v12 v16 v21 v25 (ix2 0 q)
      = k2_pay2 (F := Ideal) v0 v2 v3 v7 v12 v16 v21' v25' (ix2 0 q) := by
  rw [pay2_2_at, pay2_2_at]
  show (∑ k : Fin 512, k2_pay1 (F := Ideal) v0 v2 v3 v7 v12 v16 (ix2 0 k) * v21 (ix2 q k)) + v25 (ix2 0 q)
    = (∑ k : Fin 512, k2_pay1 (F := Ideal) v0 v2 v3 v7 v12 v16 (ix2 0 k) * v21' (ix2 q k)) + v25' (ix2 0 q)
  rw [h25]
  exact congrArg (· + v25' (ix2 0 q)) (Finset.sum_congr rfl fun k _ => by rw [h21 k])

end Cert.Proof.PayloadAt

end
-- ==== Proof.Run2b.lean ====
/-
  The third pallas_call, second half, over the extended reals: its proof data and its body obligation.

  The two streamed inputs and the score output are cut at the arrays' end at the last point: a staging buffer then
  holds its block on the part inside the array and words nothing names past it.  A score lane is the dot product
  of the gate with ONE row of the weight block plus ONE lane of the bias block, and lane q of the score block lies
  inside its array exactly when row q of the weight block and lane q of the bias block lie inside theirs; so on
  the lanes that are written back the scores do not depend on the unnamed words.  The proof data name the blocks
  filled out with zeros; the obligation is stated, as the clipped windows require, on the parts inside the arrays.
-/
import proofs.«148062_j63093069578506_2_alg».proof.Proof.Run2a
import proofs.«148062_j63093069578506_2_alg».proof.Proof.PayloadAt

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

open Idealize.ShloMosaic.ValueIdx

/-- Over the moved part a filled block does not depend on the filler. -/
theorem fill_irrel {G : Pipeline.Grid} (w : Pipeline.Window sig G) {α : Type} (i : G.Coords) (d d' : w.block.Idx → α) (g : (w.xblock i).Idx → α)
    (j : w.block.Idx) (h : w.moved i j = true) : w.fill i d g j = w.fill i d' g j := by
  unfold Pipeline.Window.fill; rw [dif_pos h, dif_pos h]

/-- The three clipped windows are cut alike: at every point the weight block keeps as many rows as the bias block
    and the score block keep lanes, and nothing else is cut. -/
theorem cuts_agree : ∀ t : Fin grid2.N,
    win2_6.xsize (grid2.coords t) 0 = win2_9.xsize (grid2.coords t) 1 ∧ win2_6.xsize (grid2.coords t) 1 = 512
    ∧ win2_7.xsize (grid2.coords t) 1 = win2_9.xsize (grid2.coords t) 1 ∧ win2_7.xsize (grid2.coords t) 0 = 1 := by
  decide +kernel

/-- One whole store: the state output is the gate, the score block the scores. -/
theorem out2g_eq (x1 : Vec Ideal S1x512 .f32) (x2 : Vec Ideal S512x512 .f32) (x3 x4 : Vec Ideal S1x512 .f32) (x5 : Vec Ideal S512x512 .f32) (x6 : Vec Ideal S1x512 .f32) :
    out2g x1 x2 x3 x4 x5 x6 = k2_pay1 x1 x4 x2 x5 x3 x6 := by
  have hz : (![0, 0] : Fin 2 → Nat) = fun _ => 0 := funext fun a => by fin_cases a <;> rfl
  unfold out2g
  rw [View.canon_unit_zero hz]
  simp only [View.ld_unit_zero (S := S1x512) hz, View.ld_unit_zero (S := S512x512) hz]

theorem out2s_eq (x1 : Vec Ideal S1x512 .f32) (x2 : Vec Ideal S512x512 .f32) (x3 x4 : Vec Ideal S1x512 .f32) (x5 : Vec Ideal S512x512 .f32) (x6 : Vec Ideal S1x512 .f32)
    (x7 : Vec Ideal S512x512 .f32) (x8 : Vec Ideal S1x512 .f32) :
    out2s x1 x2 x3 x4 x5 x6 x7 x8 = k2_pay2 x1 x4 x2 x5 x3 x6 x7 x8 := by
  have hz : (![0, 0] : Fin 2 → Nat) = fun _ => 0 := funext fun a => by fin_cases a <;> rfl
  unfold out2s
  rw [View.canon_unit_zero hz]
  simp only [View.ld_unit_zero (S := S1x512) hz, View.ld_unit_zero (S := S512x512) hz]

/-- On the lanes written back, the score block does not depend on what fills the clipped inputs out. -/
theorem cut_scores (t : Fin grid2.N) (x1 : Vec Ideal S1x512 .f32) (x2 : Vec Ideal S512x512 .f32) (x3 x4 : Vec Ideal S1x512 .f32) (x5 : Vec Ideal S512x512 .f32) (x6 : Vec Ideal S1x512 .f32)
    (d6 d6' : S512x512.Idx → Elt Ideal .f32) (g6 : (win2_6.xblock (grid2.coords t)).Idx → Elt Ideal .f32)
    (d7 d7' : S1x512.Idx → Elt Ideal .f32) (g7 : (win2_7.xblock (grid2.coords t)).Idx → Elt Ideal .f32) :
    win2_9.cut (grid2.coords t) (out2s x1 x2 x3 x4 x5 x6 (win2_6.fill (grid2.coords t) d6 g6) (win2_7.fill (grid2.coords t) d7 g7))
      = win2_9.cut (grid2.coords t) (out2s x1 x2 x3 x4 x5 x6 (win2_6.fill (grid2.coords t) d6' g6) (win2_7.fill (grid2.coords t) d7' g7)) := by
  obtain ⟨h60, h61, h71, h70⟩ := cuts_agree t
  funext j
  show out2s x1 x2 x3 x4 x5 x6 _ _ (win2_9.xinj (grid2.coords t) j) = out2s x1 x2 x3 x4 x5 x6 _ _ (win2_9.xinj (grid2.coords t) j)
  rw [out2s_eq, out2s_eq]
  have hq : (j 1).val < 512 := Nat.lt_of_lt_of_le (j 1).isLt (win2_9.xsize_le (grid2.coords t) 1)
  have hj : win2_9.xinj (grid2.coords t) j = ix2 (0 : Fin 1) (⟨(j 1).val, hq⟩ : Fin 512) := by
    funext a; match a with
    | ⟨0, _⟩ =>
      apply Fin.ext
      have h0 : (j 0).val < win2_9.xsize (grid2.coords t) 0 := (j 0).isLt
      have h1 := win2_9.xsize_le (grid2.coords t) 0
      have h2 : win2_9.size 0 = 1 := rfl
      show (j 0).val = 0
      omega
    | ⟨1, _⟩ => rfl
  rw [hj]
  refine Cert.Proof.PayloadAt.pay2_2_at_row x1 x4 x2 x5 x3 x6 _ _ _ _ ⟨(j 1).val, hq⟩ (fun k => ?_) ?_
  · refine fill_irrel win2_6 (grid2.coords t) d6 d6' g6 _ ((win2_6.moved_iff _ _).mpr fun a => ?_)
    match a with
    | ⟨0, _⟩ => show (j 1).val < win2_6.xsize (grid2.coords t) 0; rw [h60]; exact (j 1).isLt
    | ⟨1, _⟩ => show k.val < win2_6.xsize (grid2.coords t) 1; rw [h61]; exact k.isLt
  · refine fill_irrel win2_7 (grid2.coords t) d7 d7' g7 _ ((win2_7.moved_iff _ _).mpr fun a => ?_)
    match a with
    | ⟨0, _⟩ => show (0 : Nat) < win2_7.xsize (grid2.coords t) 0; rw [h70]; exact Nat.one_pos
    | ⟨1, _⟩ => show (j 1).val < win2_7.xsize (grid2.coords t) 1; rw [h71]; exact (j 1).isLt

/-! ## The proof data -/

/-- What fills a clipped block out past the array's end in the proof data: the zero word (nothing reads it). -/
abbrev zfill {S : Shape} : S.Idx → Elt Ideal .f32 := fun _ => FloatOps.ofBits (F := Ideal) .f32 0#32

/-- The weight block and the bias block at point `t`, filled out with zeros. -/
def wblk (c : Dev nD) (t : Fin cfg2.N) : S512x512.Idx → Elt Ideal .f32 := win2_6.fill (grid2.coords t) zfill (iblk2 V c 6 t)
def bblk (c : Dev nD) (t : Fin cfg2.N) : S1x512.Idx → Elt Ideal .f32 := win2_7.fill (grid2.coords t) zfill (iblk2 V c 7 t)

/-- The proof data of this call on core `c`: the arrays as the call finds them; after the body each resident input's
    buffer at its block, the streamed inputs' at their blocks filled out, the state output at the gate of the resident
    blocks and the score block at the scores of the gate against the filled-out blocks; the invariant the scoped rest and
    the generator register; nothing owed; full shares. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => wblk V c t
    | ⟨7, _⟩ => bblk V c t
    | ⟨8, _⟩ => out2g (iblk2 V c 0 t) (iblk2 V c 1 t) (iblk2 V c 2 t) (iblk2 V c 3 t) (iblk2 V c 4 t) (iblk2 V c 5 t)
    | ⟨9, _⟩ => out2s (iblk2 V c 0 t) (iblk2 V c 1 t) (iblk2 V c 2 t) (iblk2 V c 3 t) (iblk2 V c 4 t) (iblk2 V c 5 t) (wblk V c t) (bblk V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = wblk V c t := by dsimp only [dat2]
theorem after2_7 (c : Dev nD) (t : Fin cfg2.N) : (dat2 V c).after 7 t = bblk V c t := by dsimp only [dat2]
theorem after2_8 (c : Dev nD) (t : Fin cfg2.N) : (dat2 V c).after 8 t = out2g (iblk2 V c 0 t) (iblk2 V c 1 t) (iblk2 V c 2 t) (iblk2 V c 3 t) (iblk2 V c 4 t) (iblk2 V c 5 t) := by dsimp only [dat2]
theorem after2_9 (c : Dev nD) (t : Fin cfg2.N) : (dat2 V c).after 9 t = out2s (iblk2 V c 0 t) (iblk2 V c 1 t) (iblk2 V c 2 t) (iblk2 V c 3 t) (iblk2 V c 4 t) (iblk2 V c 5 t) (wblk V c t) (bblk V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- The streamed inputs are fetched at every point: the buffer holds the block on the part inside the array and `d`
    past it. -/
theorem before2_6 (c : Dev nD) (t : Fin cfg2.N) (d) : (dat2 V c).before 6 t d = win2_6.fill (grid2.coords t) d (iblk2 V c 6 t) := by
  unfold Dat.before; rw [if_pos (fetch2_6 t)]; rfl
theorem before2_7 (c : Dev nD) (t : Fin cfg2.N) (d) : (dat2 V c).before 7 t d = win2_7.fill (grid2.coords t) d (iblk2 V c 7 t) := by
  unfold Dat.before; rw [if_pos (fetch2_7 t)]; rfl

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the clipped windows' buffers stated on the parts inside their arrays. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (∃ d, owns (c : Thread nD τ) (st2_6 t) fullShare ((cfg2.win 6).fill (cfg2.grid.coords t) d ((cfg2.win 6).cut (cfg2.grid.coords t) ((dat2 V c).after 6 t))))
    ∗ (∃ d, owns (c : Thread nD τ) (st2_7 t) fullShare ((cfg2.win 7).fill (cfg2.grid.coords t) d ((cfg2.win 7).cut (cfg2.grid.coords t) ((dat2 V c).after 7 t))))
    ∗ owns (c : Thread nD τ) (st2_8 t) fullShare ((dat2 V c).after 8 t)
    ∗ (∃ d, owns (c : Thread nD τ) (st2_9 t) fullShare ((cfg2.win 9).fill (cfg2.grid.coords t) d ((cfg2.win 9).cut (cfg2.grid.coords t) ((dat2 V c).after 9 t)))))

set_option maxHeartbeats 1000000 in
/-- The body at any point: the resident inputs' buffers hold their blocks and the streamed ones theirs filled out with
    whatever was there, so the body's triple applies; the state output is named exactly, the streamed inputs and the
    score block on the parts inside their arrays (where the scores do not depend on the fillers). -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before2_0 V c t d0, before2_1 V c t d1, before2_2 V c t d2, before2_3 V c t d3, before2_4 V c t d4, before2_5 V c t d5,
    before2_6 V c t d6, before2_7 V c t d7]
  iapply (sound_kernel2 (F := Ideal) c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t)
    (win2_6.fill (grid2.coords t) d6 (iblk2 V c 6 t)) (win2_7.fill (grid2.coords t) d7 (iblk2 V c 7 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  rw [after2_0, after2_1, after2_2, after2_3, after2_4, after2_5, after2_6, after2_7, after2_8, after2_9]
  isplitl [H0]; · iexact H0
  isplitl [H1]; · iexact H1
  isplitl [H2]; · iexact H2
  isplitl [H3]; · iexact H3
  isplitl [H4]; · iexact H4
  isplitl [H5]; · iexact H5
  isplitl [H6]
  · iexists d6
    rw [show (cfg2.win 6).cut (cfg2.grid.coords t) (wblk V c t) = iblk2 V c 6 t from win2_6.cut_fill _ _ _]
    iexact H6
  isplitl [H7]
  · iexists d7
    rw [show (cfg2.win 7).cut (cfg2.grid.coords t) (bblk V c t) = iblk2 V c 7 t from win2_7.cut_fill _ _ _]
    iexact H7
  isplitl [H8]; · iexact H8
  iexists (out2s (iblk2 V c 0 t) (iblk2 V c 1 t) (iblk2 V c 2 t) (iblk2 V c 3 t) (iblk2 V c 4 t) (iblk2 V c 5 t) (win2_6.fill (grid2.coords t) d6 (iblk2 V c 6 t)) (win2_7.fill (grid2.coords t) d7 (iblk2 V c 7 t)))
  rw [show (cfg2.win 9).cut (cfg2.grid.coords t) (out2s (iblk2 V c 0 t) (iblk2 V c 1 t) (iblk2 V c 2 t) (iblk2 V c 3 t) (iblk2 V c 4 t) (iblk2 V c 5 t) (wblk V c t) (bblk V c t))
      = win2_9.cut (grid2.coords t) (out2s (iblk2 V c 0 t) (iblk2 V c 1 t) (iblk2 V c 2 t) (iblk2 V c 3 t) (iblk2 V c 4 t) (iblk2 V c 5 t) (win2_6.fill (grid2.coords t) d6 (iblk2 V c 6 t)) (win2_7.fill (grid2.coords t) d7 (iblk2 V c 7 t)))
      from cut_scores t _ _ _ _ _ _ _ _ _ _ _ _,
    show (cfg2.win 9).fill (cfg2.grid.coords t) (out2s (iblk2 V c 0 t) (iblk2 V c 1 t) (iblk2 V c 2 t) (iblk2 V c 3 t) (iblk2 V c 4 t) (iblk2 V c 5 t) (win2_6.fill (grid2.coords t) d6 (iblk2 V c 6 t)) (win2_7.fill (grid2.coords t) d7 (iblk2 V c 7 t)))
        (win2_9.cut (grid2.coords t) (out2s (iblk2 V c 0 t) (iblk2 V c 1 t) (iblk2 V c 2 t) (iblk2 V c 3 t) (iblk2 V c 4 t) (iblk2 V c 5 t) (win2_6.fill (grid2.coords t) d6 (iblk2 V c 6 t)) (win2_7.fill (grid2.coords t) d7 (iblk2 V c 7 t))))
      = out2s (iblk2 V c 0 t) (iblk2 V c 1 t) (iblk2 V c 2 t) (iblk2 V c 3 t) (iblk2 V c 4 t) (iblk2 V c 5 t) (win2_6.fill (grid2.coords t) d6 (iblk2 V c 6 t)) (win2_7.fill (grid2.coords t) d7 (iblk2 V c 7 t)) from win2_9.fill_cut _ _]
  iexact H9

/-- The library's body obligation in its form for clipped windows, at every point. -/
theorem body_obligation2 (c : Dev nD) : BodyObligationLoose (dat2 V c) (defs₀ (F := Ideal)) Variants.none () Set.univ := fun t => by
  rw [bigSep_W2, bigSep_W2]
  exact sound_body2 V c t

end Cert.KernelIdeal.Run

end
-- ==== Proof.RunMain.lean ====
/-
  The run of the whole program over the extended reals: @main as host stretches and the three pallas_calls, each
  call entered from what the items before it left.

  The contents of the core's buffers after each item are a fold from the launch memory: a host stretch applies its
  operations; a call leaves each output array at what its blocks' write-backs wrote and everything else as it found
  it.  The run: every weakly fair execution terminates without a fault, and every final memory holds, at every
  buffer that is not scoped to a call, the last contents of that fold.
-/
import proofs.«148062_j63093069578506_2_alg».proof.Proof.Run0
import proofs.«148062_j63093069578506_2_alg».proof.Proof.Run1
import proofs.«148062_j63093069578506_2_alg».proof.Proof.Run2b
import proofs.«148062_j63093069578506_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The buffers' contents after each item -/

/-- At launch. -/
abbrev W0 : Dev nD → Valuation τ sig (Elt Ideal) := fun c b => m (c, b)
/-- After the first host stretch (the first call's entry). -/
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b

/-- After pallas_call 0: its arrays at what its write-backs leave (an input as entered), every other buffer as entered. -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pallas_call 1: its arrays at what its write-backs leave (an input as entered), every other buffer as entered. -/
def W3 (c : Dev nD) : Valuation τ sig (Elt Ideal) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev V3 : (c : Dev nD) → (b : Ref sig .tc) → Buf (Elt Ideal) ((c : Thread nD τ).loc b) := fun c b => W3 m c b
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the reshape of the flat context row (the third call's entry). -/
abbrev W4 : Dev nD → Valuation τ sig (Elt Ideal) := fun c => StableHlo.after hostOps2 (W3 m c)
abbrev V4 : (c : Dev nD) → (b : Ref sig .tc) → Buf (Elt Ideal) ((c : Thread nD τ).loc b) := fun c b => W4 m c b

/-- After pallas_call 2: its arrays at what its write-backs leave (an input as entered), every other buffer as entered. -/
def W5 (c : Dev nD) : Valuation τ sig (Elt Ideal) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

abbrev V5 : (c : Dev nD) → (b : Ref sig .tc) → Buf (Elt Ideal) ((c : Thread nD τ).loc b) := fun c b => W5 m c b
theorem hF2 (c : Dev nD) (w : Fin cfg2.W) : (dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data family and the thread state -/

/-- Every call's proof data, each at its entry contents: a literal match on the call. -/
def pdats : (p : Fin 3) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- The call as a segment of @main: entered from every unscoped buffer at the contents before it, left at the contents
    after it. Its arrays are split out of the unscoped buffers and put back at what the write-backs leave; the generator
    register goes into the invariant and comes back; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment of @main: entered from every unscoped buffer at the contents before it, left at the contents
    after it. Its arrays are split out of the unscoped buffers and put back at what the write-backs leave; the generator
    register goes into the invariant and comes back; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment of @main: entered from every unscoped buffer at the contents before it, left at the contents
    after it. Its arrays are split out of the unscoped buffers and put back at what the write-backs leave; the generator
    register goes into the invariant and comes back; nothing is owed; the kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V4 m) c
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]

theorem main_run (c : Dev nD) : main (F := Ideal) c = Pipeline.Seg.run (segs m) := (main_chain c).trans (by chain_rfl)

variable (ρ : Dev nD → PrngReg)

set_option backward.isDefEq.respectTransparency.types false in
/-- THE RUN: from any memory with zero counters every weakly fair execution of @main terminates, nothing faulting, and
    every final memory holds every unscoped buffer at the last contents of the fold. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Run

end
-- ==== Proof.Reads.lean ====
/-
  Reading the fold of the buffers' contents: which items leave a buffer alone.

  A host stretch changes only the buffers its operations write; a pallas_call changes only its output arrays (an input
  array it reads through a window ends as it was entered).  So every argument array reaches the end as launched, and an
  intermediate array reaches the call that reads it as the item that wrote it left it.
-/
import proofs.«148062_j63093069578506_2_alg».proof.Proof.RunMain

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ)

/-! ## Every argument array ends as launched -/
theorem W5_arg0 (c : Dev nD) : W5 m c (Proc.devRef .tc main_arg0) = m ((c : Thread nD τ).loc main_arg0) :=
  calc W5 m c (Proc.devRef .tc main_arg0)
    _ = W4 m c (Proc.devRef .tc main_arg0) := (W5_of_ne m c main_arg0 (by decide))
    _ = W3 m c (Proc.devRef .tc main_arg0) := (StableHlo.after_of_writes_sub hostOps2 _ hostOps2_writes (by decide))
    _ = W2 m c (Proc.devRef .tc main_arg0) := (W3_of_ne m c main_arg0 (by decide))
    _ = W1 m c (Proc.devRef .tc main_arg0) := (W2_of_ne m c main_arg0 (by decide))
    _ = W0 m c (Proc.devRef .tc main_arg0) := (StableHlo.after_of_writes_sub hostOps0 _ hostOps0_writes (by decide))
    _ = m ((c : Thread nD τ).loc main_arg0) := rfl
theorem W5_arg1 (c : Dev nD) : W5 m c (Proc.devRef .tc main_arg1) = m ((c : Thread nD τ).loc main_arg1) :=
  calc W5 m c (Proc.devRef .tc main_arg1)
    _ = W4 m c (Proc.devRef .tc main_arg1) := (W5_of_ne m c main_arg1 (by decide))
    _ = W3 m c (Proc.devRef .tc main_arg1) := (StableHlo.after_of_writes_sub hostOps2 _ hostOps2_writes (by decide))
    _ = W2 m c (Proc.devRef .tc main_arg1) := (W3_of_ne m c main_arg1 (by decide))
    _ = W1 m c (Proc.devRef .tc main_arg1) := (W2_of_ne m c main_arg1 (by decide))
    _ = W0 m c (Proc.devRef .tc main_arg1) := (StableHlo.after_of_writes_sub hostOps0 _ hostOps0_writes (by decide))
    _ = m ((c : Thread nD τ).loc main_arg1) := rfl
theorem W5_arg2 (c : Dev nD) : W5 m c (Proc.devRef .tc main_arg2) = m ((c : Thread nD τ).loc main_arg2) :=
  calc W5 m c (Proc.devRef .tc main_arg2)
    _ = W4 m c (Proc.devRef .tc main_arg2) := (W5_of_ne m c main_arg2 (by decide))
    _ = W3 m c (Proc.devRef .tc main_arg2) := (StableHlo.after_of_writes_sub hostOps2 _ hostOps2_writes (by decide))
    _ = W2 m c (Proc.devRef .tc main_arg2) := (W3_of_ne m c main_arg2 (by decide))
    _ = W1 m c (Proc.devRef .tc main_arg2) := (W2_of_ne m c main_arg2 (by decide))
    _ = W0 m c (Proc.devRef .tc main_arg2) := (StableHlo.after_of_writes_sub hostOps0 _ hostOps0_writes (by decide))
    _ = m ((c : Thread nD τ).loc main_arg2) := rfl
theorem W5_arg3 (c : Dev nD) : W5 m c (Proc.devRef .tc main_arg3) = m ((c : Thread nD τ).loc main_arg3) :=
  calc W5 m c (Proc.devRef .tc main_arg3)
    _ = W4 m c (Proc.devRef .tc main_arg3) := (W5_of_ne m c main_arg3 (by decide))
    _ = W3 m c (Proc.devRef .tc main_arg3) := (StableHlo.after_of_writes_sub hostOps2 _ hostOps2_writes (by decide))
    _ = W2 m c (Proc.devRef .tc main_arg3) := (W3_of_ne m c main_arg3 (by decide))
    _ = W1 m c (Proc.devRef .tc main_arg3) := (W2_of_ne m c main_arg3 (by decide))
    _ = W0 m c (Proc.devRef .tc main_arg3) := (StableHlo.after_of_writes_sub hostOps0 _ hostOps0_writes (by decide))
    _ = m ((c : Thread nD τ).loc main_arg3) := rfl
theorem W5_arg4 (c : Dev nD) : W5 m c (Proc.devRef .tc main_arg4) = m ((c : Thread nD τ).loc main_arg4) :=
  calc W5 m c (Proc.devRef .tc main_arg4)
    _ = W4 m c (Proc.devRef .tc main_arg4) := ((W5_arr m c 3).trans (((dat2 (V4 m) c).arrAt_in 3 rfl _).trans (A_eq2 (V4 m) c 3)))
    _ = W3 m c (Proc.devRef .tc main_arg4) := (StableHlo.after_of_writes_sub hostOps2 _ hostOps2_writes (by decide))
    _ = W2 m c (Proc.devRef .tc main_arg4) := (W3_of_ne m c main_arg4 (by decide))
    _ = W1 m c (Proc.devRef .tc main_arg4) := (W2_of_ne m c main_arg4 (by decide))
    _ = W0 m c (Proc.devRef .tc main_arg4) := (StableHlo.after_of_writes_sub hostOps0 _ hostOps0_writes (by decide))
    _ = m ((c : Thread nD τ).loc main_arg4) := rfl
theorem W5_arg5 (c : Dev nD) : W5 m c (Proc.devRef .tc main_arg5) = m ((c : Thread nD τ).loc main_arg5) :=
  calc W5 m c (Proc.devRef .tc main_arg5)
    _ = W4 m c (Proc.devRef .tc main_arg5) := (W5_of_ne m c main_arg5 (by decide))
    _ = W3 m c (Proc.devRef .tc main_arg5) := (StableHlo.after_of_writes_sub hostOps2 _ hostOps2_writes (by decide))
    _ = W2 m c (Proc.devRef .tc main_arg5) := (W3_of_ne m c main_arg5 (by decide))
    _ = W1 m c (Proc.devRef .tc main_arg5) := ((W2_arr m c 0).trans (((dat0 (V1 m) c).arrAt_in 0 rfl _).trans (A_eq0 (V1 m) c 0)))
    _ = W0 m c (Proc.devRef .tc main_arg5) := (StableHlo.after_of_writes_sub hostOps0 _ hostOps0_writes (by decide))
    _ = m ((c : Thread nD τ).loc main_arg5) := rfl
theorem W5_arg6 (c : Dev nD) : W5 m c (Proc.devRef .tc main_arg6) = m ((c : Thread nD τ).loc main_arg6) :=
  calc W5 m c (Proc.devRef .tc main_arg6)
    _ = W4 m c (Proc.devRef .tc main_arg6) := (W5_of_ne m c main_arg6 (by decide))
    _ = W3 m c (Proc.devRef .tc main_arg6) := (StableHlo.after_of_writes_sub hostOps2 _ hostOps2_writes (by decide))
    _ = W2 m c (Proc.devRef .tc main_arg6) := (W3_of_ne m c main_arg6 (by decide))
    _ = W1 m c (Proc.devRef .tc main_arg6) := (W2_of_ne m c main_arg6 (by decide))
    _ = W0 m c (Proc.devRef .tc main_arg6) := (StableHlo.after_of_writes_sub hostOps0 _ hostOps0_writes (by decide))
    _ = m ((c : Thread nD τ).loc main_arg6) := rfl
theorem W5_arg7 (c : Dev nD) : W5 m c (Proc.devRef .tc main_arg7) = m ((c : Thread nD τ).loc main_arg7) :=
  calc W5 m c (Proc.devRef .tc main_arg7)
    _ = W4 m c (Proc.devRef .tc main_arg7) := (W5_of_ne m c main_arg7 (by decide))
    _ = W3 m c (Proc.devRef .tc main_arg7) := (StableHlo.after_of_writes_sub hostOps2 _ hostOps2_writes (by decide))
    _ = W2 m c (Proc.devRef .tc main_arg7) := (W3_of_ne m c main_arg7 (by decide))
    _ = W1 m c (Proc.devRef .tc main_arg7) := ((W2_arr m c 1).trans (((dat0 (V1 m) c).arrAt_in 1 rfl _).trans (A_eq0 (V1 m) c 1)))
    _ = W0 m c (Proc.devRef .tc main_arg7) := (StableHlo.after_of_writes_sub hostOps0 _ hostOps0_writes (by decide))
    _ = m ((c : Thread nD τ).loc main_arg7) := rfl
theorem W5_arg8 (c : Dev nD) : W5 m c (Proc.devRef .tc main_arg8) = m ((c : Thread nD τ).loc main_arg8) :=
  calc W5 m c (Proc.devRef .tc main_arg8)
    _ = W4 m c (Proc.devRef .tc main_arg8) := (W5_of_ne m c main_arg8 (by decide))
    _ = W3 m c (Proc.devRef .tc main_arg8) := (StableHlo.after_of_writes_sub hostOps2 _ hostOps2_writes (by decide))
    _ = W2 m c (Proc.devRef .tc main_arg8) := (W3_of_ne m c main_arg8 (by decide))
    _ = W1 m c (Proc.devRef .tc main_arg8) := (W2_of_ne m c main_arg8 (by decide))
    _ = W0 m c (Proc.devRef .tc main_arg8) := (StableHlo.after_of_writes_sub hostOps0 _ hostOps0_writes (by decide))
    _ = m ((c : Thread nD τ).loc main_arg8) := rfl
theorem W5_arg9 (c : Dev nD) : W5 m c (Proc.devRef .tc main_arg9) = m ((c : Thread nD τ).loc main_arg9) :=
  calc W5 m c (Proc.devRef .tc main_arg9)
    _ = W4 m c (Proc.devRef .tc main_arg9) := (W5_of_ne m c main_arg9 (by decide))
    _ = W3 m c (Proc.devRef .tc main_arg9) := (StableHlo.after_of_writes_sub hostOps2 _ hostOps2_writes (by decide))
    _ = W2 m c (Proc.devRef .tc main_arg9) := (W3_of_ne m c main_arg9 (by decide))
    _ = W1 m c (Proc.devRef .tc main_arg9) := (W2_of_ne m c main_arg9 (by decide))
    _ = W0 m c (Proc.devRef .tc main_arg9) := (StableHlo.after_of_writes_sub hostOps0 _ hostOps0_writes (by decide))
    _ = m ((c : Thread nD τ).loc main_arg9) := rfl
theorem W5_arg10 (c : Dev nD) : W5 m c (Proc.devRef .tc main_arg10) = m ((c : Thread nD τ).loc main_arg10) :=
  calc W5 m c (Proc.devRef .tc main_arg10)
    _ = W4 m c (Proc.devRef .tc main_arg10) := (W5_of_ne m c main_arg10 (by decide))
    _ = W3 m c (Proc.devRef .tc main_arg10) := (StableHlo.after_of_writes_sub hostOps2 _ hostOps2_writes (by decide))
    _ = W2 m c (Proc.devRef .tc main_arg10) := (W3_of_ne m c main_arg10 (by decide))
    _ = W1 m c (Proc.devRef .tc main_arg10) := (W2_of_ne m c main_arg10 (by decide))
    _ = W0 m c (Proc.devRef .tc main_arg10) := (StableHlo.after_of_writes_sub hostOps0 _ hostOps0_writes (by decide))
    _ = m ((c : Thread nD τ).loc main_arg10) := rfl
theorem W5_arg11 (c : Dev nD) : W5 m c (Proc.devRef .tc main_arg11) = m ((c : Thread nD τ).loc main_arg11) :=
  calc W5 m c (Proc.devRef .tc main_arg11)
    _ = W4 m c (Proc.devRef .tc main_arg11) := (W5_of_ne m c main_arg11 (by decide))
    _ = W3 m c (Proc.devRef .tc main_arg11) := (StableHlo.after_of_writes_sub hostOps2 _ hostOps2_writes (by decide))
    _ = W2 m c (Proc.devRef .tc main_arg11) := ((W3_arr m c 1).trans (((dat1 (V2 m) c).arrAt_in 1 rfl _).trans (A_eq1 (V2 m) c 1)))
    _ = W1 m c (Proc.devRef .tc main_arg11) := (W2_of_ne m c main_arg11 (by decide))
    _ = W0 m c (Proc.devRef .tc main_arg11) := (StableHlo.after_of_writes_sub hostOps0 _ hostOps0_writes (by decide))
    _ = m ((c : Thread nD τ).loc main_arg11) := rfl
theorem W5_arg12 (c : Dev nD) : W5 m c (Proc.devRef .tc main_arg12) = m ((c : Thread nD τ).loc main_arg12) :=
  calc W5 m c (Proc.devRef .tc main_arg12)
    _ = W4 m c (Proc.devRef .tc main_arg12) := (W5_of_ne m c main_arg12 (by decide))
    _ = W3 m c (Proc.devRef .tc main_arg12) := (StableHlo.after_of_writes_sub hostOps2 _ hostOps2_writes (by decide))
    _ = W2 m c (Proc.devRef .tc main_arg12) := (W3_of_ne m c main_arg12 (by decide))
    _ = W1 m c (Proc.devRef .tc main_arg12) := (W2_of_ne m c main_arg12 (by decide))
    _ = W0 m c (Proc.devRef .tc main_arg12) := (StableHlo.after_of_writes_sub hostOps0 _ hostOps0_writes (by decide))
    _ = m ((c : Thread nD τ).loc main_arg12) := rfl
theorem W5_arg13 (c : Dev nD) : W5 m c (Proc.devRef .tc main_arg13) = m ((c : Thread nD τ).loc main_arg13) :=
  calc W5 m c (Proc.devRef .tc main_arg13)
    _ = W4 m c (Proc.devRef .tc main_arg13) := (W5_of_ne m c main_arg13 (by decide))
    _ = W3 m c (Proc.devRef .tc main_arg13) := (StableHlo.after_of_writes_sub hostOps2 _ hostOps2_writes (by decide))
    _ = W2 m c (Proc.devRef .tc main_arg13) := (W3_of_ne m c main_arg13 (by decide))
    _ = W1 m c (Proc.devRef .tc main_arg13) := (W2_of_ne m c main_arg13 (by decide))
    _ = W0 m c (Proc.devRef .tc main_arg13) := (StableHlo.after_of_writes_sub hostOps0 _ hostOps0_writes (by decide))
    _ = m ((c : Thread nD τ).loc main_arg13) := rfl
theorem W5_arg14 (c : Dev nD) : W5 m c (Proc.devRef .tc main_arg14) = m ((c : Thread nD τ).loc main_arg14) :=
  calc W5 m c (Proc.devRef .tc main_arg14)
    _ = W4 m c (Proc.devRef .tc main_arg14) := ((W5_arr m c 1).trans (((dat2 (V4 m) c).arrAt_in 1 rfl _).trans (A_eq2 (V4 m) c 1)))
    _ = W3 m c (Proc.devRef .tc main_arg14) := (StableHlo.after_of_writes_sub hostOps2 _ hostOps2_writes (by decide))
    _ = W2 m c (Proc.devRef .tc main_arg14) := (W3_of_ne m c main_arg14 (by decide))
    _ = W1 m c (Proc.devRef .tc main_arg14) := (W2_of_ne m c main_arg14 (by decide))
    _ = W0 m c (Proc.devRef .tc main_arg14) := (StableHlo.after_of_writes_sub hostOps0 _ hostOps0_writes (by decide))
    _ = m ((c : Thread nD τ).loc main_arg14) := rfl
theorem W5_arg15 (c : Dev nD) : W5 m c (Proc.devRef .tc main_arg15) = m ((c : Thread nD τ).loc main_arg15) :=
  calc W5 m c (Proc.devRef .tc main_arg15)
    _ = W4 m c (Proc.devRef .tc main_arg15) := (W5_of_ne m c main_arg15 (by decide))
    _ = W3 m c (Proc.devRef .tc main_arg15) := (StableHlo.after_of_writes_sub hostOps2 _ hostOps2_writes (by decide))
    _ = W2 m c (Proc.devRef .tc main_arg15) := (W3_of_ne m c main_arg15 (by decide))
    _ = W1 m c (Proc.devRef .tc main_arg15) := (W2_of_ne m c main_arg15 (by decide))
    _ = W0 m c (Proc.devRef .tc main_arg15) := (StableHlo.after_of_writes_sub hostOps0 _ hostOps0_writes (by decide))
    _ = m ((c : Thread nD τ).loc main_arg15) := rfl
theorem W5_arg16 (c : Dev nD) : W5 m c (Proc.devRef .tc main_arg16) = m ((c : Thread nD τ).loc main_arg16) :=
  calc W5 m c (Proc.devRef .tc main_arg16)
    _ = W4 m c (Proc.devRef .tc main_arg16) := ((W5_arr m c 6).trans (((dat2 (V4 m) c).arrAt_in 6 rfl _).trans (A_eq2 (V4 m) c 6)))
    _ = W3 m c (Proc.devRef .tc main_arg16) := (StableHlo.after_of_writes_sub hostOps2 _ hostOps2_writes (by decide))
    _ = W2 m c (Proc.devRef .tc main_arg16) := (W3_of_ne m c main_arg16 (by decide))
    _ = W1 m c (Proc.devRef .tc main_arg16) := (W2_of_ne m c main_arg16 (by decide))
    _ = W0 m c (Proc.devRef .tc main_arg16) := (StableHlo.after_of_writes_sub hostOps0 _ hostOps0_writes (by decide))
    _ = m ((c : Thread nD τ).loc main_arg16) := rfl
theorem W5_arg17 (c : Dev nD) : W5 m c (Proc.devRef .tc main_arg17) = m ((c : Thread nD τ).loc main_arg17) :=
  calc W5 m c (Proc.devRef .tc main_arg17)
    _ = W4 m c (Proc.devRef .tc main_arg17) := (W5_of_ne m c main_arg17 (by decide))
    _ = W3 m c (Proc.devRef .tc main_arg17) := (StableHlo.after_of_writes_sub hostOps2 _ hostOps2_writes (by decide))
    _ = W2 m c (Proc.devRef .tc main_arg17) := (W3_of_ne m c main_arg17 (by decide))
    _ = W1 m c (Proc.devRef .tc main_arg17) := (W2_of_ne m c main_arg17 (by decide))
    _ = W0 m c (Proc.devRef .tc main_arg17) := (StableHlo.after_of_writes_sub hostOps0 _ hostOps0_writes (by decide))
    _ = m ((c : Thread nD τ).loc main_arg17) := rfl

/-! ## Arguments as the calls find them -/
theorem W4_arg14 (c : Dev nD) : W4 m c (Proc.devRef .tc main_arg14) = m ((c : Thread nD τ).loc main_arg14) :=
  calc W4 m c (Proc.devRef .tc main_arg14)
    _ = W3 m c (Proc.devRef .tc main_arg14) := (StableHlo.after_of_writes_sub hostOps2 _ hostOps2_writes (by decide))
    _ = W2 m c (Proc.devRef .tc main_arg14) := (W3_of_ne m c main_arg14 (by decide))
    _ = W1 m c (Proc.devRef .tc main_arg14) := (W2_of_ne m c main_arg14 (by decide))
    _ = W0 m c (Proc.devRef .tc main_arg14) := (StableHlo.after_of_writes_sub hostOps0 _ hostOps0_writes (by decide))
    _ = m ((c : Thread nD τ).loc main_arg14) := rfl
theorem W4_arg4 (c : Dev nD) : W4 m c (Proc.devRef .tc main_arg4) = m ((c : Thread nD τ).loc main_arg4) :=
  calc W4 m c (Proc.devRef .tc main_arg4)
    _ = W3 m c (Proc.devRef .tc main_arg4) := (StableHlo.after_of_writes_sub hostOps2 _ hostOps2_writes (by decide))
    _ = W2 m c (Proc.devRef .tc main_arg4) := (W3_of_ne m c main_arg4 (by decide))
    _ = W1 m c (Proc.devRef .tc main_arg4) := (W2_of_ne m c main_arg4 (by decide))
    _ = W0 m c (Proc.devRef .tc main_arg4) := (StableHlo.after_of_writes_sub hostOps0 _ hostOps0_writes (by decide))
    _ = m ((c : Thread nD τ).loc main_arg4) := rfl
theorem W4_arg16 (c : Dev nD) : W4 m c (Proc.devRef .tc main_arg16) = m ((c : Thread nD τ).loc main_arg16) :=
  calc W4 m c (Proc.devRef .tc main_arg16)
    _ = W3 m c (Proc.devRef .tc main_arg16) := (StableHlo.after_of_writes_sub hostOps2 _ hostOps2_writes (by decide))
    _ = W2 m c (Proc.devRef .tc main_arg16) := (W3_of_ne m c main_arg16 (by decide))
    _ = W1 m c (Proc.devRef .tc main_arg16) := (W2_of_ne m c main_arg16 (by decide))
    _ = W0 m c (Proc.devRef .tc main_arg16) := (StableHlo.after_of_writes_sub hostOps0 _ hostOps0_writes (by decide))
    _ = m ((c : Thread nD τ).loc main_arg16) := rfl
theorem W2_arg11 (c : Dev nD) : W2 m c (Proc.devRef .tc main_arg11) = m ((c : Thread nD τ).loc main_arg11) :=
  calc W2 m c (Proc.devRef .tc main_arg11)
    _ = W1 m c (Proc.devRef .tc main_arg11) := (W2_of_ne m c main_arg11 (by decide))
    _ = W0 m c (Proc.devRef .tc main_arg11) := (StableHlo.after_of_writes_sub hostOps0 _ hostOps0_writes (by decide))
    _ = m ((c : Thread nD τ).loc main_arg11) := rfl
theorem W1_arg5 (c : Dev nD) : W1 m c (Proc.devRef .tc main_arg5) = m ((c : Thread nD τ).loc main_arg5) :=
  calc W1 m c (Proc.devRef .tc main_arg5)
    _ = W0 m c (Proc.devRef .tc main_arg5) := (StableHlo.after_of_writes_sub hostOps0 _ hostOps0_writes (by decide))
    _ = m ((c : Thread nD τ).loc main_arg5) := rfl
theorem W1_arg7 (c : Dev nD) : W1 m c (Proc.devRef .tc main_arg7) = m ((c : Thread nD τ).loc main_arg7) :=
  calc W1 m c (Proc.devRef .tc main_arg7)
    _ = W0 m c (Proc.devRef .tc main_arg7) := (StableHlo.after_of_writes_sub hostOps0 _ hostOps0_writes (by decide))
    _ = m ((c : Thread nD τ).loc main_arg7) := rfl

/-! ## Intermediate arrays as the calls find them -/
theorem W4_v6 (c : Dev nD) : W4 m c (Proc.devRef .tc main_v6) = W1 m c (Proc.devRef .tc main_v6) :=
  calc W4 m c (Proc.devRef .tc main_v6)
    _ = W3 m c (Proc.devRef .tc main_v6) := (StableHlo.after_of_writes_sub hostOps2 _ hostOps2_writes (by decide))
    _ = W2 m c (Proc.devRef .tc main_v6) := (W3_of_ne m c main_v6 (by decide))
    _ = W1 m c (Proc.devRef .tc main_v6) := (W2_of_ne m c main_v6 (by decide))
theorem W4_v12 (c : Dev nD) : W4 m c (Proc.devRef .tc main_v12) = W1 m c (Proc.devRef .tc main_v12) :=
  calc W4 m c (Proc.devRef .tc main_v12)
    _ = W3 m c (Proc.devRef .tc main_v12) := (StableHlo.after_of_writes_sub hostOps2 _ hostOps2_writes (by decide))
    _ = W2 m c (Proc.devRef .tc main_v12) := (W3_of_ne m c main_v12 (by decide))
    _ = W1 m c (Proc.devRef .tc main_v12) := (W2_of_ne m c main_v12 (by decide))
theorem W4_v13 (c : Dev nD) : W4 m c (Proc.devRef .tc main_v13) = W1 m c (Proc.devRef .tc main_v13) :=
  calc W4 m c (Proc.devRef .tc main_v13)
    _ = W3 m c (Proc.devRef .tc main_v13) := (StableHlo.after_of_writes_sub hostOps2 _ hostOps2_writes (by decide))
    _ = W2 m c (Proc.devRef .tc main_v13) := (W3_of_ne m c main_v13 (by decide))
    _ = W1 m c (Proc.devRef .tc main_v13) := (W2_of_ne m c main_v13 (by decide))
theorem W4_v15 (c : Dev nD) : W4 m c (Proc.devRef .tc main_v15) = W1 m c (Proc.devRef .tc main_v15) :=
  calc W4 m c (Proc.devRef .tc main_v15)
    _ = W3 m c (Proc.devRef .tc main_v15) := (StableHlo.after_of_writes_sub hostOps2 _ hostOps2_writes (by decide))
    _ = W2 m c (Proc.devRef .tc main_v15) := (W3_of_ne m c main_v15 (by decide))
    _ = W1 m c (Proc.devRef .tc main_v15) := (W2_of_ne m c main_v15 (by decide))
theorem W2_v14 (c : Dev nD) : W2 m c (Proc.devRef .tc main_v14) = W1 m c (Proc.devRef .tc main_v14) :=
  calc W2 m c (Proc.devRef .tc main_v14)
    _ = W1 m c (Proc.devRef .tc main_v14) := (W2_of_ne m c main_v14 (by decide))
theorem W5_v16 (c : Dev nD) : W5 m c (Proc.devRef .tc main_v16) = W2 m c (Proc.devRef .tc main_v16) :=
  calc W5 m c (Proc.devRef .tc main_v16)
    _ = W4 m c (Proc.devRef .tc main_v16) := (W5_of_ne m c main_v16 (by decide))
    _ = W3 m c (Proc.devRef .tc main_v16) := (StableHlo.after_of_writes_sub hostOps2 _ hostOps2_writes (by decide))
    _ = W2 m c (Proc.devRef .tc main_v16) := ((W3_arr m c 0).trans (((dat1 (V2 m) c).arrAt_in 0 rfl _).trans (A_eq1 (V2 m) c 0)))
theorem W4_v17 (c : Dev nD) : W4 m c (Proc.devRef .tc main_v17) = W3 m c (Proc.devRef .tc main_v17) :=
  calc W4 m c (Proc.devRef .tc main_v17)
    _ = W3 m c (Proc.devRef .tc main_v17) := (StableHlo.after_of_writes_sub hostOps2 _ hostOps2_writes (by decide))

end Cert.KernelIdeal.Run

end
-- ==== Proof.ClaimFrames.lean ====
/-
  The idealized kernel program's frame: read off its run.

  The run ends with every unscoped buffer at the last contents of the fold, and the fold leaves every argument array
  as launched.
-/
import proofs.«148062_j63093069578506_2_alg».proof.Defs
import proofs.«148062_j63093069578506_2_alg».proof.Proof.Reads
import proofs.«148062_j63093069578506_2_alg».proof.Proof.Gen.Pre_finite_inputs

set_option maxRecDepth 16384

noncomputable section

namespace Cert.Proof.Frames

open Cert.KernelIdeal Cert.KernelIdeal.Gen Cert.KernelIdeal.Run
open Idealize.ShloMosaic Idealize.ShloMosaic.TcCoe
open Idealize.SL Idealize.SL.Sem

theorem frame_ki : Cert.frame_KernelIdeal := fun m ρ _ =>
  (θ_run Cert.KernelIdeal.defs _ _).mono (fun r h c =>
    ⟨(h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c),
     (h c _ (mem_uc main_arg5 (by decide))).trans (W5_arg5 m c),
     (h c _ (mem_uc main_arg6 (by decide))).trans (W5_arg6 m c),
     (h c _ (mem_uc main_arg7 (by decide))).trans (W5_arg7 m c),
     (h c _ (mem_uc main_arg8 (by decide))).trans (W5_arg8 m c),
     (h c _ (mem_uc main_arg9 (by decide))).trans (W5_arg9 m c),
     (h c _ (mem_uc main_arg10 (by decide))).trans (W5_arg10 m c),
     (h c _ (mem_uc main_arg11 (by decide))).trans (W5_arg11 m c),
     (h c _ (mem_uc main_arg12 (by decide))).trans (W5_arg12 m c),
     (h c _ (mem_uc main_arg13 (by decide))).trans (W5_arg13 m c),
     (h c _ (mem_uc main_arg14 (by decide))).trans (W5_arg14 m c),
     (h c _ (mem_uc main_arg15 (by decide))).trans (W5_arg15 m c),
     (h c _ (mem_uc main_arg16 (by decide))).trans (W5_arg16 m c),
     (h c _ (mem_uc main_arg17 (by decide))).trans (W5_arg17 m c)⟩)
    (Cert.KernelIdeal.Run.run m ρ)

end Cert.Proof.Frames

end
-- ==== Proof.RefSide.lean ====
/- The reference program over the extended reals: its frame, and its run with each result stated as the stage of the
   composed term of the arguments. -/
import proofs.«148062_j63093069578506_2_alg».proof.Defs
import proofs.«148062_j63093069578506_2_alg».proof.Proof.Gen.ReferenceIdeal.Read
import proofs.«148062_j63093069578506_2_alg».proof.Proof.Gen.Pre_finite_inputs

set_option maxRecDepth 16384

noncomputable section

namespace Cert.Proof.RefSide

open Idealize.ShloMosaic Idealize.ShloMosaic.TcCoe Idealize.SL.Sem
open Cert.ReferenceIdeal

/-- The reference program runs and leaves its arguments unchanged: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The reference program's run, each result at its stage of the arguments. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev nD,
      r.2.mem ((c.tc : Thread nD τ).loc main_v54) = Read.val_main_v54 (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))
      ∧ r.2.mem ((c.tc : Thread nD τ).loc main_v50) = Read.val_main_v50 (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
      ∧ r.2.mem ((c.tc : Thread nD τ).loc main_v24) = Read.val_main_v24 (F := Ideal) (m' ((c.tc : Thread nD τ).loc main_arg3)) (m' ((c.tc : Thread nD τ).loc main_arg5)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)) :=
  (θ_run Cert.ReferenceIdeal.defs _ _).mono (fun _ h c =>
    ⟨(h c).1.trans (Read.val_main_v54_eq (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))),
     (h c).2.1.trans (Read.val_main_v50_eq (F := Ideal) (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))),
     (h c).2.2.1.trans (Read.val_main_v24_eq (F := Ideal) (m' ((c.tc : Thread nD τ).loc main_arg3)) (m' ((c.tc : Thread nD τ).loc main_arg5)) (m' ((c.tc : Thread nD τ).loc main_arg7)) (m' ((c.tc : Thread nD τ).loc main_arg8)) (m' ((c.tc : Thread nD τ).loc main_arg9)) (m' ((c.tc : Thread nD τ).loc main_arg10))),
     (h c).2.2.2⟩) (Cert.ReferenceIdeal.Value.run (F := Ideal) m' ρ')

end Cert.Proof.RefSide

end
-- ==== Proof.Families.lean ====
/-
  The program's values as families over the launch memory, on the extended reals: the first gate, the flat context
  entries, the embedded row, the recurrent gate and the scores, each an instance of the specification at the argument
  arrays read at their coordinates.  Both programs' results are shown to be these.
-/
import proofs.«148062_j63093069578506_2_alg».proof.Proof.Gen.KernelIdeal
import proofs.«148062_j63093069578506_2_alg».proof.Proof.Gen.ReferenceIdeal.Read
import proofs.«148062_j63093069578506_2_alg».proof.Proof.Spec
import Idealize.ShloMosaic.Lib.ValueIdx

set_option maxRecDepth 16384

noncomputable section

namespace Cert.KernelIdeal.Run

open Cert.KernelIdeal
open Idealize.ShloMosaic Idealize.ShloMosaic.TcCoe Idealize.ShloMosaic.ValueIdx
open Idealize.SL Idealize.SL.Sem
open Cert.Proof

variable (m : (ℓ : Loc nD τ sig) → Buf (Elt Ideal) ℓ) (c : Dev nD)

/-- The first gate of the arguments, entry q. -/
abbrev gA (q : Fin 512) : EReal := Spec.gate3 (((m ((c : Thread nD τ).loc main_arg3)) : S1.Idx → Elt Ideal .f32) (ix1 0)) (fun q => ((m ((c : Thread nD τ).loc main_arg9)) : S512x1.Idx → Elt Ideal .f32) (ix2 q 0)) (fun q => ((m ((c : Thread nD τ).loc main_arg10)) : S512.Idx → Elt Ideal .f32) (ix1 q)) (fun q => ((m ((c : Thread nD τ).loc main_arg8)) : S512.Idx → Elt Ideal .f32) (ix1 q)) (fun k => ((m ((c : Thread nD τ).loc main_arg5)) : S1x512.Idx → Elt Ideal .f32) (ix2 0 k)) (fun q k => ((m ((c : Thread nD τ).loc main_arg7)) : S512x512.Idx → Elt Ideal .f32) (ix2 q k)) q

/-- The flat context row of the arguments, entry n. -/
abbrev cA (n : Fin 262144) : EReal :=
  Spec.ctxEntry (gA m c) (fun n k => ((m ((c : Thread nD τ).loc main_arg11)) : S262144x512.Idx → Elt Ideal .f32) (ix2 n k)) (fun n => ((m ((c : Thread nD τ).loc main_arg12)) : S262144.Idx → Elt Ideal .f32) (ix1 n)) n

/-- The embedded row: the shared host gather of one row of the table, entry k. -/
abbrev eA (k : Fin 512) : EReal :=
  (Cert.ReferenceIdeal.Read.val_main_v6 (F := Ideal) (m ((c : Thread nD τ).loc main_arg0)) (m ((c : Thread nD τ).loc main_arg6)) : S1x512.Idx → Elt Ideal .f32) (ix2 0 k)

theorem ctx_lt (a b : Fin 512) : 512 * a.val + b.val < 262144 := by have := a.isLt; have := b.isLt; omega

/-- The recurrent gate of the arguments, entry q. -/
abbrev hA (q : Fin 512) : EReal :=
  Spec.gateH (eA m c) (fun q k => ((m ((c : Thread nD τ).loc main_arg14)) : S512x512.Idx → Elt Ideal .f32) (ix2 q k)) (fun q => ((m ((c : Thread nD τ).loc main_arg15)) : S512.Idx → Elt Ideal .f32) (ix1 q))
    (fun k => ((m ((c : Thread nD τ).loc main_arg4)) : S1x512.Idx → Elt Ideal .f32) (ix2 0 k)) (fun a b => cA m c ⟨512 * a.val + b.val, ctx_lt a b⟩)
    (fun q => ((m ((c : Thread nD τ).loc main_arg13)) : S512.Idx → Elt Ideal .f32) (ix1 q)) q

/-- The scores of the arguments, entry v. -/
abbrev sA (v : Fin 50000) : EReal :=
  Spec.score (hA m c) (fun n k => ((m ((c : Thread nD τ).loc main_arg16)) : S50000x512.Idx → Elt Ideal .f32) (ix2 n k)) (fun n => ((m ((c : Thread nD τ).loc main_arg17)) : S50000.Idx → Elt Ideal .f32) (ix1 n)) v

end Cert.KernelIdeal.Run

end
-- ==== Proof.HostReads.lean ====
/- What the host reshapes of the main function hold, read at an index: each is its operand at the index with the same
   row-major position. And the gathered row is the same composed term in both programs. -/
import proofs.«148062_j63093069578506_2_alg».proof.Proof.RunMain
import proofs.«148062_j63093069578506_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The first host stretch's reshapes, as casts of the launch arrays -/

theorem w1_v7 (c : Dev nD) : (W1 m c (Proc.devRef .tc main_v7) : S1x1.Idx → Elt Ideal .f32) = shapeCast S1x1 (m ((c : Thread nD τ).loc main_arg3)) shapeCasts_S1_S1x1 := by
  show StableHlo.after hostOps0 (W0 m c) (Proc.devRef .tc main_v7) = _
  after_results
  rfl

theorem w1_v9 (c : Dev nD) : (W1 m c (Proc.devRef .tc main_v9) : S1x512.Idx → Elt Ideal .f32)
    = shapeCast S1x512 (shapeCast S512 (m ((c : Thread nD τ).loc main_arg9)) shapeCasts_S512x1_S512) shapeCasts_S512_S1x512 := by
  show StableHlo.after hostOps0 (W0 m c) (Proc.devRef .tc main_v9) = _
  after_results
  rfl

theorem w1_v10 (c : Dev nD) : (W1 m c (Proc.devRef .tc main_v10) : S1x512.Idx → Elt Ideal .f32) = shapeCast S1x512 (m ((c : Thread nD τ).loc main_arg10)) shapeCasts_S512_S1x512 := by
  show StableHlo.after hostOps0 (W0 m c) (Proc.devRef .tc main_v10) = _
  after_results
  rfl

theorem w1_v11 (c : Dev nD) : (W1 m c (Proc.devRef .tc main_v11) : S1x512.Idx → Elt Ideal .f32) = shapeCast S1x512 (m ((c : Thread nD τ).loc main_arg8)) shapeCasts_S512_S1x512 := by
  show StableHlo.after hostOps0 (W0 m c) (Proc.devRef .tc main_v11) = _
  after_results
  rfl

theorem w1_v12 (c : Dev nD) : (W1 m c (Proc.devRef .tc main_v12) : S1x512.Idx → Elt Ideal .f32) = shapeCast S1x512 (m ((c : Thread nD τ).loc main_arg15)) shapeCasts_S512_S1x512 := by
  show StableHlo.after hostOps0 (W0 m c) (Proc.devRef .tc main_v12) = _
  after_results
  rfl

theorem w1_v13 (c : Dev nD) : (W1 m c (Proc.devRef .tc main_v13) : S1x512.Idx → Elt Ideal .f32) = shapeCast S1x512 (m ((c : Thread nD τ).loc main_arg13)) shapeCasts_S512_S1x512 := by
  show StableHlo.after hostOps0 (W0 m c) (Proc.devRef .tc main_v13) = _
  after_results
  rfl

theorem w1_v14 (c : Dev nD) : (W1 m c (Proc.devRef .tc main_v14) : S1x262144.Idx → Elt Ideal .f32) = shapeCast S1x262144 (m ((c : Thread nD τ).loc main_arg12)) shapeCasts_S262144_S1x262144 := by
  show StableHlo.after hostOps0 (W0 m c) (Proc.devRef .tc main_v14) = _
  after_results
  rfl

theorem w1_v15 (c : Dev nD) : (W1 m c (Proc.devRef .tc main_v15) : S1x50000.Idx → Elt Ideal .f32) = shapeCast S1x50000 (m ((c : Thread nD τ).loc main_arg17)) shapeCasts_S50000_S1x50000 := by
  show StableHlo.after hostOps0 (W0 m c) (Proc.devRef .tc main_v15) = _
  after_results
  rfl

/-! ## Read at an index -/

/-- The reshape of a one-element vector to a one-by-one array. -/
theorem hr_v7 (c : Dev nD) : (W1 m c (Proc.devRef .tc main_v7) : S1x1.Idx → Elt Ideal .f32) (ix2 0 0) = (m ((c : Thread nD τ).loc main_arg3) : S1.Idx → Elt Ideal .f32) (ix1 0) := by
  rw [w1_v7]; exact shapeCast_a_1a_apply _ _ 0 0

/-- A column reshaped to a vector, then to a row. -/
theorem hr_v9 (c : Dev nD) (q : Fin 512) : (W1 m c (Proc.devRef .tc main_v9) : S1x512.Idx → Elt Ideal .f32) (ix2 0 q) = (m ((c : Thread nD τ).loc main_arg9) : S512x1.Idx → Elt Ideal .f32) (ix2 q 0) := by
  rw [w1_v9, shapeCast_a_1a_apply _ _ 0 q]
  exact shapeCast_apply _ shapeCasts_S512x1_S512 (ix1 q) (ix2 q 0)
    (by rewrite [Shape.rowMajor_val_two, Shape.rowMajor_val_one]; show q.val * 1 + 0 = q.val; omega)

/-- A vector reshaped to a row. -/
theorem hr_v10 (c : Dev nD) (q : Fin 512) : (W1 m c (Proc.devRef .tc main_v10) : S1x512.Idx → Elt Ideal .f32) (ix2 0 q) = (m ((c : Thread nD τ).loc main_arg10) : S512.Idx → Elt Ideal .f32) (ix1 q) := by
  rw [w1_v10]; exact shapeCast_a_1a_apply _ _ 0 q

/-- A vector reshaped to a row. -/
theorem hr_v11 (c : Dev nD) (q : Fin 512) : (W1 m c (Proc.devRef .tc main_v11) : S1x512.Idx → Elt Ideal .f32) (ix2 0 q) = (m ((c : Thread nD τ).loc main_arg8) : S512.Idx → Elt Ideal .f32) (ix1 q) := by
  rw [w1_v11]; exact shapeCast_a_1a_apply _ _ 0 q

/-- A vector reshaped to a row. -/
theorem hr_v12 (c : Dev nD) (q : Fin 512) : (W1 m c (Proc.devRef .tc main_v12) : S1x512.Idx → Elt Ideal .f32) (ix2 0 q) = (m ((c : Thread nD τ).loc main_arg15) : S512.Idx → Elt Ideal .f32) (ix1 q) := by
  rw [w1_v12]; exact shapeCast_a_1a_apply _ _ 0 q

/-- A vector reshaped to a row. -/
theorem hr_v13 (c : Dev nD) (q : Fin 512) : (W1 m c (Proc.devRef .tc main_v13) : S1x512.Idx → Elt Ideal .f32) (ix2 0 q) = (m ((c : Thread nD τ).loc main_arg13) : S512.Idx → Elt Ideal .f32) (ix1 q) := by
  rw [w1_v13]; exact shapeCast_a_1a_apply _ _ 0 q

/-- A vector reshaped to a row. -/
theorem hr_v14 (c : Dev nD) (n : Fin 262144) : (W1 m c (Proc.devRef .tc main_v14) : S1x262144.Idx → Elt Ideal .f32) (ix2 0 n) = (m ((c : Thread nD τ).loc main_arg12) : S262144.Idx → Elt Ideal .f32) (ix1 n) := by
  rw [w1_v14]; exact shapeCast_a_1a_apply _ _ 0 n

/-- A vector reshaped to a row. -/
theorem hr_v15 (c : Dev nD) (v : Fin 50000) : (W1 m c (Proc.devRef .tc main_v15) : S1x50000.Idx → Elt Ideal .f32) (ix2 0 v) = (m ((c : Thread nD τ).loc main_arg17) : S50000.Idx → Elt Ideal .f32) (ix1 v) := by
  rw [w1_v15]; exact shapeCast_a_1a_apply _ _ 0 v

/-! ## The second host stretch: the flat row as a square array, row-major -/

theorem w4_v18 (c : Dev nD) : (W4 m c (Proc.devRef .tc main_v18) : S512x512.Idx → Elt Ideal .f32)
    = shapeCast S512x512 (W3 m c (Proc.devRef .tc main_v17) : S1x262144.Idx → Elt Ideal .f32) shapeCasts_S1x262144_S512x512 := by
  show StableHlo.after hostOps2 (W3 m c) (Proc.devRef .tc main_v18) = _
  after_results
  rfl

theorem hr_v18 (c : Dev nD) (a b : Fin 512) :
    (W4 m c (Proc.devRef .tc main_v18) : S512x512.Idx → Elt Ideal .f32) (ix2 a b)
      = (W3 m c (Proc.devRef .tc main_v17) : S1x262144.Idx → Elt Ideal .f32)
          (ix2 0 ⟨512 * a.val + b.val, by have := a.isLt; have := b.isLt; omega⟩) := by
  rw [w4_v18]
  exact shapeCast_apply _ shapeCasts_S1x262144_S512x512 (ix2 a b) _
    (by rewrite [Shape.rowMajor_val_two, Shape.rowMajor_val_two]
        show 0 * 262144 + (512 * a.val + b.val) = a.val * 512 + b.val
        omega)

/-! ## The gathered row -/

/-- The row the first host stretch gathers is the composed term of the same seven operations in the other program. -/
theorem hr_v6 (c : Dev nD) : (W1 m c (Proc.devRef .tc main_v6) : S1x512.Idx → Elt Ideal .f32)
    = Cert.ReferenceIdeal.Read.val_main_v6 (F := Ideal) (m ((c : Thread nD τ).loc main_arg0)) (m ((c : Thread nD τ).loc main_arg6)) := by
  show StableHlo.after hostOps0 (W0 m c) (Proc.devRef .tc main_v6) = _
  after_results
  rfl

end Cert.KernelIdeal.Run

end
-- ==== Proof.Final0.lean ====
import proofs.«148062_j63093069578506_2_alg».proof.Proof.Run0
import proofs.«148062_j63093069578506_2_alg».proof.Proof.PayloadAt
import Idealize.ShloMosaic.Lib.Pipeline.Value

set_option maxRecDepth 16384

/-!
  The first call's output array after the call, entry by entry.  The grid has one point and every window is its whole
  array, so each block read is the array itself and the one write-back writes the whole output row: lane q ends as the
  first gate at q of the six arrays the call reads.
-/

noncomputable section

namespace Cert.KernelIdeal.Run

open Cert.KernelIdeal Cert.KernelIdeal.Gen Cert.Proof
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The body's one whole store is its payload of the six blocks. -/
theorem out0_eq (x1 : Vec Ideal S1x512 .f32) (x2 : Vec Ideal S512x512 .f32) (x3 : Vec Ideal S1x1 .f32) (x4 x5 x6 : Vec Ideal S1x512 .f32) :
    out0 x1 x2 x3 x4 x5 x6 = k0_pay1 x1 x2 x3 x4 x5 x6 := by
  unfold out0
  rw [View.canon_unit_zero hz0]
  simp only [View.ld_unit_zero (S := S1x512) hz0, View.ld_unit_zero (S := S512x512) hz0, View.ld_unit_zero (S := S1x1) hz0]

/-- The first gate's row as one function of the six arrays the call reads. -/
def G0 (x : S1x512.Idx → Elt Ideal .f32) (W : S512x512.Idx → Elt Ideal .f32) (s : S1x1.Idx → Elt Ideal .f32)
    (wint bint b : S1x512.Idx → Elt Ideal .f32) : S1x512.Idx → Elt Ideal .f32 :=
  fun i => Spec.gate3 (s (ix2 0 0)) (fun q => wint (ix2 0 q)) (fun q => bint (ix2 0 q)) (fun q => b (ix2 0 q))
    (fun k => x (ix2 0 k)) (fun q k => W (ix2 q k)) (⟨(i 1).val, idx2_lt1 i⟩ : Fin 512)

/-- The index maps of the windows over the one-point grid: every block index is zero. -/
theorem idx_facts0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The body's payload at any lane of its block. -/
theorem pay0_point (v0 : Vec Ideal S1x512 .f32) (v1 : Vec Ideal S512x512 .f32) (v5 : Vec Ideal S1x1 .f32)
    (v7 v11 v15 : Vec Ideal S1x512 .f32) (y : S1x512.Idx) :
    k0_pay1 (F := Ideal) v0 v1 v5 v7 v11 v15 y
      = Spec.gate3 (v5 (ix2 0 0)) (fun q => v7 (ix2 0 q)) (fun q => v11 (ix2 0 q)) (fun q => v15 (ix2 0 q))
          (fun k => v0 (ix2 0 k)) (fun q k => v1 (ix2 q k)) (⟨(y 1).val, idx2_lt1 y⟩ : Fin 512) := by
  obtain ⟨p, q, rfl⟩ : ∃ (p : Fin 1) (q : Fin 512), y = ix2 p q := ⟨y 0, y 1, eq_ix2 y⟩
  obtain rfl : p = 0 := Subsingleton.elim _ _
  exact PayloadAt.pay0_at v0 v1 v5 v7 v11 v15 q

/-- Each block read is the array itself. -/
theorem iblk0_0_at (c : Dev nD) (t : Fin cfg0.N) (k : Fin 512) : iblk0 V c 0 t (ix2 0 k) = V c main_arg5 (ix2 0 k) := by
  obtain ⟨⟨e0, e1⟩, -⟩ := idx_facts0 t
  show V c main_arg5 (((cfg0.win 0).blk t).view.emb (ix2 0 k)) = V c main_arg5 (ix2 0 k)
  refine congrArg (V c main_arg5) (funext fun a => Fin.ext ?_)
  match a with
  | ⟨0, _⟩ => show win0_0.index t (0 : Fin 2) * 1 + 1 * 0 = 0; omega
  | ⟨1, _⟩ => show win0_0.index t (1 : Fin 2) * 512 + 1 * k.val = k.val; omega

theorem iblk0_1_at (c : Dev nD) (t : Fin cfg0.N) (q k : Fin 512) (q' : Fin 512) (hq : q'.val = q.val) :
    iblk0 V c 1 t (ix2 q k) = V c main_arg7 (ix2 q' k) := by
  obtain ⟨-, ⟨e0, e1⟩, -⟩ := idx_facts0 t
  show V c main_arg7 (((cfg0.win 1).blk t).view.emb (ix2 q k)) = V c main_arg7 (ix2 q' k)
  refine congrArg (V c main_arg7) (funext fun a => Fin.ext ?_)
  match a with
  | ⟨0, _⟩ => show win0_1.index t (0 : Fin 2) * 512 + 1 * q.val = q'.val; omega
  | ⟨1, _⟩ => show win0_1.index t (1 : Fin 2) * 512 + 1 * k.val = k.val; omega

theorem iblk0_2_at (c : Dev nD) (t : Fin cfg0.N) : iblk0 V c 2 t (ix2 0 0) = V c main_v7 (ix2 0 0) := by
  obtain ⟨-, -, ⟨e0, e1⟩, -⟩ := idx_facts0 t
  show V c main_v7 (((cfg0.win 2).blk t).view.emb (ix2 0 0)) = V c main_v7 (ix2 0 0)
  refine congrArg (V c main_v7) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

theorem iblk0_3_at (c : Dev nD) (t : Fin cfg0.N) (q q' : Fin 512) (hq : q'.val = q.val) :
    iblk0 V c 3 t (ix2 0 q) = V c main_v9 (ix2 0 q') := by
  obtain ⟨-, -, -, ⟨e0, e1⟩, -⟩ := idx_facts0 t
  show V c main_v9 (((cfg0.win 3).blk t).view.emb (ix2 0 q)) = V c main_v9 (ix2 0 q')
  refine congrArg (V c main_v9) (funext fun a => Fin.ext ?_)
  match a with
  | ⟨0, _⟩ => show win0_3.index t (0 : Fin 2) * 1 + 1 * 0 = 0; omega
  | ⟨1, _⟩ => show win0_3.index t (1 : Fin 2) * 512 + 1 * q.val = q'.val; omega

theorem iblk0_4_at (c : Dev nD) (t : Fin cfg0.N) (q q' : Fin 512) (hq : q'.val = q.val) :
    iblk0 V c 4 t (ix2 0 q) = V c main_v10 (ix2 0 q') := by
  obtain ⟨-, -, -, -, ⟨e0, e1⟩, -⟩ := idx_facts0 t
  show V c main_v10 (((cfg0.win 4).blk t).view.emb (ix2 0 q)) = V c main_v10 (ix2 0 q')
  refine congrArg (V c main_v10) (funext fun a => Fin.ext ?_)
  match a with
  | ⟨0, _⟩ => show win0_4.index t (0 : Fin 2) * 1 + 1 * 0 = 0; omega
  | ⟨1, _⟩ => show win0_4.index t (1 : Fin 2) * 512 + 1 * q.val = q'.val; omega

theorem iblk0_5_at (c : Dev nD) (t : Fin cfg0.N) (q q' : Fin 512) (hq : q'.val = q.val) :
    iblk0 V c 5 t (ix2 0 q) = V c main_v11 (ix2 0 q') := by
  obtain ⟨-, -, -, -, -, ⟨e0, e1⟩, -⟩ := idx_facts0 t
  show V c main_v11 (((cfg0.win 5).blk t).view.emb (ix2 0 q)) = V c main_v11 (ix2 0 q')
  refine congrArg (V c main_v11) (funext fun a => Fin.ext ?_)
  match a with
  | ⟨0, _⟩ => show win0_5.index t (0 : Fin 2) * 1 + 1 * 0 = 0; omega
  | ⟨1, _⟩ => show win0_5.index t (1 : Fin 2) * 512 + 1 * q.val = q'.val; omega

/-- What the one point writes back is its block of the gate's row. -/
theorem flushed0_eq (c : Dev nD) (t : Fin cfg0.N) :
    (dat0 V c).flushed 6 t = ((cfg0.win 6).blk t).view.read (Elt Ideal)
      (G0 (V c main_arg5) (V c main_arg7) (V c main_v7) (V c main_v9) (V c main_v10) (V c main_v11)) := by
  show (cfg0.win 6).cut (grid0.coords t) ((dat0 V c).after 6 t) = _
  rw [after0_6, out0_eq]
  obtain ⟨-, -, -, -, -, -, e60, e61⟩ := idx_facts0 t
  funext j
  show k0_pay1 (iblk0 V c 0 t) (iblk0 V c 1 t) (iblk0 V c 2 t) (iblk0 V c 3 t) (iblk0 V c 4 t) (iblk0 V c 5 t) j
    = G0 (V c main_arg5) (V c main_arg7) (V c main_v7) (V c main_v9) (V c main_v10) (V c main_v11) (((cfg0.win 6).blk t).view.emb j)
  refine (pay0_point _ _ _ _ _ _ j).trans ?_
  have hq : ((((cfg0.win 6).blk t).view.emb j) 1).val = (j 1).val := by
    show win0_6.index t (1 : Fin 2) * 512 + 1 * (j 1).val = _
    omega
  unfold G0 Spec.gate3
  exact congrArg Ideal.logistic (congrArg₂ (· + ·) (congrArg₂ (· + ·)
      (congrArg₂ (· + ·) (congrArg₂ (· * ·) (iblk0_2_at V c t) (iblk0_3_at V c t _ _ hq)) (iblk0_4_at V c t _ _ hq))
      (Finset.sum_congr rfl fun k _ => congrArg₂ (· * ·) (iblk0_0_at V c t k) (iblk0_1_at V c t _ k _ hq)))
    (iblk0_5_at V c t _ _ hq))

/-- An index of the output row is in the one point's block iff each coordinate is in the block's range. -/
theorem mem_blk0 (t : Fin cfg0.N) (i : S1x512.Idx) :
    i ∈ ((cfg0.win 6).blk t).view.set ↔ ∀ a : Fin 2, win0_6.index t a * S1x512.size a ≤ (i a).val
      ∧ (i a).val < win0_6.index t a * S1x512.size a + S1x512.size a := by
  show i ∈ ((View.whole main_v16).slice (win0_6.rect t)).set ↔ _
  rw [View.set_slice_whole, Rect.mem_set_unit]
  exact Iff.rfl

/-- The one block is the whole row. -/
theorem covered0 (i : S1x512.Idx) :
    ∃ t : Fin cfg0.N, (cfg0.win 6).flush t = true ∧ i ∈ ((cfg0.win 6).blk t).view.set := by
  have hi0 : (i 0).val < 1 := (i 0).isLt
  have hi1 : (i 1).val < 512 := (i 1).isLt
  have hN : grid0.N = 1 := N_0
  have ht : 0 < cfg0.N := by show 0 < grid0.N; rw [hN]; exact Nat.one_pos
  obtain ⟨-, -, -, -, -, -, e60, e61⟩ := idx_facts0 ⟨0, ht⟩
  refine ⟨⟨0, ht⟩, flush0_6 _, ?_⟩
  rw [mem_blk0]
  intro a
  match a with
  | ⟨0, _⟩ =>
    show win0_6.index ⟨0, ht⟩ (0 : Fin 2) * 1 ≤ (i 0).val ∧ (i 0).val < win0_6.index ⟨0, ht⟩ (0 : Fin 2) * 1 + 1
    omega
  | ⟨1, _⟩ =>
    show win0_6.index ⟨0, ht⟩ (1 : Fin 2) * 512 ≤ (i 1).val ∧ (i 1).val < win0_6.index ⟨0, ht⟩ (1 : Fin 2) * 512 + 512
    omega

/-- The first gate's row after the call, as one function of the arrays the call reads. -/
theorem final0_arr (c : Dev nD) :
    (dat0 V c).arrAt 6 cfg0.N = G0 (V c main_arg5) (V c main_arg7) (V c main_v7) (V c main_v9) (V c main_v10) (V c main_v11) :=
  (dat0 V c).arrAt_eq_of_cover 6 _ (fun t _ => flushed0_eq V c t) covered0

/-- The first gate's row after the call, at lane q. -/
theorem final0 (c : Dev nD) (q : Fin 512) :
    (dat0 V c).arrAt 6 cfg0.N (ix2 0 q)
      = Spec.gate3 (V c main_v7 (ix2 0 0)) (fun q => V c main_v9 (ix2 0 q)) (fun q => V c main_v10 (ix2 0 q))
          (fun q => V c main_v11 (ix2 0 q)) (fun k => V c main_arg5 (ix2 0 k)) (fun q k => V c main_arg7 (ix2 q k)) q := by
  rw [final0_arr]
  rfl

end Cert.KernelIdeal.Run

end
-- ==== Proof.Final1.lean ====
import proofs.«148062_j63093069578506_2_alg».proof.Proof.Run1
import proofs.«148062_j63093069578506_2_alg».proof.Proof.PayloadAt
import Idealize.ShloMosaic.Lib.Pipeline.Value

set_option maxRecDepth 16384

/-!
  The second call's output array after the call, entry by entry.  Point t's block of the output is lanes
  4096·t … 4096·t + 4095; what the body stores there is the payload of the state row, rows 4096·t … of the weight and
  lanes 4096·t … of the bias, which is the specification's context entry at the lane's position in the whole row.  The
  64 blocks tile the row, every point writes its block back, so the row ends as that one function of the arrays.
-/

noncomputable section

namespace Cert.KernelIdeal.Run

open Cert.KernelIdeal Cert.KernelIdeal.Gen Cert.Proof
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The body's one whole store is its payload of the three blocks. -/
theorem out1_eq (x1 : Vec Ideal S1x512 .f32) (x2 : Vec Ideal S4096x512 .f32) (x3 : Vec Ideal S1x4096 .f32) :
    out1 x1 x2 x3 = k1_pay1 x2 x1 x3 := by
  unfold out1
  rw [View.canon_unit_zero hz1]
  simp only [View.ld_unit_zero (S := S1x512) hz1, View.ld_unit_zero (S := S4096x512) hz1, View.ld_unit_zero (S := S1x4096) hz1]

/-- The flat context row as one function of the three arrays the call reads. -/
def G1 (g : S1x512.Idx → Elt Ideal .f32) (W : S262144x512.Idx → Elt Ideal .f32) (b : S1x262144.Idx → Elt Ideal .f32) :
    S1x262144.Idx → Elt Ideal .f32 :=
  fun i => Spec.ctxEntry (fun k => g (ix2 0 k)) (fun n k => W (ix2 n k)) (fun n => b (ix2 0 n))
    (⟨(i 1).val, idx2_lt1 i⟩ : Fin 262144)

/-- The index maps of the windows over the grid: the state row's block never moves; at point t the weight's block is row
    block t, the bias's and the output's are lane block t. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The body's payload at any lane of its block. -/
theorem pay1_point (x0 : Vec Ideal S4096x512 .f32) (x1 : Vec Ideal S1x512 .f32) (x6 : Vec Ideal S1x4096 .f32) (y : S1x4096.Idx) :
    k1_pay1 (F := Ideal) x0 x1 x6 y
      = Spec.ctxEntry (fun k => x1 (ix2 0 k)) (fun n k => x0 (ix2 n k)) (fun n => x6 (ix2 0 n)) (⟨(y 1).val, idx2_lt1 y⟩ : Fin 4096) := by
  obtain ⟨p, q, rfl⟩ : ∃ (p : Fin 1) (q : Fin 4096), y = ix2 p q := ⟨y 0, y 1, eq_ix2 y⟩
  obtain rfl : p = 0 := Subsingleton.elim _ _
  exact PayloadAt.pay1_at x0 x1 x6 q

/-- The state row's block at any point is the whole row. -/
theorem iblk1_0_at (c : Dev nD) (t : Fin cfg1.N) (k : Fin 512) : iblk1 V c 0 t (ix2 0 k) = V c main_v16 (ix2 0 k) := by
  obtain ⟨e00, e01, -⟩ := idx_facts1 t
  show V c main_v16 (((cfg1.win 0).blk t).view.emb (ix2 0 k)) = V c main_v16 (ix2 0 k)
  refine congrArg (V c main_v16) (funext fun a => Fin.ext ?_)
  match a with
  | ⟨0, _⟩ => show win1_0.index t (0 : Fin 2) * 1 + 1 * 0 = 0; omega
  | ⟨1, _⟩ => show win1_0.index t (1 : Fin 2) * 512 + 1 * k.val = k.val; omega

/-- Row r of the weight's block at point t is row 4096·t + r of the weight. -/
theorem iblk1_1_at (c : Dev nD) (t : Fin cfg1.N) (r : Fin 4096) (k : Fin 512) (n : Fin 262144) (hn : n.val = t.val * 4096 + r.val) :
    iblk1 V c 1 t (ix2 r k) = V c main_arg11 (ix2 n k) := by
  obtain ⟨-, -, e10, e11, -⟩ := idx_facts1 t
  show V c main_arg11 (((cfg1.win 1).blk t).view.emb (ix2 r k)) = V c main_arg11 (ix2 n k)
  refine congrArg (V c main_arg11) (funext fun a => Fin.ext ?_)
  match a with
  | ⟨0, _⟩ => show win1_1.index t (0 : Fin 2) * 4096 + 1 * r.val = n.val; omega
  | ⟨1, _⟩ => show win1_1.index t (1 : Fin 2) * 512 + 1 * k.val = k.val; omega

/-- Lane r of the bias's block at point t is lane 4096·t + r of the bias row. -/
theorem iblk1_2_at (c : Dev nD) (t : Fin cfg1.N) (r : Fin 4096) (n : Fin 262144) (hn : n.val = t.val * 4096 + r.val) :
    iblk1 V c 2 t (ix2 0 r) = V c main_v14 (ix2 0 n) := by
  obtain ⟨-, -, -, -, e20, e21, -⟩ := idx_facts1 t
  show V c main_v14 (((cfg1.win 2).blk t).view.emb (ix2 0 r)) = V c main_v14 (ix2 0 n)
  refine congrArg (V c main_v14) (funext fun a => Fin.ext ?_)
  match a with
  | ⟨0, _⟩ => show win1_2.index t (0 : Fin 2) * 1 + 1 * 0 = 0; omega
  | ⟨1, _⟩ => show win1_2.index t (1 : Fin 2) * 4096 + 1 * r.val = n.val; omega

/-- What point t writes back is its block of the flat context row. -/
theorem flushed1_eq (c : Dev nD) (t : Fin cfg1.N) :
    (dat1 V c).flushed 3 t = ((cfg1.win 3).blk t).view.read (Elt Ideal) (G1 (V c main_v16) (V c main_arg11) (V c main_v14)) := by
  show (cfg1.win 3).cut (grid1.coords t) ((dat1 V c).after 3 t) = _
  rw [after1_3, out1_eq]
  obtain ⟨-, -, -, -, -, -, e30, e31⟩ := idx_facts1 t
  funext j
  show k1_pay1 (iblk1 V c 1 t) (iblk1 V c 0 t) (iblk1 V c 2 t) j = G1 (V c main_v16) (V c main_arg11) (V c main_v14) (((cfg1.win 3).blk t).view.emb j)
  refine (pay1_point _ _ _ j).trans ?_
  have hn : ((((cfg1.win 3).blk t).view.emb j) 1).val = t.val * 4096 + (j 1).val := by
    show win1_3.index t (1 : Fin 2) * 4096 + 1 * (j 1).val = _
    omega
  unfold G1 Spec.ctxEntry
  exact congrArg Ideal.logistic (congrArg₂ (· + ·)
    (Finset.sum_congr rfl fun k _ => congrArg₂ (· * ·) (iblk1_0_at V c t k) (iblk1_1_at V c t _ k _ hn))
    (iblk1_2_at V c t _ _ hn))

/-- An index of the flat context row is in point t's block iff each coordinate is in the block's range. -/
theorem mem_blk1 (t : Fin cfg1.N) (i : S1x262144.Idx) :
    i ∈ ((cfg1.win 3).blk t).view.set ↔ ∀ a : Fin 2, win1_3.index t a * S1x4096.size a ≤ (i a).val
      ∧ (i a).val < win1_3.index t a * S1x4096.size a + S1x4096.size a := by
  show i ∈ ((View.whole main_v17).slice (win1_3.rect t)).set ↔ _
  rw [View.set_slice_whole, Rect.mem_set_unit]
  exact Iff.rfl

/-- The 64 blocks of 4096 lanes tile the row: lane n is in block n / 4096. -/
theorem covered1 (i : S1x262144.Idx) :
    ∃ t : Fin cfg1.N, (cfg1.win 3).flush t = true ∧ i ∈ ((cfg1.win 3).blk t).view.set := by
  have hi0 : (i 0).val < 1 := (i 0).isLt
  have hi1 : (i 1).val < 262144 := (i 1).isLt
  have hN : grid1.N = 64 := N_1
  have ht : (i 1).val / 4096 < cfg1.N := by show _ < grid1.N; rw [hN]; omega
  obtain ⟨-, -, -, -, -, -, e30, e31⟩ := idx_facts1 ⟨(i 1).val / 4096, ht⟩
  have e31' : win1_3.index ⟨(i 1).val / 4096, ht⟩ (1 : Fin 2) = (i 1).val / 4096 := e31
  refine ⟨⟨(i 1).val / 4096, ht⟩, flush1_3 _, ?_⟩
  rw [mem_blk1]
  intro a
  match a with
  | ⟨0, _⟩ =>
    show win1_3.index ⟨(i 1).val / 4096, ht⟩ (0 : Fin 2) * 1 ≤ (i 0).val
      ∧ (i 0).val < win1_3.index ⟨(i 1).val / 4096, ht⟩ (0 : Fin 2) * 1 + 1
    omega
  | ⟨1, _⟩ =>
    show win1_3.index ⟨(i 1).val / 4096, ht⟩ (1 : Fin 2) * 4096 ≤ (i 1).val
      ∧ (i 1).val < win1_3.index ⟨(i 1).val / 4096, ht⟩ (1 : Fin 2) * 4096 + 4096
    omega

/-- The flat context row after the call, as one function of the arrays the call reads. -/
theorem final1_arr (c : Dev nD) : (dat1 V c).arrAt 3 cfg1.N = G1 (V c main_v16) (V c main_arg11) (V c main_v14) :=
  (dat1 V c).arrAt_eq_of_cover 3 _ (fun t _ => flushed1_eq V c t) covered1

/-- The flat context row after the call, at lane n. -/
theorem final1 (c : Dev nD) (n : Fin 262144) :
    (dat1 V c).arrAt 3 cfg1.N (ix2 0 n)
      = Spec.ctxEntry (fun k => V c main_v16 (ix2 0 k)) (fun n k => V c main_arg11 (ix2 n k)) (fun n => V c main_v14 (ix2 0 n)) n := by
  rw [final1_arr]
  rfl

end Cert.KernelIdeal.Run

end
-- ==== Proof.Final2.lean ====
import proofs.«148062_j63093069578506_2_alg».proof.Proof.Run2b
import proofs.«148062_j63093069578506_2_alg».proof.Proof.PayloadAt
import Idealize.ShloMosaic.Lib.Pipeline.Value

set_option maxRecDepth 16384

/-!
  The third call's two output arrays after the call, entry by entry.  The six resident windows are whole arrays, so the
  gate the body stores at every point is the recurrent gate of those arrays; the state output's one block is written back
  at the last point only, and it is the whole row.  Point t's block of the score row is lanes 512·t …, cut at the row's end
  at the last point (50000 = 97·512 + 336); lane q of what is written back is the gate's row against row 512·t + q of the
  output weight plus lane 512·t + q of the bias — on the lanes inside the arrays the filled-out blocks are the arrays'
  blocks.  The 98 blocks cover the row.
-/

noncomputable section

namespace Cert.KernelIdeal.Run

open Cert.KernelIdeal Cert.KernelIdeal.Gen Cert.Proof
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The recurrent gate at lane q as a function of the six resident arrays. -/
def gateOf (e : S1x512.Idx → Elt Ideal .f32) (Wx : S512x512.Idx → Elt Ideal .f32) (bx h : S1x512.Idx → Elt Ideal .f32)
    (C : S512x512.Idx → Elt Ideal .f32) (bi : S1x512.Idx → Elt Ideal .f32) (q : Fin 512) : EReal :=
  Spec.gateH (fun k => e (ix2 0 k)) (fun q k => Wx (ix2 q k)) (fun q => bx (ix2 0 q)) (fun k => h (ix2 0 k))
    (fun q k => C (ix2 q k)) (fun q => bi (ix2 0 q)) q

/-- The state output's row as one function of the six resident arrays. -/
def G2g (e : S1x512.Idx → Elt Ideal .f32) (Wx : S512x512.Idx → Elt Ideal .f32) (bx h : S1x512.Idx → Elt Ideal .f32)
    (C : S512x512.Idx → Elt Ideal .f32) (bi : S1x512.Idx → Elt Ideal .f32) : S1x512.Idx → Elt Ideal .f32 :=
  fun i => gateOf e Wx bx h C bi (⟨(i 1).val, idx2_lt1 i⟩ : Fin 512)

/-- The score row as one function of the six resident arrays, the output weight and the output bias. -/
def G2s (e : S1x512.Idx → Elt Ideal .f32) (Wx : S512x512.Idx → Elt Ideal .f32) (bx h : S1x512.Idx → Elt Ideal .f32)
    (C : S512x512.Idx → Elt Ideal .f32) (bi : S1x512.Idx → Elt Ideal .f32)
    (Wo : S50000x512.Idx → Elt Ideal .f32) (bo : S1x50000.Idx → Elt Ideal .f32) : S1x50000.Idx → Elt Ideal .f32 :=
  fun i => Spec.score (fun k => gateOf e Wx bx h C bi k) (fun n k => Wo (ix2 n k)) (fun n => bo (ix2 0 n))
    (⟨(i 1).val, idx2_lt1 i⟩ : Fin 50000)

/-- The index maps of the windows over the grid: the six resident windows' and the state output's block indices are zero; at
    point t the output weight's block is row block t, the output bias's and the score row's are lane block t; and the
    score block keeps all 512 lanes or ends where the row ends. -/
theorem idx_facts2 : ∀ t : Fin cfg2.N,
    ((win2_0.index t (0 : Fin 2) = 0 ∧ win2_0.index t (1 : Fin 2) = 0)
      ∧ (win2_1.index t (0 : Fin 2) = 0 ∧ win2_1.index t (1 : Fin 2) = 0)
      ∧ (win2_2.index t (0 : Fin 2) = 0 ∧ win2_2.index t (1 : Fin 2) = 0)
      ∧ (win2_3.index t (0 : Fin 2) = 0 ∧ win2_3.index t (1 : Fin 2) = 0)
      ∧ (win2_4.index t (0 : Fin 2) = 0 ∧ win2_4.index t (1 : Fin 2) = 0)
      ∧ (win2_5.index t (0 : Fin 2) = 0 ∧ win2_5.index t (1 : Fin 2) = 0))
    ∧ (win2_6.index t (0 : Fin 2) = t.val ∧ win2_6.index t (1 : Fin 2) = 0)
    ∧ (win2_7.index t (0 : Fin 2) = 0 ∧ win2_7.index t (1 : Fin 2) = t.val)
    ∧ (win2_8.index t (0 : Fin 2) = 0 ∧ win2_8.index t (1 : Fin 2) = 0)
    ∧ (win2_9.index t (0 : Fin 2) = 0 ∧ win2_9.index t (1 : Fin 2) = t.val)
    ∧ (win2_9.xsize (grid2.coords t) (0 : Fin 2) = 1 ∧ (win2_9.xsize (grid2.coords t) (1 : Fin 2) = 512
        ∨ t.val * 512 + win2_9.xsize (grid2.coords t) (1 : Fin 2) = 50000)) :=
  (by decide +kernel : ∀ t : Fin grid2.N, _)

theorem iblk2_0_at (c : Dev nD) (t : Fin cfg2.N) (q q' : Fin 512) (hq : q'.val = q.val) :
    iblk2 V c 0 t (ix2 0 q) = V c main_v6 (ix2 0 q') := by
  obtain ⟨e0, e1⟩ := (idx_facts2 t).1.1
  show V c main_v6 (((cfg2.win 0).blk t).view.emb (ix2 0 q)) = V c main_v6 (ix2 0 q')
  refine congrArg (V c main_v6) (funext fun a => Fin.ext ?_)
  match a with
  | ⟨0, _⟩ => show win2_0.index t (0 : Fin 2) * 1 + 1 * 0 = 0; omega
  | ⟨1, _⟩ => show win2_0.index t (1 : Fin 2) * 512 + 1 * q.val = q'.val; omega

theorem iblk2_1_at (c : Dev nD) (t : Fin cfg2.N) (q k q' : Fin 512) (hq : q'.val = q.val) :
    iblk2 V c 1 t (ix2 q k) = V c main_arg14 (ix2 q' k) := by
  obtain ⟨e0, e1⟩ := (idx_facts2 t).1.2.1
  show V c main_arg14 (((cfg2.win 1).blk t).view.emb (ix2 q k)) = V c main_arg14 (ix2 q' k)
  refine congrArg (V c main_arg14) (funext fun a => Fin.ext ?_)
  match a with
  | ⟨0, _⟩ => show win2_1.index t (0 : Fin 2) * 512 + 1 * q.val = q'.val; omega
  | ⟨1, _⟩ => show win2_1.index t (1 : Fin 2) * 512 + 1 * k.val = k.val; omega

theorem iblk2_2_at (c : Dev nD) (t : Fin cfg2.N) (q q' : Fin 512) (hq : q'.val = q.val) :
    iblk2 V c 2 t (ix2 0 q) = V c main_v12 (ix2 0 q') := by
  obtain ⟨e0, e1⟩ := (idx_facts2 t).1.2.2.1
  show V c main_v12 (((cfg2.win 2).blk t).view.emb (ix2 0 q)) = V c main_v12 (ix2 0 q')
  refine congrArg (V c main_v12) (funext fun a => Fin.ext ?_)
  match a with
  | ⟨0, _⟩ => show win2_2.index t (0 : Fin 2) * 1 + 1 * 0 = 0; omega
  | ⟨1, _⟩ => show win2_2.index t (1 : Fin 2) * 512 + 1 * q.val = q'.val; omega

theorem iblk2_3_at (c : Dev nD) (t : Fin cfg2.N) (q q' : Fin 512) (hq : q'.val = q.val) :
    iblk2 V c 3 t (ix2 0 q) = V c main_arg4 (ix2 0 q') := by
  obtain ⟨e0, e1⟩ := (idx_facts2 t).1.2.2.2.1
  show V c main_arg4 (((cfg2.win 3).blk t).view.emb (ix2 0 q)) = V c main_arg4 (ix2 0 q')
  refine congrArg (V c main_arg4) (funext fun a => Fin.ext ?_)
  match a with
  | ⟨0, _⟩ => show win2_3.index t (0 : Fin 2) * 1 + 1 * 0 = 0; omega
  | ⟨1, _⟩ => show win2_3.index t (1 : Fin 2) * 512 + 1 * q.val = q'.val; omega

theorem iblk2_4_at (c : Dev nD) (t : Fin cfg2.N) (q k q' : Fin 512) (hq : q'.val = q.val) :
    iblk2 V c 4 t (ix2 q k) = V c main_v18 (ix2 q' k) := by
  obtain ⟨e0, e1⟩ := (idx_facts2 t).1.2.2.2.2.1
  show V c main_v18 (((cfg2.win 4).blk t).view.emb (ix2 q k)) = V c main_v18 (ix2 q' k)
  refine congrArg (V c main_v18) (funext fun a => Fin.ext ?_)
  match a with
  | ⟨0, _⟩ => show win2_4.index t (0 : Fin 2) * 512 + 1 * q.val = q'.val; omega
  | ⟨1, _⟩ => show win2_4.index t (1 : Fin 2) * 512 + 1 * k.val = k.val; omega

theorem iblk2_5_at (c : Dev nD) (t : Fin cfg2.N) (q q' : Fin 512) (hq : q'.val = q.val) :
    iblk2 V c 5 t (ix2 0 q) = V c main_v13 (ix2 0 q') := by
  obtain ⟨e0, e1⟩ := (idx_facts2 t).1.2.2.2.2.2
  show V c main_v13 (((cfg2.win 5).blk t).view.emb (ix2 0 q)) = V c main_v13 (ix2 0 q')
  refine congrArg (V c main_v13) (funext fun a => Fin.ext ?_)
  match a with
  | ⟨0, _⟩ => show win2_5.index t (0 : Fin 2) * 1 + 1 * 0 = 0; omega
  | ⟨1, _⟩ => show win2_5.index t (1 : Fin 2) * 512 + 1 * q.val = q'.val; omega

/-- The gate the body computes from the resident blocks, at lane q, is the recurrent gate of the resident arrays. -/
theorem gate_blk (c : Dev nD) (t : Fin cfg2.N) (q q' : Fin 512) (hq : q'.val = q.val) :
    k2_pay1 (F := Ideal) (iblk2 V c 0 t) (iblk2 V c 3 t) (iblk2 V c 1 t) (iblk2 V c 4 t) (iblk2 V c 2 t) (iblk2 V c 5 t) (ix2 0 q)
      = gateOf (V c main_v6) (V c main_arg14) (V c main_v12) (V c main_arg4) (V c main_v18) (V c main_v13) q' := by
  refine (PayloadAt.pay2_1_at _ _ _ _ _ _ q).trans ?_
  unfold gateOf Spec.gateH
  exact congrArg Ideal.logistic (congrArg₂ (· + ·) (congrArg₂ (· + ·) (congrArg₂ (· + ·)
      (Finset.sum_congr rfl fun k _ => congrArg₂ (· * ·) (iblk2_0_at V c t k k rfl) (iblk2_1_at V c t q k q' hq))
      (iblk2_2_at V c t q q' hq))
      (Finset.sum_congr rfl fun k _ => congrArg₂ (· * ·) (iblk2_3_at V c t k k rfl) (iblk2_4_at V c t q k q' hq)))
    (iblk2_5_at V c t q q' hq))

/-- The same at any index of the row's shape. -/
theorem gate_point (c : Dev nD) (t : Fin cfg2.N) (y : S1x512.Idx) (q' : Fin 512) (hq : q'.val = (y 1).val) :
    k2_pay1 (F := Ideal) (iblk2 V c 0 t) (iblk2 V c 3 t) (iblk2 V c 1 t) (iblk2 V c 4 t) (iblk2 V c 2 t) (iblk2 V c 5 t) y = gateOf (V c main_v6) (V c main_arg14) (V c main_v12) (V c main_arg4) (V c main_v18) (V c main_v13) q' := by
  obtain ⟨p, q, rfl⟩ : ∃ (p : Fin 1) (q : Fin 512), y = ix2 p q := ⟨y 0, y 1, eq_ix2 y⟩
  obtain rfl : p = 0 := Subsingleton.elim _ _
  exact gate_blk V c t q q' hq

/-! ## The state output -/

/-- What any point leaves in the state output's buffer is the gate's row: the one block is the whole row. -/
theorem flushed2g_eq (c : Dev nD) (t : Fin cfg2.N) :
    (dat2 V c).flushed 8 t = ((cfg2.win 8).blk t).view.read (Elt Ideal) (G2g (V c main_v6) (V c main_arg14) (V c main_v12) (V c main_arg4) (V c main_v18) (V c main_v13)) := by
  show (cfg2.win 8).cut (grid2.coords t) ((dat2 V c).after 8 t) = _
  rw [after2_8, out2g_eq]
  obtain ⟨e80, e81⟩ := (idx_facts2 t).2.2.2.1
  funext j
  show k2_pay1 (iblk2 V c 0 t) (iblk2 V c 3 t) (iblk2 V c 1 t) (iblk2 V c 4 t) (iblk2 V c 2 t) (iblk2 V c 5 t) j = G2g (V c main_v6) (V c main_arg14) (V c main_v12) (V c main_arg4) (V c main_v18) (V c main_v13) (((cfg2.win 8).blk t).view.emb j)
  have hq : ((((cfg2.win 8).blk t).view.emb j) 1).val = (j 1).val := by
    show win2_8.index t (1 : Fin 2) * 512 + 1 * (j 1).val = _
    omega
  unfold G2g
  exact gate_point V c t j _ hq

theorem mem_blk2g (t : Fin cfg2.N) (i : S1x512.Idx) :
    i ∈ ((cfg2.win 8).blk t).view.set ↔ ∀ a : Fin 2, win2_8.index t a * S1x512.size a ≤ (i a).val
      ∧ (i a).val < win2_8.index t a * S1x512.size a + S1x512.size a := by
  show i ∈ ((View.whole main_v19_0).slice (win2_8.rect t)).set ↔ _
  rw [View.set_slice_whole, Rect.mem_set_unit]
  exact Iff.rfl

/-- The last point writes the one block back, and it is the whole row. -/
theorem covered2g (i : S1x512.Idx) :
    ∃ t : Fin cfg2.N, (cfg2.win 8).flush t = true ∧ i ∈ ((cfg2.win 8).blk t).view.set := by
  have hi0 : (i 0).val < 1 := (i 0).isLt
  have hi1 : (i 1).val < 512 := (i 1).isLt
  have hN : grid2.N = 98 := N_2
  have ht : 97 < cfg2.N := by show 97 < grid2.N; rw [hN]; decide
  obtain ⟨e80, e81⟩ := (idx_facts2 ⟨97, ht⟩).2.2.2.1
  refine ⟨⟨97, ht⟩, (flush2_8 ⟨97, ht⟩).mpr rfl, ?_⟩
  rw [mem_blk2g]
  intro a
  match a with
  | ⟨0, _⟩ =>
    show win2_8.index ⟨97, ht⟩ (0 : Fin 2) * 1 ≤ (i 0).val ∧ (i 0).val < win2_8.index ⟨97, ht⟩ (0 : Fin 2) * 1 + 1
    omega
  | ⟨1, _⟩ =>
    show win2_8.index ⟨97, ht⟩ (1 : Fin 2) * 512 ≤ (i 1).val ∧ (i 1).val < win2_8.index ⟨97, ht⟩ (1 : Fin 2) * 512 + 512
    omega

/-- The state output after the call, as one function of the six resident arrays. -/
theorem final2g_arr (c : Dev nD) : (dat2 V c).arrAt 8 cfg2.N = G2g (V c main_v6) (V c main_arg14) (V c main_v12) (V c main_arg4) (V c main_v18) (V c main_v13) :=
  (dat2 V c).arrAt_eq_of_cover 8 _ (fun t _ => flushed2g_eq V c t) covered2g

/-- The state output after the call, at lane q. -/
theorem final2g (c : Dev nD) (q : Fin 512) :
    (dat2 V c).arrAt 8 cfg2.N (ix2 0 q)
      = Spec.gateH (fun k => V c main_v6 (ix2 0 k)) (fun q k => V c main_arg14 (ix2 q k)) (fun q => V c main_v12 (ix2 0 q))
          (fun k => V c main_arg4 (ix2 0 k)) (fun q k => V c main_v18 (ix2 q k)) (fun q => V c main_v13 (ix2 0 q)) q := by
  rw [final2g_arr]
  rfl

/-! ## The score row -/

/-- On the moved part a filled block is what fills it. -/
theorem fill_moved {G : Pipeline.Grid} (w : Pipeline.Window sig G) {α : Type} (i : G.Coords) (d : w.block.Idx → α)
    (g : (w.xblock i).Idx → α) (j : w.block.Idx) (h : w.moved i j = true) :
    w.fill i d g j = g (fun a => ⟨(j a).val, (w.moved_iff i j).mp h a⟩) := by
  unfold Pipeline.Window.fill; rw [dif_pos h]

/-- Row q of the filled-out weight block at point t, for a lane q the score block keeps, is row 512·t + q of the
    output weight. -/
theorem wblk_at (c : Dev nD) (t : Fin cfg2.N) (q k : Fin 512) (hq : q.val < win2_9.xsize (grid2.coords t) (1 : Fin 2))
    (n : Fin 50000) (hn : n.val = t.val * 512 + q.val) : wblk V c t (ix2 q k) = V c main_arg16 (ix2 n k) := by
  obtain ⟨h60, h61, h71, h70⟩ := cuts_agree t
  obtain ⟨e60, e61⟩ := (idx_facts2 t).2.1
  have hm : win2_6.moved (grid2.coords t) (ix2 q k) = true := (win2_6.moved_iff _ _).mpr fun a => by
    match a with
    | ⟨0, _⟩ => show q.val < win2_6.xsize (grid2.coords t) 0; rw [h60]; exact hq
    | ⟨1, _⟩ => show k.val < win2_6.xsize (grid2.coords t) 1; rw [h61]; exact k.isLt
  unfold wblk
  rw [fill_moved win2_6 _ _ _ _ hm]
  show V c main_arg16 (((cfg2.win 6).blk t).view.emb (fun a => ⟨(ix2 q k a).val, _⟩)) = V c main_arg16 (ix2 n k)
  refine congrArg (V c main_arg16) (funext fun a => Fin.ext ?_)
  match a with
  | ⟨0, _⟩ => show win2_6.index t (0 : Fin 2) * 512 + 1 * q.val = n.val; omega
  | ⟨1, _⟩ => show win2_6.index t (1 : Fin 2) * 512 + 1 * k.val = k.val; omega

/-- Lane q of the filled-out bias block at point t, for a lane q the score block keeps, is lane 512·t + q of the
    output bias. -/
theorem bblk_at (c : Dev nD) (t : Fin cfg2.N) (q : Fin 512) (hq : q.val < win2_9.xsize (grid2.coords t) (1 : Fin 2))
    (n : Fin 50000) (hn : n.val = t.val * 512 + q.val) : bblk V c t (ix2 0 q) = V c main_v15 (ix2 0 n) := by
  obtain ⟨h60, h61, h71, h70⟩ := cuts_agree t
  obtain ⟨e70, e71⟩ := (idx_facts2 t).2.2.1
  have hm : win2_7.moved (grid2.coords t) (ix2 0 q) = true := (win2_7.moved_iff _ _).mpr fun a => by
    match a with
    | ⟨0, _⟩ => show (0 : Nat) < win2_7.xsize (grid2.coords t) 0; rw [h70]; exact Nat.one_pos
    | ⟨1, _⟩ => show q.val < win2_7.xsize (grid2.coords t) 1; rw [h71]; exact hq
  unfold bblk
  rw [fill_moved win2_7 _ _ _ _ hm]
  show V c main_v15 (((cfg2.win 7).blk t).view.emb (fun a => ⟨(ix2 (0 : Fin 1) q a).val, _⟩)) = V c main_v15 (ix2 0 n)
  refine congrArg (V c main_v15) (funext fun a => Fin.ext ?_)
  match a with
  | ⟨0, _⟩ => show win2_7.index t (0 : Fin 2) * 1 + 1 * 0 = 0; omega
  | ⟨1, _⟩ => show win2_7.index t (1 : Fin 2) * 512 + 1 * q.val = n.val; omega

/-- What point t writes back is its block of the score row. -/
theorem flushed2s_eq (c : Dev nD) (t : Fin cfg2.N) :
    (dat2 V c).flushed 9 t = ((cfg2.win 9).blk t).view.read (Elt Ideal) (G2s (V c main_v6) (V c main_arg14) (V c main_v12) (V c main_arg4) (V c main_v18) (V c main_v13) (V c main_arg16) (V c main_v15)) := by
  show (cfg2.win 9).cut (grid2.coords t) ((dat2 V c).after 9 t) = _
  rw [after2_9, out2s_eq]
  obtain ⟨e90, e91⟩ := (idx_facts2 t).2.2.2.2.1
  funext j
  have hq : (j 1).val < 512 := Nat.lt_of_lt_of_le (j 1).isLt (win2_9.xsize_le (grid2.coords t) 1)
  have hj : win2_9.xinj (grid2.coords t) j = ix2 (0 : Fin 1) (⟨(j 1).val, hq⟩ : Fin 512) := by
    funext a; match a with
    | ⟨0, _⟩ =>
      apply Fin.ext
      have h0 : (j 0).val < win2_9.xsize (grid2.coords t) 0 := (j 0).isLt
      have h1 := win2_9.xsize_le (grid2.coords t) 0
      have h2 : win2_9.size 0 = 1 := rfl
      show (j 0).val = 0
      omega
    | ⟨1, _⟩ => rfl
  show k2_pay2 (iblk2 V c 0 t) (iblk2 V c 3 t) (iblk2 V c 1 t) (iblk2 V c 4 t) (iblk2 V c 2 t) (iblk2 V c 5 t) (wblk V c t) (bblk V c t) (win2_9.xinj (grid2.coords t) j)
    = G2s (V c main_v6) (V c main_arg14) (V c main_v12) (V c main_arg4) (V c main_v18) (V c main_v13) (V c main_arg16) (V c main_v15) (((cfg2.win 9).blk t).view.emb j)
  rw [hj]
  refine (PayloadAt.pay2_2_at _ _ _ _ _ _ _ _ ⟨(j 1).val, hq⟩).trans ?_
  have hn : ((((cfg2.win 9).blk t).view.emb j) 1).val = t.val * 512 + (j 1).val := by
    show win2_9.index t (1 : Fin 2) * 512 + 1 * (j 1).val = _
    omega
  unfold G2s Spec.score
  exact congrArg₂ (· + ·)
    (Finset.sum_congr rfl fun k _ => congrArg₂ (· * ·) (gate_blk V c t k k rfl) (wblk_at V c t _ k (j 1).isLt _ hn))
    (bblk_at V c t _ (j 1).isLt _ hn)

/-- An index of the score row is in point t's block iff each coordinate is in the block's range, cut at the row's end. -/
theorem mem_blk2s (t : Fin cfg2.N) (i : S1x50000.Idx) :
    i ∈ ((cfg2.win 9).blk t).view.set ↔ ∀ a : Fin 2, win2_9.index t a * S1x512.size a ≤ (i a).val
      ∧ (i a).val < win2_9.index t a * S1x512.size a + win2_9.xsize (grid2.coords t) a := by
  show i ∈ ((View.whole main_v19_1).slice (win2_9.rect t)).set ↔ _
  rw [View.set_slice_whole, Rect.mem_set_unit]
  exact Iff.rfl

/-- The 98 blocks cover the row: lane v is in block v / 512, whose kept lanes reach the row's end. -/
theorem covered2s (i : S1x50000.Idx) :
    ∃ t : Fin cfg2.N, (cfg2.win 9).flush t = true ∧ i ∈ ((cfg2.win 9).blk t).view.set := by
  have hi0 : (i 0).val < 1 := (i 0).isLt
  have hi1 : (i 1).val < 50000 := (i 1).isLt
  have hN : grid2.N = 98 := N_2
  have ht : (i 1).val / 512 < cfg2.N := by show _ < grid2.N; rw [hN]; omega
  obtain ⟨e90, e91⟩ := (idx_facts2 ⟨(i 1).val / 512, ht⟩).2.2.2.2.1
  obtain ⟨x90, x91⟩ := (idx_facts2 ⟨(i 1).val / 512, ht⟩).2.2.2.2.2
  have e91' : win2_9.index ⟨(i 1).val / 512, ht⟩ (1 : Fin 2) = (i 1).val / 512 := e91
  have x91' : win2_9.xsize (grid2.coords ⟨(i 1).val / 512, ht⟩) (1 : Fin 2) = 512
      ∨ (i 1).val / 512 * 512 + win2_9.xsize (grid2.coords ⟨(i 1).val / 512, ht⟩) (1 : Fin 2) = 50000 := x91
  refine ⟨⟨(i 1).val / 512, ht⟩, flush2_9 _, ?_⟩
  rw [mem_blk2s]
  intro a
  match a with
  | ⟨0, _⟩ =>
    show win2_9.index ⟨(i 1).val / 512, ht⟩ (0 : Fin 2) * 1 ≤ (i 0).val
      ∧ (i 0).val < win2_9.index ⟨(i 1).val / 512, ht⟩ (0 : Fin 2) * 1 + win2_9.xsize (grid2.coords ⟨(i 1).val / 512, ht⟩) (0 : Fin 2)
    omega
  | ⟨1, _⟩ =>
    show win2_9.index ⟨(i 1).val / 512, ht⟩ (1 : Fin 2) * 512 ≤ (i 1).val
      ∧ (i 1).val < win2_9.index ⟨(i 1).val / 512, ht⟩ (1 : Fin 2) * 512 + win2_9.xsize (grid2.coords ⟨(i 1).val / 512, ht⟩) (1 : Fin 2)
    omega

/-- The score row after the call, as one function of the arrays the call reads. -/
theorem final2s_arr (c : Dev nD) : (dat2 V c).arrAt 9 cfg2.N = G2s (V c main_v6) (V c main_arg14) (V c main_v12) (V c main_arg4) (V c main_v18) (V c main_v13) (V c main_arg16) (V c main_v15) :=
  (dat2 V c).arrAt_eq_of_cover 9 _ (fun t _ => flushed2s_eq V c t) covered2s

/-- The score row after the call, at lane v. -/
theorem final2s (c : Dev nD) (v : Fin 50000) :
    (dat2 V c).arrAt 9 cfg2.N (ix2 0 v)
      = Spec.score (fun k => Spec.gateH (fun k => V c main_v6 (ix2 0 k)) (fun q k => V c main_arg14 (ix2 q k))
            (fun q => V c main_v12 (ix2 0 q)) (fun k => V c main_arg4 (ix2 0 k)) (fun q k => V c main_v18 (ix2 q k))
            (fun q => V c main_v13 (ix2 0 q)) k)
          (fun n k => V c main_arg16 (ix2 n k)) (fun n => V c main_v15 (ix2 0 n)) v := by
  rw [final2s_arr]
  rfl

end Cert.KernelIdeal.Run

end
-- ==== Proof.KVal.lean ====
/-
  The kernel program's three results as functions of the launch memory, entry by entry, over the extended reals.

  Walking the fold of the buffers' contents back from the end: the first call's row is the first gate of the
  arguments; the second call's flat row is, entry n, the logistic of that gate against row n of the context weight
  plus the bias; reshaped row-major it is the context matrix the third call reads; the third call's state row is the
  recurrent gate and its score row the scores of that gate.
-/
import proofs.«148062_j63093069578506_2_alg».proof.Proof.Families
import proofs.«148062_j63093069578506_2_alg».proof.Proof.Reads
import proofs.«148062_j63093069578506_2_alg».proof.Proof.HostReads
import proofs.«148062_j63093069578506_2_alg».proof.Proof.Final0
import proofs.«148062_j63093069578506_2_alg».proof.Proof.Final1
import proofs.«148062_j63093069578506_2_alg».proof.Proof.Final2

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Cert.Proof

variable (m : (ℓ : Loc nD τ sig) → Buf (Elt Ideal) ℓ) (c : Dev nD)

/-- After the first call its output row holds the first gate. -/
theorem w2_v16 (q : Fin 512) : (W2 m c (Proc.devRef .tc main_v16) : S1x512.Idx → Elt Ideal .f32) (ix2 0 q) = gA m c q := by
  rw [show W2 m c (Proc.devRef .tc main_v16) = (dat0 (V1 m) c).arrAt 6 cfg0.N from W2_arr m c 6]
  refine (final0 (V1 m) c q).trans ?_
  unfold gA
  have e5 : (fun k : Fin 512 => (V1 m c main_arg5 : S1x512.Idx → Elt Ideal .f32) (ix2 0 k)) = fun k => ((m ((c : Thread nD τ).loc main_arg5)) : S1x512.Idx → Elt Ideal .f32) (ix2 0 k) :=
    funext fun k => congrFun (W1_arg5 m c) _
  have e7 : (fun (q k : Fin 512) => (V1 m c main_arg7 : S512x512.Idx → Elt Ideal .f32) (ix2 q k)) = fun q k => ((m ((c : Thread nD τ).loc main_arg7)) : S512x512.Idx → Elt Ideal .f32) (ix2 q k) :=
    funext fun q => funext fun k => congrFun (W1_arg7 m c) _
  have e3 : (V1 m c main_v7 : S1x1.Idx → Elt Ideal .f32) (ix2 0 0) = ((m ((c : Thread nD τ).loc main_arg3)) : S1.Idx → Elt Ideal .f32) (ix1 0) := hr_v7 m c
  have e9 : (fun q : Fin 512 => (V1 m c main_v9 : S1x512.Idx → Elt Ideal .f32) (ix2 0 q)) = fun q => ((m ((c : Thread nD τ).loc main_arg9)) : S512x1.Idx → Elt Ideal .f32) (ix2 q 0) :=
    funext (hr_v9 m c)
  have e10 : (fun q : Fin 512 => (V1 m c main_v10 : S1x512.Idx → Elt Ideal .f32) (ix2 0 q)) = fun q => ((m ((c : Thread nD τ).loc main_arg10)) : S512.Idx → Elt Ideal .f32) (ix1 q) :=
    funext (hr_v10 m c)
  have e11 : (fun q : Fin 512 => (V1 m c main_v11 : S1x512.Idx → Elt Ideal .f32) (ix2 0 q)) = fun q => ((m ((c : Thread nD τ).loc main_arg8)) : S512.Idx → Elt Ideal .f32) (ix1 q) :=
    funext (hr_v11 m c)
  rw [e3, e5, e7, e9, e10, e11]

/-- At the end the first result still holds it. -/
theorem kv16 (q : Fin 512) : (W5 m c (Proc.devRef .tc main_v16) : S1x512.Idx → Elt Ideal .f32) (ix2 0 q) = gA m c q := by
  rw [W5_v16 m c]; exact w2_v16 m c q

/-- After the second call its flat output row holds the context entries. -/
theorem w3_v17 (n : Fin 262144) : (W3 m c (Proc.devRef .tc main_v17) : S1x262144.Idx → Elt Ideal .f32) (ix2 0 n) = cA m c n := by
  rw [show W3 m c (Proc.devRef .tc main_v17) = (dat1 (V2 m) c).arrAt 3 cfg1.N from W3_arr m c 3]
  refine (final1 (V2 m) c n).trans ?_
  unfold cA
  have e16 : (fun k : Fin 512 => (V2 m c main_v16 : S1x512.Idx → Elt Ideal .f32) (ix2 0 k)) = gA m c := funext fun k => w2_v16 m c k
  have e11 : (fun (n : Fin 262144) (k : Fin 512) => (V2 m c main_arg11 : S262144x512.Idx → Elt Ideal .f32) (ix2 n k)) = fun n k => ((m ((c : Thread nD τ).loc main_arg11)) : S262144x512.Idx → Elt Ideal .f32) (ix2 n k) :=
    funext fun n => funext fun k => congrFun (W2_arg11 m c) _
  have e14 : (fun n : Fin 262144 => (V2 m c main_v14 : S1x262144.Idx → Elt Ideal .f32) (ix2 0 n)) = fun n => ((m ((c : Thread nD τ).loc main_arg12)) : S262144.Idx → Elt Ideal .f32) (ix1 n) :=
    funext fun n => (congrFun (W2_v14 m c) _).trans (hr_v14 m c n)
  rw [e16, e11, e14]

/-- The six families the third call's gate reads, as the call finds them, are the arguments'. -/
theorem gateH_entry (q : Fin 512) :
    Spec.gateH (fun k => (V4 m c main_v6 : S1x512.Idx → Elt Ideal .f32) (ix2 0 k)) (fun q k => (V4 m c main_arg14 : S512x512.Idx → Elt Ideal .f32) (ix2 q k))
      (fun q => (V4 m c main_v12 : S1x512.Idx → Elt Ideal .f32) (ix2 0 q)) (fun k => (V4 m c main_arg4 : S1x512.Idx → Elt Ideal .f32) (ix2 0 k))
      (fun q k => (V4 m c main_v18 : S512x512.Idx → Elt Ideal .f32) (ix2 q k)) (fun q => (V4 m c main_v13 : S1x512.Idx → Elt Ideal .f32) (ix2 0 q)) q
      = hA m c q := by
  unfold hA
  have e6 : (fun k : Fin 512 => (V4 m c main_v6 : S1x512.Idx → Elt Ideal .f32) (ix2 0 k)) = eA m c :=
    funext fun k => (congrFun (W4_v6 m c) _).trans (congrFun (hr_v6 m c) _)
  have e14 : (fun (q k : Fin 512) => (V4 m c main_arg14 : S512x512.Idx → Elt Ideal .f32) (ix2 q k)) = fun q k => ((m ((c : Thread nD τ).loc main_arg14)) : S512x512.Idx → Elt Ideal .f32) (ix2 q k) :=
    funext fun q => funext fun k => congrFun (W4_arg14 m c) _
  have e12 : (fun q : Fin 512 => (V4 m c main_v12 : S1x512.Idx → Elt Ideal .f32) (ix2 0 q)) = fun q => ((m ((c : Thread nD τ).loc main_arg15)) : S512.Idx → Elt Ideal .f32) (ix1 q) :=
    funext fun q => (congrFun (W4_v12 m c) _).trans (hr_v12 m c q)
  have e4 : (fun k : Fin 512 => (V4 m c main_arg4 : S1x512.Idx → Elt Ideal .f32) (ix2 0 k)) = fun k => ((m ((c : Thread nD τ).loc main_arg4)) : S1x512.Idx → Elt Ideal .f32) (ix2 0 k) :=
    funext fun k => congrFun (W4_arg4 m c) _
  have e18 : (fun (a b : Fin 512) => (V4 m c main_v18 : S512x512.Idx → Elt Ideal .f32) (ix2 a b)) = fun a b => cA m c ⟨512 * a.val + b.val, ctx_lt a b⟩ :=
    funext fun a => funext fun b => (hr_v18 m c a b).trans (w3_v17 m c _)
  have e13 : (fun q : Fin 512 => (V4 m c main_v13 : S1x512.Idx → Elt Ideal .f32) (ix2 0 q)) = fun q => ((m ((c : Thread nD τ).loc main_arg13)) : S512.Idx → Elt Ideal .f32) (ix1 q) :=
    funext fun q => (congrFun (W4_v13 m c) _).trans (hr_v13 m c q)
  rw [e6, e14, e12, e4, e18, e13]

/-- At the end the second result holds the recurrent gate, -/
theorem kv19_0 (q : Fin 512) : (W5 m c (Proc.devRef .tc main_v19_0) : S1x512.Idx → Elt Ideal .f32) (ix2 0 q) = hA m c q := by
  rw [show W5 m c (Proc.devRef .tc main_v19_0) = (dat2 (V4 m) c).arrAt 8 cfg2.N from W5_arr m c 8]
  exact (final2g (V4 m) c q).trans (gateH_entry m c q)

/-- and the first result the scores. -/
theorem kv19_1 (v : Fin 50000) : (W5 m c (Proc.devRef .tc main_v19_1) : S1x50000.Idx → Elt Ideal .f32) (ix2 0 v) = sA m c v := by
  rw [show W5 m c (Proc.devRef .tc main_v19_1) = (dat2 (V4 m) c).arrAt 9 cfg2.N from W5_arr m c 9]
  refine (final2s (V4 m) c v).trans ?_
  unfold sA
  have eh : (fun k : Fin 512 => Spec.gateH (fun k => (V4 m c main_v6 : S1x512.Idx → Elt Ideal .f32) (ix2 0 k)) (fun q k => (V4 m c main_arg14 : S512x512.Idx → Elt Ideal .f32) (ix2 q k))
      (fun q => (V4 m c main_v12 : S1x512.Idx → Elt Ideal .f32) (ix2 0 q)) (fun k => (V4 m c main_arg4 : S1x512.Idx → Elt Ideal .f32) (ix2 0 k))
      (fun q k => (V4 m c main_v18 : S512x512.Idx → Elt Ideal .f32) (ix2 q k)) (fun q => (V4 m c main_v13 : S1x512.Idx → Elt Ideal .f32) (ix2 0 q)) k) = hA m c :=
    funext fun k => gateH_entry m c k
  have e16 : (fun (n : Fin 50000) (k : Fin 512) => (V4 m c main_arg16 : S50000x512.Idx → Elt Ideal .f32) (ix2 n k)) = fun n k => ((m ((c : Thread nD τ).loc main_arg16)) : S50000x512.Idx → Elt Ideal .f32) (ix2 n k) :=
    funext fun n => funext fun k => congrFun (W4_arg16 m c) _
  have e15 : (fun n : Fin 50000 => (V4 m c main_v15 : S1x50000.Idx → Elt Ideal .f32) (ix2 0 n)) = fun n => ((m ((c : Thread nD τ).loc main_arg17)) : S50000.Idx → Elt Ideal .f32) (ix1 n) :=
    funext fun n => (congrFun (W4_v15 m c) _).trans (hr_v15 m c n)
  rw [eh, e16, e15]

end Cert.KernelIdeal.Run

end
-- ==== Proof.RefAt.lean ====
import proofs.«148062_j63093069578506_2_alg».proof.Proof.Gen.ReferenceIdeal.Read
import proofs.«148062_j63093069578506_2_alg».proof.Proof.Spec
import Idealize.ShloMosaic.Lib.IdealHost

/-!
  The host reference's stages, read at one index, over the extended reals.  Each stage is a pointwise operation, an
  index map (broadcast, transpose, reshape) or a contraction over one axis of extent 512; composing the index maps at an
  index built from its coordinates gives, for the three results and the context matrix, the specification functions.
  The host spells the logistic as 1 / (1 + exp (-x)) with the constant one as its f32 word: that is the logistic.
-/

noncomputable section

namespace Cert.Proof.RefAt

open Cert.ReferenceIdeal Cert.ReferenceIdeal.Gen Cert.ReferenceIdeal.Read Idealize.ShloMosaic Idealize.ShloMosaic.ValueIdx

variable (x0 : (⟨S1, .i32⟩ : BufTy).Contents (Elt Ideal)) (x3 : (⟨S1, .f32⟩ : BufTy).Contents (Elt Ideal)) (x4 x5 : (⟨S1x512, .f32⟩ : BufTy).Contents (Elt Ideal)) (x6 : (⟨S50000x512, .f32⟩ : BufTy).Contents (Elt Ideal))
  (x7 : (⟨S512x512, .f32⟩ : BufTy).Contents (Elt Ideal)) (x8 : (⟨S512, .f32⟩ : BufTy).Contents (Elt Ideal)) (x9 : (⟨S512x1, .f32⟩ : BufTy).Contents (Elt Ideal)) (x10 : (⟨S512, .f32⟩ : BufTy).Contents (Elt Ideal))
  (x11 : (⟨S262144x512, .f32⟩ : BufTy).Contents (Elt Ideal)) (x12 : (⟨S262144, .f32⟩ : BufTy).Contents (Elt Ideal)) (x13 : (⟨S512, .f32⟩ : BufTy).Contents (Elt Ideal)) (x14 : (⟨S512x512, .f32⟩ : BufTy).Contents (Elt Ideal))
  (x15 : (⟨S512, .f32⟩ : BufTy).Contents (Elt Ideal)) (x16 : (⟨S50000x512, .f32⟩ : BufTy).Contents (Elt Ideal)) (x17 : (⟨S50000, .f32⟩ : BufTy).Contents (Elt Ideal))

/-- The host's spelling of the logistic, 1 / (1 + exp (-x)) with the constant one as its f32 word, is the logistic. -/
theorem host_logistic (X : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf X)))
      = Ideal.logistic X := by
  show Ideal.div (Ideal.ofBits .f32 0x3F800000#32) (Ideal.ofBits .f32 0x3F800000#32 + Ideal.exp (-X))
    = Ideal.div 1 (1 + Ideal.exp (-X))
  rw [Ideal.ofBits_one_f32]

/-! ## The first gate -/

/-- t · w_int(q): the scalar, broadcast, times the column w_int read as a row. -/
theorem v11_at (q : Fin 512) : val_main_v11 (F := Ideal) x3 x9 (ix2 0 q) = x3 (ix1 0) * x9 (ix2 q 0) := by
  rw [val_main_v11_apply, val_main_v10_apply, val_main_v7_apply, val_main_v9_apply, val_main_v8_apply]
  have e1 : idx_main_v7 (idx_main_v10 (ix2 (0 : Fin 1) q)) = ix1 0 :=
    funext fun a => Fin.ext (by match a with | ⟨0, _⟩ => rfl)
  have e2 : idx_main_v8 (idx_main_v9 (ix2 (0 : Fin 1) q)) = ix2 q 0 :=
    funext fun a => Fin.ext (by match a with | ⟨0, _⟩ => exact Nat.div_one _ | ⟨1, _⟩ => rfl)
  rw [e1, e2]
  rfl

theorem v12_at (q : Fin 512) : val_main_v12 (F := Ideal) x10 (ix2 0 q) = x10 (ix1 q) := by
  rw [val_main_v12_apply]
  exact congrArg x10 (funext fun a => Fin.ext (by match a with | ⟨0, _⟩ => rfl))

theorem v17_at (q : Fin 512) : val_main_v17 (F := Ideal) x8 (ix2 0 q) = x8 (ix1 q) := by
  rw [val_main_v17_apply]
  exact congrArg x8 (funext fun a => Fin.ext (by match a with | ⟨0, _⟩ => rfl))

/-- ⟨x, W(q, ·)⟩: the contraction against the transposed matrix reads row q of W. -/
theorem v15_at (q : Fin 512) :
    val_main_v15 (F := Ideal) x5 x7 (ix2 0 q) = ∑ k : Fin 512, x5 (ix2 0 k) * x7 (ix2 q k) := by
  rw [val_main_v15_apply]
  refine Finset.sum_congr rfl fun k _ => ?_
  rw [val_main_v14_apply]
  have e1 : lidx_main_v15 (ix2 (0 : Fin 1) q) k = ix2 0 k :=
    funext fun a => Fin.ext (by match a with | ⟨0, _⟩ => rfl | ⟨1, _⟩ => rfl)
  have e2 : idx_main_v14 (ridx_main_v15 (ix2 (0 : Fin 1) q) k) = ix2 q k :=
    funext fun a => Fin.ext (by match a with | ⟨0, _⟩ => rfl | ⟨1, _⟩ => rfl)
  rw [e1, e2]

theorem ref24_at (q : Fin 512) :
    val_main_v24 (F := Ideal) x3 x5 x7 x8 x9 x10 (ix2 0 q)
      = Spec.gate3 (x3 (ix1 0)) (fun q => x9 (ix2 q 0)) (fun q => x10 (ix1 q)) (fun q => x8 (ix1 q))
          (fun k => x5 (ix2 0 k)) (fun q k => x7 (ix2 q k)) q := by
  rw [val_main_v24_apply, val_main_v23_apply, val_main_cst_1_apply, val_main_v22_apply, val_main_v21_apply,
    val_main_cst_apply, val_main_v20_apply, val_main_v19_apply, host_logistic, val_main_v18_apply, val_main_v16_apply,
    val_main_v13_apply, v11_at, v12_at, v15_at, v17_at]
  rfl

/-! ## The context matrix -/

theorem v27_at (n : Fin 262144) : val_main_v27 (F := Ideal) x12 (ix2 0 n) = x12 (ix1 n) := by
  rw [val_main_v27_apply]
  exact congrArg x12 (funext fun a => Fin.ext (by match a with | ⟨0, _⟩ => rfl))

/-- ⟨g, W(n, ·)⟩ with g the first gate: the contraction against the transposed matrix reads row n of W. -/
theorem v26_at (n : Fin 262144) :
    val_main_v26 (F := Ideal) x3 x5 x7 x8 x9 x10 x11 (ix2 0 n)
      = ∑ k : Fin 512, val_main_v24 (F := Ideal) x3 x5 x7 x8 x9 x10 (ix2 0 k) * x11 (ix2 n k) := by
  rw [val_main_v26_apply]
  refine Finset.sum_congr rfl fun k _ => ?_
  rw [val_main_v25_apply]
  have e1 : lidx_main_v26 (ix2 (0 : Fin 1) n) k = ix2 0 k :=
    funext fun a => Fin.ext (by match a with | ⟨0, _⟩ => rfl | ⟨1, _⟩ => rfl)
  have e2 : idx_main_v25 (ridx_main_v26 (ix2 (0 : Fin 1) n) k) = ix2 n k :=
    funext fun a => Fin.ext (by match a with | ⟨0, _⟩ => rfl | ⟨1, _⟩ => rfl)
  rw [e1, e2]

/-- The flat context vector at n. -/
theorem v34_at (n : Fin 262144) :
    val_main_v34 (F := Ideal) x3 x5 x7 x8 x9 x10 x11 x12 (ix2 0 n)
      = Spec.ctxEntry (fun k => val_main_v24 (F := Ideal) x3 x5 x7 x8 x9 x10 (ix2 0 k)) (fun n k => x11 (ix2 n k))
          (fun n => x12 (ix1 n)) n := by
  rw [val_main_v34_apply, val_main_v33_apply, val_main_cst_3_apply, val_main_v32_apply, val_main_v31_apply,
    val_main_cst_2_apply, val_main_v30_apply, val_main_v29_apply, host_logistic, val_main_v28_apply, v26_at, v27_at]
  rfl

/-- The context matrix is the flat vector in row-major order: entry (a, b) is entry 512·a + b. -/
theorem ref35_at (a b : Fin 512) :
    val_main_v35 (F := Ideal) x3 x5 x7 x8 x9 x10 x11 x12 (ix2 a b)
      = Spec.ctxEntry (fun k => val_main_v24 (F := Ideal) x3 x5 x7 x8 x9 x10 (ix2 0 k)) (fun n k => x11 (ix2 n k))
          (fun n => x12 (ix1 n)) (⟨512 * a.val + b.val, by have := a.isLt; have := b.isLt; omega⟩ : Fin 262144) := by
  rw [val_main_v35_apply]
  have e : idx_main_v35 (ix2 a b)
      = ix2 (0 : Fin 1) (⟨512 * a.val + b.val, by have := a.isLt; have := b.isLt; omega⟩ : Fin 262144) :=
    funext fun c => Fin.ext (by
      match c with
      | ⟨0, _⟩ => rfl
      | ⟨1, _⟩ =>
        have ha := a.isLt
        have hb := b.isLt
        show (a.val * 512 + b.val) % 262144 = 512 * a.val + b.val
        omega)
  rw [e]
  exact v34_at x3 x5 x7 x8 x9 x10 x11 x12 _

/-! ## The recurrent gate -/

theorem v38_at (q : Fin 512) : val_main_v38 (F := Ideal) x15 (ix2 0 q) = x15 (ix1 q) := by
  rw [val_main_v38_apply]
  exact congrArg x15 (funext fun a => Fin.ext (by match a with | ⟨0, _⟩ => rfl))

theorem v43_at (q : Fin 512) : val_main_v43 (F := Ideal) x13 (ix2 0 q) = x13 (ix1 q) := by
  rw [val_main_v43_apply]
  exact congrArg x13 (funext fun a => Fin.ext (by match a with | ⟨0, _⟩ => rfl))

/-- ⟨e, Wx(q, ·)⟩ with e the gathered row. -/
theorem v37_at (q : Fin 512) :
    val_main_v37 (F := Ideal) x0 x6 x14 (ix2 0 q)
      = ∑ k : Fin 512, val_main_v6 (F := Ideal) x0 x6 (ix2 0 k) * x14 (ix2 q k) := by
  rw [val_main_v37_apply]
  refine Finset.sum_congr rfl fun k _ => ?_
  rw [val_main_v36_apply]
  have e1 : lidx_main_v37 (ix2 (0 : Fin 1) q) k = ix2 0 k :=
    funext fun a => Fin.ext (by match a with | ⟨0, _⟩ => rfl | ⟨1, _⟩ => rfl)
  have e2 : idx_main_v36 (ridx_main_v37 (ix2 (0 : Fin 1) q) k) = ix2 q k :=
    funext fun a => Fin.ext (by match a with | ⟨0, _⟩ => rfl | ⟨1, _⟩ => rfl)
  rw [e1, e2]

/-- ⟨h, C(q, ·)⟩ with C the context matrix. -/
theorem v41_at (q : Fin 512) :
    val_main_v41 (F := Ideal) x3 x4 x5 x7 x8 x9 x10 x11 x12 (ix2 0 q)
      = ∑ k : Fin 512, x4 (ix2 0 k) * val_main_v35 (F := Ideal) x3 x5 x7 x8 x9 x10 x11 x12 (ix2 q k) := by
  rw [val_main_v41_apply]
  refine Finset.sum_congr rfl fun k _ => ?_
  rw [val_main_v40_apply]
  have e1 : lidx_main_v41 (ix2 (0 : Fin 1) q) k = ix2 0 k :=
    funext fun a => Fin.ext (by match a with | ⟨0, _⟩ => rfl | ⟨1, _⟩ => rfl)
  have e2 : idx_main_v40 (ridx_main_v41 (ix2 (0 : Fin 1) q) k) = ix2 q k :=
    funext fun a => Fin.ext (by match a with | ⟨0, _⟩ => rfl | ⟨1, _⟩ => rfl)
  rw [e1, e2]

theorem ref50_at (q : Fin 512) :
    val_main_v50 (F := Ideal) x0 x3 x4 x5 x6 x7 x8 x9 x10 x11 x12 x13 x14 x15 (ix2 0 q)
      = Spec.gateH (fun k => val_main_v6 (F := Ideal) x0 x6 (ix2 0 k)) (fun q k => x14 (ix2 q k)) (fun q => x15 (ix1 q))
          (fun k => x4 (ix2 0 k)) (fun q k => val_main_v35 (F := Ideal) x3 x5 x7 x8 x9 x10 x11 x12 (ix2 q k))
          (fun q => x13 (ix1 q)) q := by
  rw [val_main_v50_apply, val_main_v49_apply, val_main_cst_5_apply, val_main_v48_apply, val_main_v47_apply,
    val_main_cst_4_apply, val_main_v46_apply, val_main_v45_apply, host_logistic, val_main_v44_apply, val_main_v42_apply,
    val_main_v39_apply, v37_at, v38_at, v41_at, v43_at]
  rfl

/-! ## The scores -/

theorem v53_at (v : Fin 50000) : val_main_v53 (F := Ideal) x17 (ix2 0 v) = x17 (ix1 v) := by
  rw [val_main_v53_apply]
  exact congrArg x17 (funext fun a => Fin.ext (by match a with | ⟨0, _⟩ => rfl))

/-- ⟨g, W(v, ·)⟩ with g the recurrent gate. -/
theorem v52_at (v : Fin 50000) :
    val_main_v52 (F := Ideal) x0 x3 x4 x5 x6 x7 x8 x9 x10 x11 x12 x13 x14 x15 x16 (ix2 0 v)
      = ∑ k : Fin 512, val_main_v50 (F := Ideal) x0 x3 x4 x5 x6 x7 x8 x9 x10 x11 x12 x13 x14 x15 (ix2 0 k) * x16 (ix2 v k) := by
  rw [val_main_v52_apply]
  refine Finset.sum_congr rfl fun k _ => ?_
  rw [val_main_v51_apply]
  have e1 : lidx_main_v52 (ix2 (0 : Fin 1) v) k = ix2 0 k :=
    funext fun a => Fin.ext (by match a with | ⟨0, _⟩ => rfl | ⟨1, _⟩ => rfl)
  have e2 : idx_main_v51 (ridx_main_v52 (ix2 (0 : Fin 1) v) k) = ix2 v k :=
    funext fun a => Fin.ext (by match a with | ⟨0, _⟩ => rfl | ⟨1, _⟩ => rfl)
  rw [e1, e2]

theorem ref54_at (v : Fin 50000) :
    val_main_v54 (F := Ideal) x0 x3 x4 x5 x6 x7 x8 x9 x10 x11 x12 x13 x14 x15 x16 x17 (ix2 0 v)
      = Spec.score (fun k => val_main_v50 (F := Ideal) x0 x3 x4 x5 x6 x7 x8 x9 x10 x11 x12 x13 x14 x15 (ix2 0 k))
          (fun n k => x16 (ix2 n k)) (fun n => x17 (ix1 n)) v := by
  rw [val_main_v54_apply, v52_at, v53_at]
  rfl

end Cert.Proof.RefAt

end
-- ==== Proof.Bridge.lean ====
/-
  The reference's stages are the families of the launch memory: its first gate, its context matrix (the flat context
  row reshaped row-major), its recurrent gate and its scores, each read at an entry.
-/
import proofs.«148062_j63093069578506_2_alg».proof.Proof.Families
import proofs.«148062_j63093069578506_2_alg».proof.Proof.RefAt

set_option maxRecDepth 16384

noncomputable section

namespace Cert.KernelIdeal.Run

open Cert.KernelIdeal
open Idealize.ShloMosaic Idealize.ShloMosaic.TcCoe Idealize.ShloMosaic.ValueIdx
open Idealize.SL Idealize.SL.Sem
open Cert.Proof Cert.ReferenceIdeal.Read

variable (m : (ℓ : Loc nD τ sig) → Buf (Elt Ideal) ℓ) (c : Dev nD)

theorem r24 (q : Fin 512) : val_main_v24 (F := Ideal) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (ix2 0 q) = gA m c q :=
  RefAt.ref24_at _ _ _ _ _ _ q

theorem r35 (a b : Fin 512) : val_main_v35 (F := Ideal) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 a b) = cA m c ⟨512 * a.val + b.val, ctx_lt a b⟩ := by
  refine (RefAt.ref35_at _ _ _ _ _ _ _ _ a b).trans ?_
  unfold cA
  rw [show (fun k : Fin 512 => val_main_v24 (F := Ideal) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (ix2 0 k)) = gA m c from funext (r24 m c)]

theorem r50 (q : Fin 512) : val_main_v50 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 0 q) = hA m c q := by
  refine (RefAt.ref50_at _ _ _ _ _ _ _ _ _ _ _ _ _ _ q).trans ?_
  unfold hA
  rw [show (fun (a b : Fin 512) => val_main_v35 (F := Ideal) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 a b)) = fun a b => cA m c ⟨512 * a.val + b.val, ctx_lt a b⟩
    from funext fun a => funext fun b => r35 m c a b]

theorem r54 (v : Fin 50000) : val_main_v54 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 0 v) = sA m c v := by
  refine (RefAt.ref54_at _ _ _ _ _ _ _ _ _ _ _ _ _ _ _ _ v).trans ?_
  unfold sA
  rw [show (fun k : Fin 512 => val_main_v50 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 0 k)) = hA m c from funext (r50 m c)]

end Cert.KernelIdeal.Run

end
-- ==== Proof.ClaimAlg.lean ====
/-
  The value claim: run from memories that agree on the arguments, the idealized kernel program and the idealized
  reference end with equal results.

  The kernel program's three results are the families of its launch memory (the scores, the recurrent gate, the first
  gate), entry by entry; the reference's three results are the same families of ITS launch memory; the memories agree
  on every argument.  No law beyond that is needed: the two programs take the same sums in the same order, and differ
  only in how the arrays are tiled, transposed and reshaped.
-/
import proofs.«148062_j63093069578506_2_alg».proof.Defs
import proofs.«148062_j63093069578506_2_alg».proof.Proof.ClaimFrames
import proofs.«148062_j63093069578506_2_alg».proof.Proof.KVal
import proofs.«148062_j63093069578506_2_alg».proof.Proof.Bridge
import proofs.«148062_j63093069578506_2_alg».proof.Proof.RefSide

set_option maxRecDepth 16384

noncomputable section

namespace Cert.Proof.Alg

open Cert.KernelIdeal Cert.KernelIdeal.Gen Cert.KernelIdeal.Run
open Idealize.ShloMosaic Idealize.ShloMosaic.TcCoe Idealize.ShloMosaic.ValueIdx
open Idealize.SL Idealize.SL.Sem
open Cert.ReferenceIdeal.Read

variable (m : (ℓ : Loc nD τ sig) → Buf (Elt Ideal) ℓ) (c : Dev nD)

/-- The reference's score row, of the kernel program's launch arrays, is the kernel program's score row. -/
theorem res54 : val_main_v54 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = W5 m c (Proc.devRef .tc main_v19_1) := by
  funext i
  obtain ⟨p, v, rfl⟩ : ∃ (p : Fin 1) (v : Fin 50000), i = ix2 p v := ⟨i 0, i 1, eq_ix2 i⟩
  obtain rfl : p = 0 := Subsingleton.elim _ _
  exact (r54 m c v).trans (kv19_1 m c v).symm

/-- Likewise the recurrent gate, -/
theorem res50 : val_main_v50 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W5 m c (Proc.devRef .tc main_v19_0) := by
  funext i
  obtain ⟨p, q, rfl⟩ : ∃ (p : Fin 1) (q : Fin 512), i = ix2 p q := ⟨i 0, i 1, eq_ix2 i⟩
  obtain rfl : p = 0 := Subsingleton.elim _ _
  exact (r50 m c q).trans (kv19_0 m c q).symm

/-- and the first gate. -/
theorem res24 : val_main_v24 (F := Ideal) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) = W5 m c (Proc.devRef .tc main_v16) := by
  funext i
  obtain ⟨p, q, rfl⟩ : ∃ (p : Fin 1) (q : Fin 512), i = ix2 p q := ⟨i 0, i 1, eq_ix2 i⟩
  obtain rfl : p = 0 := Subsingleton.elim _ _
  exact (r24 m c q).trans (kv16 m c q).symm

theorem algebraic : Cert.algebraic_KernelIdeal_ReferenceIdeal := by
  intro m ρ m' ρ' _ hagree
  refine ⟨fun c => W5 m c (Proc.devRef .tc main_v19_1), fun c => W5 m c (Proc.devRef .tc main_v19_0), fun c => W5 m c (Proc.devRef .tc main_v16), ?_, ?_⟩
  · exact (θ_run Cert.KernelIdeal.defs _ _).mono (fun r h c =>
      ⟨h c _ (mem_uc main_v19_1 (by decide)), h c _ (mem_uc main_v19_0 (by decide)), h c _ (mem_uc main_v16 (by decide)),
       (h c _ (mem_uc main_arg0 (by decide))).trans (W5_arg0 m c),
       (h c _ (mem_uc main_arg1 (by decide))).trans (W5_arg1 m c),
       (h c _ (mem_uc main_arg2 (by decide))).trans (W5_arg2 m c),
       (h c _ (mem_uc main_arg3 (by decide))).trans (W5_arg3 m c),
       (h c _ (mem_uc main_arg4 (by decide))).trans (W5_arg4 m c),
       (h c _ (mem_uc main_arg5 (by decide))).trans (W5_arg5 m c),
       (h c _ (mem_uc main_arg6 (by decide))).trans (W5_arg6 m c),
       (h c _ (mem_uc main_arg7 (by decide))).trans (W5_arg7 m c),
       (h c _ (mem_uc main_arg8 (by decide))).trans (W5_arg8 m c),
       (h c _ (mem_uc main_arg9 (by decide))).trans (W5_arg9 m c),
       (h c _ (mem_uc main_arg10 (by decide))).trans (W5_arg10 m c),
       (h c _ (mem_uc main_arg11 (by decide))).trans (W5_arg11 m c),
       (h c _ (mem_uc main_arg12 (by decide))).trans (W5_arg12 m c),
       (h c _ (mem_uc main_arg13 (by decide))).trans (W5_arg13 m c),
       (h c _ (mem_uc main_arg14 (by decide))).trans (W5_arg14 m c),
       (h c _ (mem_uc main_arg15 (by decide))).trans (W5_arg15 m c),
       (h c _ (mem_uc main_arg16 (by decide))).trans (W5_arg16 m c),
       (h c _ (mem_uc main_arg17 (by decide))).trans (W5_arg17 m c)⟩)
      (Cert.KernelIdeal.Run.run m ρ)
  · refine (θ_run Cert.ReferenceIdeal.defs _ _).mono (fun r h c => ?_) (Cert.Proof.RefSide.ref_run m' ρ')
    obtain ⟨h0, h1, h2, h3, h4, h5, h6, h7, h8, h9, h10, h11, h12, h13, h14, h15, h16, h17⟩ := hagree c
    obtain ⟨e54, e50, e24, hargs⟩ := h c
    refine ⟨e54.trans ?_, e50.trans ?_, e24.trans ?_, hargs⟩
    · rw [h0, h3, h4, h5, h6, h7, h8, h9, h10, h11, h12, h13, h14, h15, h16, h17]; exact res54 m c
    · rw [h0, h3, h4, h5, h6, h7, h8, h9, h10, h11, h12, h13, h14, h15]; exact res50 m c
    · rw [h3, h5, h7, h8, h9, h10]; exact res24 m c

end Cert.Proof.Alg

end
-- ==== Proof.lean ====
/-
  The certificate of a one-step gated recurrent cell with a hypernetwork context matrix and an output projection,
  written as three tiled device calls, against its plain array reference.

  The computation, on a state row h3 and a state row h (512 lanes each), one table row e selected by an index, and an
  interval t:
      g  = logistic (t · w_int + b_int + h3 · W₃ᵀ + b₃)                 the new first state            [1, 512]
      c  = logistic (g · W_cᵀ + b_c)                                     a flat row of 512 · 512 entries, read as the
                                                                          matrix C row-major
      h' = logistic (e · W_xᵀ + b_x + h · Cᵀ + b_i)                      the new recurrent state         [1, 512]
      s  = h' · W_fᵀ + b_f                                               the scores                      [1, 50000]
  The device program computes g in one call on whole arrays; c in 64 blocks of 4096 entries, each against 4096 rows of
  W_c; and h', s in 98 blocks of 512 scores, h' recomputed and stored at every block, the last block cut to the 336
  scores that remain.  The reference computes the same four lines with transposes, one product per line.

  What is proved.  (1) The word-level program runs to the end without a fault and leaves its arguments unchanged; its
  proof never names what the blocks hold, since at the word level the matrix unit's product is a function of its whole
  operands and the cut block's unnamed tail enters it.  (2) On the extended reals, where a product into a zero
  accumulator is the plain finite sum, each score lane depends on one row of the weight block and one lane of the bias
  block, so on the lanes inside the array the cut block's value is named; the program's run then has every output
  array in closed form, and its three results are g, h', s of the arguments, entry by entry.  (3) The reference's run
  has the same three results.  (4) Memories that agree on the arguments give equal results: the two programs take the
  same sums in the same order, and no law of the reals that could fail at an infinity is used, so the precondition
  is not opened.  (5) The idealization rewrote nothing, so there is nothing to preserve.
-/
import proofs.«148062_j63093069578506_2_alg».proof.Defs
import proofs.«148062_j63093069578506_2_alg».proof.Proof.Gen.Kernel
import proofs.«148062_j63093069578506_2_alg».proof.Proof.Gen.KernelIdeal
import proofs.«148062_j63093069578506_2_alg».proof.Proof.Gen.ReferenceIdeal
import proofs.«148062_j63093069578506_2_alg».proof.Proof.Gen.Pre_finite_inputs
import proofs.«148062_j63093069578506_2_alg».proof.Proof.BitsFrame
import proofs.«148062_j63093069578506_2_alg».proof.Proof.ClaimFrames
import proofs.«148062_j63093069578506_2_alg».proof.Proof.RefSide
import proofs.«148062_j63093069578506_2_alg».proof.Proof.ClaimAlg

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.BitsFrame.frame, Cert.Proof.Frames.frame_ki, Cert.Proof.RefSide.frame_ri, trivial, Cert.Proof.Alg.algebraic⟩

end Cert.Proof

end
